-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x1 : Shape := ⟨3, ![4, 8192, 1]⟩
abbrev S4x1x8192 : Shape := ⟨3, ![4, 1, 8192]⟩
abbrev S1x512x3 : Shape := ⟨3, ![1, 512, 3]⟩
abbrev S1x3x2048 : Shape := ⟨3, ![1, 3, 2048]⟩
abbrev S1x512x1 : Shape := ⟨3, ![1, 512, 1]⟩
abbrev S1x1x8192 : Shape := ⟨3, ![1, 1, 8192]⟩
abbrev S512x3 : Shape := ⟨2, ![512, 3]⟩
abbrev S512x2048 : Shape := ⟨2, ![512, 2048]⟩
abbrev S512x1 : Shape := ⟨2, ![512, 1]⟩
abbrev S1x1x2048 : Shape := ⟨3, ![1, 1, 2048]⟩
abbrev S2048 : Shape := ⟨1, ![2048]⟩
abbrev S1x2048 : Shape := ⟨2, ![1, 2048]⟩
abbrev S512 : Shape := ⟨1, ![512]⟩
abbrev S4x8192 : Shape := ⟨2, ![4, 8192]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192x1, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x512x1, .f32⟩
  | .local _ .vmem, ⟨5, _⟩ => ⟨S1x512x1, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 4], ![false, false, false]⟩

def k0_mult1 (i : grid0.Coords) : BitVec 32 :=
  let arg2 : BitVec 32 := BitVec.ofNat 32 (i 2).val
  let c2048_i32 : BitVec 32 := 2048#32
  let v47 : BitVec 32 := Scalar.muli arg2 c2048_i32
  v47
def k0_off1 (i : grid0.Coords) : Fin 3 → Nat :=
  let c0_21 : Index := 0#32
  let c0_22 : Index := 0#32
  let arg2 : BitVec 32 := BitVec.ofNat 32 (i 2).val
  let c2048_i32 : BitVec 32 := 2048#32
  let v47 : BitVec 32 := Scalar.muli arg2 c2048_i32
  let v48 : BitVec 32 := v47
  let v49 : Index := Scalar.indexCast v48
  ![0, 0, v49.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S1x1x8192_S1x1x8192_0_0_0 : ∀ a, (![0, 0, 0] : Fin 3 → Nat) a + S1x1x8192.size a ≤ S1x1x8192.size a
  h_S1x1x8192 : 0 < S1x1x8192.numel
  inb_S1x512x1_S1x512x1_0_0_0 : ∀ a, (![0, 0, 0] : Fin 3 → Nat) a + S1x512x1.size a ≤ S1x512x1.size a
  h_S1x512x1 : 0 < S1x512x1.numel
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  inb_S1x3x2048_S1x1x2048_0_0_0 : ∀ a, (![0, 0, 0] : Fin 3 → Nat) a + S1x1x2048.size a ≤ S1x3x2048.size a
  h_S1x1x2048 : 0 < S1x1x2048.numel
  shapeCasts_S1x1x2048_S2048 : S1x1x2048.ShapeCasts S2048
  shapeCasts_S2048_S1x2048 : S2048.ShapeCasts S1x2048
  broadcasts_S512x1_S512x2048 : S512x1.Broadcasts S512x2048
  broadcasts_S1x2048_S512x2048 : S1x2048.Broadcasts S512x2048
  slices_S512x3_o0_1_S512x1 : S512x3.Slices ![0, 1] S512x1
  inb_S1x3x2048_S1x1x2048_0_1_0 : ∀ a, (![0, 1, 0] : Fin 3 → Nat) a + S1x1x2048.size a ≤ S1x3x2048.size a
  slices_S512x3_o0_2_S512x1 : S512x3.Slices ![0, 2] S512x1
  inb_S1x3x2048_S1x1x2048_0_2_0 : ∀ a, (![0, 2, 0] : Fin 3 → Nat) a + S1x1x2048.size a ≤ S1x3x2048.size a
  reduces_S512x2048_S512 : S512x2048.Reduces [1] S512
  shapeCasts_S512_S512x1 : S512.ShapeCasts S512x1
  shapeCasts_S1x512x1_S512x1 : S1x512x1.ShapeCasts S512x1
  shapeCasts_S512x1_S1x512x1 : S512x1.ShapeCasts S1x512x1
  reduces_S512x2048_S2048 : S512x2048.Reduces [0] S2048
  shapeCasts_S2048_S1x1x2048 : S2048.ShapeCasts S1x1x2048
  shapeCasts_S1x1x8192_S1x1x8192 : S1x1x8192.ShapeCasts S1x1x8192
  shapeCasts_S4x8192x1_S4x8192 : S4x8192x1.ShapeCasts S4x8192
  shapeCasts_S4x1x8192_S4x8192 : S4x1x8192.ShapeCasts S4x8192
  reducesTo_S4x8192_S_d0_1 : S4x8192.ReducesTo [0, 1] S_
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S1x1x2048.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x8192x3.size a
  hwx0_0 : ∀ i : grid0.Coords, EltTy.bits .f32 = 32 ∨ (Rect.block (s := S4x8192x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x8192x1.size a
  hwx0_2 : ∀ i : grid0.Coords, EltTy.bits .f32 = 32 ∨ (Rect.block (s := S4x8192x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S_d0_1 : S4x8192.ReducesTo [0, 1] S_
  reducesTo_S4x8192x8192_S4x8192_d1 : S4x8192x8192.ReducesTo [1] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.Cases.lean ====
/-
  The body's four branches, decided over the grid. A grid point t = 64·b + 4·i + j stands for batch b, row block i
  (512 rows) and column block j (2048 columns). The column-minimum block is reset when i = j = 0 (t ≡ 0 mod 64), the
  row-minimum block when j = 0 (t ≡ 0 mod 4); the row block takes its square root when j = 3 (t ≡ 3 mod 4), the column
  block when i = 15 and j = 3 (t ≡ 63 mod 64). Also: each window's staging memref at a point, as the pipeline passes it.
-/
import proofs.«154686_j9887014715551_2_alg».proof.Proof.Gen.Kernel.Launch
import proofs.«154686_j9887014715551_2_alg».proof.Proof.Gen.Kernel.Skeleton
import proofs.«154686_j9887014715551_2_alg».proof.Proof.Gen.Kernel.Points
import proofs.«154686_j9887014715551_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-minimum block is reset: row block 0 and column block 0. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- The row-minimum block is reset: column block 0. -/
abbrev cond0_1 (i : grid0.Coords) : Prop :=
  (Scalar.cmpi .ne (Scalar.extui (Scalar.cmpi .eq (BitVec.ofNat 32 (i 2).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- The row-minimum block takes its square root: the last column block. -/
abbrev cond0_2 (i : grid0.Coords) : Prop :=
  (Scalar.cmpi .ne (Scalar.extui (Scalar.cmpi .eq (BitVec.ofNat 32 (i 2).val) 3#32)) 0#32) = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- The column-minimum block takes its square root: the last row block and the last column block. -/
abbrev cond0_3 (i : grid0.Coords) : Prop :=
  (Scalar.cmpi .ne (Scalar.extui (Scalar.andi (Scalar.cmpi .eq (BitVec.ofNat 32 (i 1).val) 15#32) (Scalar.cmpi .eq (BitVec.ofNat 32 (i 2).val) 3#32))) 0#32) = 1#1
theorem hcond0_3 : ∀ t : Fin cfg0.N, cond0_3 (grid0.coords t) ↔ t.val % 64 = 63 :=
  (by decide +kernel : ∀ t : Fin grid0.N, cond0_3 (grid0.coords t) ↔ t.val % 64 = 63)

/-- Each window's current staging memref at point `t`, spelled as the pipeline passes it, and its wholeness. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

end Cert.Kernel.Gen

end
-- ==== Proof.K.RunA.lean ====
/-
  The body at a point with row block 0 and column block 0 (t ≡ 0 mod 64): both accumulators are reset to +∞ before the tile's minima are folded in; no square root.
-/
import proofs.«154686_j9887014715551_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at anything (the case stores each whole before using it), with these branches: it runs to the
    continuation with the inputs as they were and each output's memref overwritten by the stores the body makes in this case
    (newest first). -/
noncomputable def kernelRun0_A (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

end Cert.Kernel.Gen

end
-- ==== Proof.K.RunB.lean ====
/-
  The body at a point with column block 1 or 2: no reset, no square root; the tile's row minima and column minima are folded into what the point before left.
-/
import proofs.«154686_j9887014715551_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at what the point before left (`xo2`, `xo3`), with these branches: it runs to the
    continuation with the inputs as they were and each output's memref overwritten by the stores the body makes in this case
    (newest first). -/
noncomputable def kernelRun0_B (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : ¬cond0_2 i) (hc3 : ¬cond0_3 i)
    (x0 : Vec F S1x512x3 .f32) (x1 : Vec F S1x3x2048 .f32) (xo2 : Vec F S1x512x1 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    iexact H3

end Cert.Kernel.Gen

end
-- ==== Proof.K.RunC.lean ====
/-
  The body at a point with the last column block but not the last row block (t ≡ 3 mod 4, t ≢ 63 mod 64): the row minima are complete and take their square root; the column minima go on accumulating.
-/
import proofs.«154686_j9887014715551_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at what the point before left (`xo2`, `xo3`), with these branches: it runs to the
    continuation with the inputs as they were and each output's memref overwritten by the stores the body makes in this case
    (newest first). -/
noncomputable def kernelRun0_C (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : ¬cond0_3 i)
    (x0 : Vec F S1x512x3 .f32) (x1 : Vec F S1x3x2048 .f32) (xo2 : Vec F S1x512x1 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    iexact H3

end Cert.Kernel.Gen

end
-- ==== Proof.K.RunD.lean ====
/-
  The body at a point with column block 0 and a later row block (t ≡ 0 mod 4, t ≢ 0 mod 64): the row accumulator is reset to +∞, the column accumulator goes on.
-/
import proofs.«154686_j9887014715551_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the row block at anything (the case stores it whole before using it) and the column block at what the point before left (`xo3`), with these branches: it runs to the
    continuation with the inputs as they were and each output's memref overwritten by the stores the body makes in this case
    (newest first). -/
noncomputable def kernelRun0_D (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.Kernel.Gen

end
-- ==== Proof.K.RunE.lean ====
/-
  The body at the last point of a batch (t ≡ 63 mod 64): both accumulators are complete and take their square roots.
-/
import proofs.«154686_j9887014715551_2_alg».proof.Proof.K.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at what the point before left (`xo2`, `xo3`), with these branches: it runs to the
    continuation with the inputs as they were and each output's memref overwritten by the stores the body makes in this case
    (newest first). -/
noncomputable def kernelRun0_E (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : cond0_3 i)
    (x0 : Vec F S1x512x3 .f32) (x1 : Vec F S1x3x2048 .f32) (xo2 : Vec F S1x512x1 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    iexact H3

end Cert.Kernel.Gen

end
-- ==== Proof.K.Outs.lean ====
/-
  What each case of the body leaves in the two output blocks: the stores the body makes in that case, read back. Where a case
  stores a block whole before using it (both blocks when both are reset, the row block when it alone is reset) nothing
  of the entry contents survives: the result is the stores read back over junk, and the stores cover the block. Else
  the result is the stores read back over the contents the block had on entry: the row block is always stored whole;
  the column block is stored one 2048-wide slice at a time, so outside the slice it keeps what it had.
-/
import proofs.«154686_j9887014715551_2_alg».proof.Proof.K.RunA
import proofs.«154686_j9887014715551_2_alg».proof.Proof.K.RunB
import proofs.«154686_j9887014715551_2_alg».proof.Proof.K.RunC
import proofs.«154686_j9887014715551_2_alg».proof.Proof.K.RunD
import proofs.«154686_j9887014715551_2_alg».proof.Proof.K.RunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of each output window, through which a covered block's contents are stated (the choice does
    not matter: the stores cover the block). -/
abbrev VO0_2 : View sig .tc .vmem S1x512x1 .f32 := (Memref.whole cc0_stg2_0 : Memref sig .tc .vmem S1x512x1 .f32).view
abbrev VO0_3 : View sig .tc .vmem S1x1x8192 .f32 := (Memref.whole cc0_stg3_0 : Memref sig .tc .vmem S1x1x8192 .f32).view

/-- Case A's stores into the row block include a store of the whole block: they cover it. -/
theorem cover0_A_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) (y : S1x512x1.Idx) :
    ∃ pc ∈ (kernelRun0_A c i arg3 harg3 arg4 harg4 arg5 harg5 arg6 harg6 hc0 hc1 hc2 hc3 x0 x1).1, y ∈ pc.1.set :=
  View.cover_of_wholeMem (kernelRun0_A c i arg3 harg3 arg4 harg4 arg5 harg5 arg6 harg6 hc0 hc1 hc2 hc3 x0 x1).1 (by sl_whole_mem) y
/-- Case A's stores into the column block include a store of the whole block: they cover it. -/
theorem cover0_A_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) (y : S1x1x8192.Idx) :
    ∃ pc ∈ (kernelRun0_A c i arg3 harg3 arg4 harg4 arg5 harg5 arg6 harg6 hc0 hc1 hc2 hc3 x0 x1).2.1, y ∈ pc.1.set :=
  View.cover_of_wholeMem (kernelRun0_A c i arg3 harg3 arg4 harg4 arg5 harg5 arg6 harg6 hc0 hc1 hc2 hc3 x0 x1).2.1 (by sl_whole_mem) y
/-- Case A: the row block after the body. -/
def out0_A_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) : Vec F S1x512x1 .f32 :=
  VO0_2.read (Elt F) (VO0_2.writes (Elt F) VO0_2.junk (kernelRun0_A c i arg3 harg3 arg4 harg4 arg5 harg5 arg6 harg6 hc0 hc1 hc2 hc3 x0 x1).1)
/-- Case A: the column block after the body. -/
def out0_A_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) : Vec F S1x1x8192 .f32 :=
  VO0_3.read (Elt F) (VO0_3.writes (Elt F) VO0_3.junk (kernelRun0_A c i arg3 harg3 arg4 harg4 arg5 harg5 arg6 harg6 hc0 hc1 hc2 hc3 x0 x1).2.1)

/-- Case B: the row block after the body. -/
def out0_B_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : ¬cond0_2 i) (hc3 : ¬cond0_3 i)
    (x0 : Vec F S1x512x3 .f32) (x1 : Vec F S1x3x2048 .f32) (xo2 : Vec F S1x512x1 .f32) (xo3 : Vec F S1x1x8192 .f32) : Vec F S1x512x1 .f32 :=
  arg5.view.read (Elt F) (arg5.view.writes (Elt F) (harg5.unread xo2) (kernelRun0_B c i arg3 harg3 arg4 harg4 arg5 harg5 arg6 harg6 hc0 hc1 hc2 hc3 x0 x1 xo2 xo3).1)
/-- Case B: the column block after the body. -/
def out0_B_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : ¬cond0_2 i) (hc3 : ¬cond0_3 i)
    (x0 : Vec F S1x512x3 .f32) (x1 : Vec F S1x3x2048 .f32) (xo2 : Vec F S1x512x1 .f32) (xo3 : Vec F S1x1x8192 .f32) : Vec F S1x1x8192 .f32 :=
  arg6.view.read (Elt F) (arg6.view.writes (Elt F) (harg6.unread xo3) (kernelRun0_B c i arg3 harg3 arg4 harg4 arg5 harg5 arg6 harg6 hc0 hc1 hc2 hc3 x0 x1 xo2 xo3).2.1)

/-- Case C: the row block after the body. -/
def out0_C_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : ¬cond0_3 i)
    (x0 : Vec F S1x512x3 .f32) (x1 : Vec F S1x3x2048 .f32) (xo2 : Vec F S1x512x1 .f32) (xo3 : Vec F S1x1x8192 .f32) : Vec F S1x512x1 .f32 :=
  arg5.view.read (Elt F) (arg5.view.writes (Elt F) (harg5.unread xo2) (kernelRun0_C c i arg3 harg3 arg4 harg4 arg5 harg5 arg6 harg6 hc0 hc1 hc2 hc3 x0 x1 xo2 xo3).1)
/-- Case C: the column block after the body. -/
def out0_C_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : ¬cond0_3 i)
    (x0 : Vec F S1x512x3 .f32) (x1 : Vec F S1x3x2048 .f32) (xo2 : Vec F S1x512x1 .f32) (xo3 : Vec F S1x1x8192 .f32) : Vec F S1x1x8192 .f32 :=
  arg6.view.read (Elt F) (arg6.view.writes (Elt F) (harg6.unread xo3) (kernelRun0_C c i arg3 harg3 arg4 harg4 arg5 harg5 arg6 harg6 hc0 hc1 hc2 hc3 x0 x1 xo2 xo3).2.1)

/-- Case D's stores into the row block include a store of the whole block: they cover it. -/
theorem cover0_D_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) (y : S1x512x1.Idx) :
    ∃ pc ∈ (kernelRun0_D c i arg3 harg3 arg4 harg4 arg5 harg5 arg6 harg6 hc0 hc1 hc2 hc3 x0 x1 xo3).1, y ∈ pc.1.set :=
  View.cover_of_wholeMem (kernelRun0_D c i arg3 harg3 arg4 harg4 arg5 harg5 arg6 harg6 hc0 hc1 hc2 hc3 x0 x1 xo3).1 (by sl_whole_mem) y
/-- Case D: the row block after the body. -/
def out0_D_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) : Vec F S1x512x1 .f32 :=
  VO0_2.read (Elt F) (VO0_2.writes (Elt F) VO0_2.junk (kernelRun0_D c i arg3 harg3 arg4 harg4 arg5 harg5 arg6 harg6 hc0 hc1 hc2 hc3 x0 x1 xo3).1)
/-- Case D: the column block after the body. -/
def out0_D_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) : Vec F S1x1x8192 .f32 :=
  arg6.view.read (Elt F) (arg6.view.writes (Elt F) (harg6.unread xo3) (kernelRun0_D c i arg3 harg3 arg4 harg4 arg5 harg5 arg6 harg6 hc0 hc1 hc2 hc3 x0 x1 xo3).2.1)

/-- Case E: the row block after the body. -/
def out0_E_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : cond0_3 i)
    (x0 : Vec F S1x512x3 .f32) (x1 : Vec F S1x3x2048 .f32) (xo2 : Vec F S1x512x1 .f32) (xo3 : Vec F S1x1x8192 .f32) : Vec F S1x512x1 .f32 :=
  arg5.view.read (Elt F) (arg5.view.writes (Elt F) (harg5.unread xo2) (kernelRun0_E c i arg3 harg3 arg4 harg4 arg5 harg5 arg6 harg6 hc0 hc1 hc2 hc3 x0 x1 xo2 xo3).1)
/-- Case E: the column block after the body. -/
def out0_E_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : cond0_3 i)
    (x0 : Vec F S1x512x3 .f32) (x1 : Vec F S1x3x2048 .f32) (xo2 : Vec F S1x512x1 .f32) (xo3 : Vec F S1x1x8192 .f32) : Vec F S1x1x8192 .f32 :=
  arg6.view.read (Elt F) (arg6.view.writes (Elt F) (harg6.unread xo3) (kernelRun0_E c i arg3 harg3 arg4 harg4 arg5 harg5 arg6 harg6 hc0 hc1 hc2 hc3 x0 x1 xo2 xo3).2.1)

end Cert.Kernel.Gen

end
-- ==== Proof.K.Frame.lean ====
/-
  The frame of the kernel program: the proof data of its one pipeline and the body's obligation at every grid point.
  A point t = 64·b + 4·i + j leaves in the row block and the column block what the case the point is in computes from
  the two input blocks and from what the point before left (`stepAt`); `outsAt0` is that recursion from the first
  point. Where a block is fresh — the row block when j = 0 (first point, or written back at the point before), the
  column block when i = j = 0 — the case stores it whole before using it, so nothing is asked of its contents.
-/
import proofs.«154686_j9887014715551_2_alg».proof.Proof.K.Outs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's results at a grid point -/

/-- Case A at point `t`: on the point's staging memrefs and input blocks. -/
abbrev at_A_2 (c : Dev nD) (t : Fin cfg0.N) (hc0 : cond0_0 (grid0.coords t)) (hc1 : cond0_1 (grid0.coords t)) (hc2 : ¬cond0_2 (grid0.coords t)) (hc3 : ¬cond0_3 (grid0.coords t)) : Vec F S1x512x1 .f32 :=
  out0_A_2 c (grid0.coords t) (ms0_0 t) (hs0_0 t) (ms0_1 t) (hs0_1 t) (ms0_2 t) (hs0_2 t) (ms0_3 t) (hs0_3 t) hc0 hc1 hc2 hc3 (iblk m c 0 t) (iblk m c 1 t)
abbrev at_A_3 (c : Dev nD) (t : Fin cfg0.N) (hc0 : cond0_0 (grid0.coords t)) (hc1 : cond0_1 (grid0.coords t)) (hc2 : ¬cond0_2 (grid0.coords t)) (hc3 : ¬cond0_3 (grid0.coords t)) : Vec F S1x1x8192 .f32 :=
  out0_A_3 c (grid0.coords t) (ms0_0 t) (hs0_0 t) (ms0_1 t) (hs0_1 t) (ms0_2 t) (hs0_2 t) (ms0_3 t) (hs0_3 t) hc0 hc1 hc2 hc3 (iblk m c 0 t) (iblk m c 1 t)
/-- Case B at point `t`: on the point's staging memrefs and input blocks. -/
abbrev at_B_2 (c : Dev nD) (t : Fin cfg0.N) (hc0 : ¬cond0_0 (grid0.coords t)) (hc1 : ¬cond0_1 (grid0.coords t)) (hc2 : ¬cond0_2 (grid0.coords t)) (hc3 : ¬cond0_3 (grid0.coords t)) (xo2 : Vec F S1x512x1 .f32) (xo3 : Vec F S1x1x8192 .f32) : Vec F S1x512x1 .f32 :=
  out0_B_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
abbrev at_B_3 (c : Dev nD) (t : Fin cfg0.N) (hc0 : ¬cond0_0 (grid0.coords t)) (hc1 : ¬cond0_1 (grid0.coords t)) (hc2 : ¬cond0_2 (grid0.coords t)) (hc3 : ¬cond0_3 (grid0.coords t)) (xo2 : Vec F S1x512x1 .f32) (xo3 : Vec F S1x1x8192 .f32) : Vec F S1x1x8192 .f32 :=
  out0_B_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
/-- Case C at point `t`: on the point's staging memrefs and input blocks. -/
abbrev at_C_2 (c : Dev nD) (t : Fin cfg0.N) (hc0 : ¬cond0_0 (grid0.coords t)) (hc1 : ¬cond0_1 (grid0.coords t)) (hc2 : cond0_2 (grid0.coords t)) (hc3 : ¬cond0_3 (grid0.coords t)) (xo2 : Vec F S1x512x1 .f32) (xo3 : Vec F S1x1x8192 .f32) : Vec F S1x512x1 .f32 :=
  out0_C_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
abbrev at_C_3 (c : Dev nD) (t : Fin cfg0.N) (hc0 : ¬cond0_0 (grid0.coords t)) (hc1 : ¬cond0_1 (grid0.coords t)) (hc2 : cond0_2 (grid0.coords t)) (hc3 : ¬cond0_3 (grid0.coords t)) (xo2 : Vec F S1x512x1 .f32) (xo3 : Vec F S1x1x8192 .f32) : Vec F S1x1x8192 .f32 :=
  out0_C_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
/-- Case D at point `t`: on the point's staging memrefs and input blocks. -/
abbrev at_D_2 (c : Dev nD) (t : Fin cfg0.N) (hc0 : ¬cond0_0 (grid0.coords t)) (hc1 : cond0_1 (grid0.coords t)) (hc2 : ¬cond0_2 (grid0.coords t)) (hc3 : ¬cond0_3 (grid0.coords t)) (xo3 : Vec F S1x1x8192 .f32) : Vec F S1x512x1 .f32 :=
  out0_D_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo3
abbrev at_D_3 (c : Dev nD) (t : Fin cfg0.N) (hc0 : ¬cond0_0 (grid0.coords t)) (hc1 : cond0_1 (grid0.coords t)) (hc2 : ¬cond0_2 (grid0.coords t)) (hc3 : ¬cond0_3 (grid0.coords t)) (xo3 : Vec F S1x1x8192 .f32) : Vec F S1x1x8192 .f32 :=
  out0_D_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo3
/-- Case E at point `t`: on the point's staging memrefs and input blocks. -/
abbrev at_E_2 (c : Dev nD) (t : Fin cfg0.N) (hc0 : ¬cond0_0 (grid0.coords t)) (hc1 : ¬cond0_1 (grid0.coords t)) (hc2 : cond0_2 (grid0.coords t)) (hc3 : cond0_3 (grid0.coords t)) (xo2 : Vec F S1x512x1 .f32) (xo3 : Vec F S1x1x8192 .f32) : Vec F S1x512x1 .f32 :=
  out0_E_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
abbrev at_E_3 (c : Dev nD) (t : Fin cfg0.N) (hc0 : ¬cond0_0 (grid0.coords t)) (hc1 : ¬cond0_1 (grid0.coords t)) (hc2 : cond0_2 (grid0.coords t)) (hc3 : cond0_3 (grid0.coords t)) (xo2 : Vec F S1x512x1 .f32) (xo3 : Vec F S1x1x8192 .f32) : Vec F S1x1x8192 .f32 :=
  out0_E_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3

/-! ## What the outputs hold after each point -/

/-- One point's effect on the two output blocks, from what they held on entry: the case the closed forms select. -/
def stepAt (c : Dev nD) (t : Fin cfg0.N) (xo2 : Vec F S1x512x1 .f32) (xo3 : Vec F S1x1x8192 .f32) :
    Vec F S1x512x1 .f32 × Vec F S1x1x8192 .f32 :=
  if h0 : t.val % 64 = 0 then (at_A_2 m c t ((hcond0_0 t).mpr h0) ((hcond0_1 t).mpr (by omega)) (fun h => absurd ((hcond0_2 t).mp h) (by omega)) (fun h => absurd ((hcond0_3 t).mp h) (by omega)), at_A_3 m c t ((hcond0_0 t).mpr h0) ((hcond0_1 t).mpr (by omega)) (fun h => absurd ((hcond0_2 t).mp h) (by omega)) (fun h => absurd ((hcond0_3 t).mp h) (by omega)))
  else if h1 : t.val % 4 = 0 then (at_D_2 m c t (fun h => h0 ((hcond0_0 t).mp h)) ((hcond0_1 t).mpr h1) (fun h => absurd ((hcond0_2 t).mp h) (by omega)) (fun h => absurd ((hcond0_3 t).mp h) (by omega)) xo3, at_D_3 m c t (fun h => h0 ((hcond0_0 t).mp h)) ((hcond0_1 t).mpr h1) (fun h => absurd ((hcond0_2 t).mp h) (by omega)) (fun h => absurd ((hcond0_3 t).mp h) (by omega)) xo3)
  else if h2 : t.val % 4 = 3 then
    if h3 : t.val % 64 = 63 then (at_E_2 m c t (fun h => h0 ((hcond0_0 t).mp h)) (fun h => h1 ((hcond0_1 t).mp h)) ((hcond0_2 t).mpr h2) ((hcond0_3 t).mpr h3) xo2 xo3, at_E_3 m c t (fun h => h0 ((hcond0_0 t).mp h)) (fun h => h1 ((hcond0_1 t).mp h)) ((hcond0_2 t).mpr h2) ((hcond0_3 t).mpr h3) xo2 xo3)
    else (at_C_2 m c t (fun h => h0 ((hcond0_0 t).mp h)) (fun h => h1 ((hcond0_1 t).mp h)) ((hcond0_2 t).mpr h2) (fun h => h3 ((hcond0_3 t).mp h)) xo2 xo3, at_C_3 m c t (fun h => h0 ((hcond0_0 t).mp h)) (fun h => h1 ((hcond0_1 t).mp h)) ((hcond0_2 t).mpr h2) (fun h => h3 ((hcond0_3 t).mp h)) xo2 xo3)
  else (at_B_2 m c t (fun h => h0 ((hcond0_0 t).mp h)) (fun h => h1 ((hcond0_1 t).mp h)) (fun h => h2 ((hcond0_2 t).mp h)) (fun h => absurd ((hcond0_3 t).mp h) (by omega)) xo2 xo3, at_B_3 m c t (fun h => h0 ((hcond0_0 t).mp h)) (fun h => h1 ((hcond0_1 t).mp h)) (fun h => h2 ((hcond0_2 t).mp h)) (fun h => absurd ((hcond0_3 t).mp h) (by omega)) xo2 xo3)

theorem stepAt_A (c : Dev nD) (t : Fin cfg0.N) (h0 : t.val % 64 = 0) (hc0 : cond0_0 (grid0.coords t)) (hc1 : cond0_1 (grid0.coords t)) (hc2 : ¬cond0_2 (grid0.coords t)) (hc3 : ¬cond0_3 (grid0.coords t)) (xo2 : Vec F S1x512x1 .f32) (xo3 : Vec F S1x1x8192 .f32) :
    stepAt m c t xo2 xo3 = (at_A_2 m c t hc0 hc1 hc2 hc3, at_A_3 m c t hc0 hc1 hc2 hc3) := by
  unfold stepAt; rw [dif_pos h0]
theorem stepAt_D (c : Dev nD) (t : Fin cfg0.N) (h0 : ¬t.val % 64 = 0) (h1 : t.val % 4 = 0) (hc0 : ¬cond0_0 (grid0.coords t)) (hc1 : cond0_1 (grid0.coords t)) (hc2 : ¬cond0_2 (grid0.coords t)) (hc3 : ¬cond0_3 (grid0.coords t)) (xo2 : Vec F S1x512x1 .f32) (xo3 : Vec F S1x1x8192 .f32) :
    stepAt m c t xo2 xo3 = (at_D_2 m c t hc0 hc1 hc2 hc3 xo3, at_D_3 m c t hc0 hc1 hc2 hc3 xo3) := by
  unfold stepAt; rw [dif_neg h0, dif_pos h1]
theorem stepAt_E (c : Dev nD) (t : Fin cfg0.N) (h0 : ¬t.val % 64 = 0) (h1 : ¬t.val % 4 = 0) (h2 : t.val % 4 = 3) (h3 : t.val % 64 = 63) (hc0 : ¬cond0_0 (grid0.coords t)) (hc1 : ¬cond0_1 (grid0.coords t)) (hc2 : cond0_2 (grid0.coords t)) (hc3 : cond0_3 (grid0.coords t)) (xo2 : Vec F S1x512x1 .f32) (xo3 : Vec F S1x1x8192 .f32) :
    stepAt m c t xo2 xo3 = (at_E_2 m c t hc0 hc1 hc2 hc3 xo2 xo3, at_E_3 m c t hc0 hc1 hc2 hc3 xo2 xo3) := by
  unfold stepAt; rw [dif_neg h0, dif_neg h1, dif_pos h2, dif_pos h3]
theorem stepAt_C (c : Dev nD) (t : Fin cfg0.N) (h0 : ¬t.val % 64 = 0) (h1 : ¬t.val % 4 = 0) (h2 : t.val % 4 = 3) (h3 : ¬t.val % 64 = 63) (hc0 : ¬cond0_0 (grid0.coords t)) (hc1 : ¬cond0_1 (grid0.coords t)) (hc2 : cond0_2 (grid0.coords t)) (hc3 : ¬cond0_3 (grid0.coords t)) (xo2 : Vec F S1x512x1 .f32) (xo3 : Vec F S1x1x8192 .f32) :
    stepAt m c t xo2 xo3 = (at_C_2 m c t hc0 hc1 hc2 hc3 xo2 xo3, at_C_3 m c t hc0 hc1 hc2 hc3 xo2 xo3) := by
  unfold stepAt; rw [dif_neg h0, dif_neg h1, dif_pos h2, dif_neg h3]
theorem stepAt_B (c : Dev nD) (t : Fin cfg0.N) (h0 : ¬t.val % 64 = 0) (h1 : ¬t.val % 4 = 0) (h2 : ¬t.val % 4 = 3) (hc0 : ¬cond0_0 (grid0.coords t)) (hc1 : ¬cond0_1 (grid0.coords t)) (hc2 : ¬cond0_2 (grid0.coords t)) (hc3 : ¬cond0_3 (grid0.coords t)) (xo2 : Vec F S1x512x1 .f32) (xo3 : Vec F S1x1x8192 .f32) :
    stepAt m c t xo2 xo3 = (at_B_2 m c t hc0 hc1 hc2 hc3 xo2 xo3, at_B_3 m c t hc0 hc1 hc2 hc3 xo2 xo3) := by
  unfold stepAt; rw [dif_neg h0, dif_neg h1, dif_neg h2]

/-- THE SWEEP. What the two output blocks hold after the body at position `n`: one step from what they held after
    position `n - 1`; at the first point both blocks are fresh and the entry contents (here the +∞ blocks) are immaterial. -/
def outsAt0 (c : Dev nD) : (n : ℕ) → n < cfg0.N → Vec F S1x512x1 .f32 × Vec F S1x1x8192 .f32
  | 0, hn => stepAt m c ⟨0, hn⟩ (k0_pay7 (F := F)) (k0_pay6 (F := F))
  | n + 1, hn => stepAt m c ⟨n + 1, hn⟩ (outsAt0 c n (Nat.lt_of_succ_lt hn)).1 (outsAt0 c n (Nat.lt_of_succ_lt hn)).2

/-- What the point before `t` left (at the first point: the +∞ blocks, which no case there reads). -/
def prevAt (c : Dev nD) (t : Fin cfg0.N) : Vec F S1x512x1 .f32 × Vec F S1x1x8192 .f32 :=
  if h : t.val = 0 then (k0_pay7 (F := F), k0_pay6 (F := F))
  else outsAt0 m c (t.val - 1) (Nat.lt_of_le_of_lt (Nat.sub_le _ _) t.isLt)

theorem prevAt_of_ne (c : Dev nD) (t : Fin cfg0.N) (h : t.val ≠ 0) :
    prevAt m c t = outsAt0 m c (t.val - 1) (Nat.lt_of_le_of_lt (Nat.sub_le _ _) t.isLt) := by
  unfold prevAt; rw [dif_neg h]

/-- `outsAt0` at any point is one step from what the point before left. -/
theorem outsAt0_eq (c : Dev nD) (t : Fin cfg0.N) :
    outsAt0 m c t.val t.isLt = stepAt m c t (prevAt m c t).1 (prevAt m c t).2 := by
  obtain ⟨n, hn⟩ := t
  cases n with
  | zero => rfl
  | succ n => rfl

/-! ## The pipeline's proof data -/

/-- The proof data of the one pipeline on core `c`: the arrays as the region finds them; after the body at point `t`
    each input's buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The row block is fresh at a point with column block 0: the first point, or the point after a write-back. -/
theorem before0_2_fresh (c : Dev nD) (t : Fin cfg0.N) (h : t.val % 4 = 0) (d) : (dats m 0 c).before 2 t d = d :=
  Dat.before_out_reset _ 2 rfl t (by
    by_cases h0 : t.val = 0
    · exact .inl h0
    · exact .inr ⟨h0, (flush0_2 _).mpr (by dsimp only; omega)⟩) d
/-- Elsewhere it holds what the body left at the point before. -/
theorem before0_2_kept (c : Dev nD) (t : Fin cfg0.N) (h : ¬t.val % 4 = 0) (d) :
    (dats m 0 c).before 2 t d = (prevAt m c t).1 := by
  have hne : t.val ≠ 0 := fun h0 => h (by rw [h0])
  rw [Dat.before_out_kept _ 2 rfl t hne (Bool.eq_false_iff.mpr fun h' => by have := (flush0_2 _).mp h'; dsimp only at this; omega)
    (fun _ => rfl) (fun _ _ => rfl), prevAt_of_ne m c t hne]
  dsimp only [dats]
/-- The column block is fresh at a batch's first point. -/
theorem before0_3_fresh (c : Dev nD) (t : Fin cfg0.N) (h : t.val % 64 = 0) (d) : (dats m 0 c).before 3 t d = d :=
  Dat.before_out_reset _ 3 rfl t (by
    by_cases h0 : t.val = 0
    · exact .inl h0
    · exact .inr ⟨h0, (flush0_3 _).mpr (by dsimp only; omega)⟩) d
theorem before0_3_kept (c : Dev nD) (t : Fin cfg0.N) (h : ¬t.val % 64 = 0) (d) :
    (dats m 0 c).before 3 t d = (prevAt m c t).2 := by
  have hne : t.val ≠ 0 := fun h0 => h (by rw [h0])
  rw [Dat.before_out_kept _ 3 rfl t hne (Bool.eq_false_iff.mpr fun h' => by have := (flush0_3 _).mp h'; dsimp only at this; omega)
    (fun _ => rfl) (fun _ _ => rfl), prevAt_of_ne m c t hne]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point: the inputs' memrefs hold their blocks; the closed forms say which case the point is in; a
    block that is not fresh holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, outsAt0_eq m c t]
  have hN : t.val < 256 := lt_of_lt_of_eq t.isLt (show cfg0.N = 256 from N_0)
  by_cases h0 : t.val % 64 = 0
  · rw [stepAt_A m c t h0 ((hcond0_0 t).mpr h0) ((hcond0_1 t).mpr (by omega)) (fun h => absurd ((hcond0_2 t).mp h) (by omega)) (fun h => absurd ((hcond0_3 t).mp h) (by omega))]
    simp only [before0_2_fresh m c t (by omega), before0_3_fresh m c t h0]
    unfold at_A_2 at_A_3 out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr (by omega)) (fun h => absurd ((hcond0_2 t).mp h) (by omega)) (fun h => absurd ((hcond0_3 t).mp h) (by omega)) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 _ _ _ _ _ _ _ _ _ _ _ _ _ _ _ _)
    unfold owns; iexists _; isplitr
    swap; · iexact H3
    ipureintro; exact View.read_writes_of_cover _ _ _ _ _ (cover0_A_3 _ _ _ _ _ _ _ _ _ _ _ _ _ _ _ _)
  by_cases h1 : t.val % 4 = 0
  · rw [stepAt_D m c t h0 h1 (fun h => h0 ((hcond0_0 t).mp h)) ((hcond0_1 t).mpr h1) (fun h => absurd ((hcond0_2 t).mp h) (by omega)) (fun h => absurd ((hcond0_3 t).mp h) (by omega))]
    simp only [before0_2_fresh m c t h1, before0_3_kept m c t h0]
    unfold at_D_2 at_D_3 out0_D_2 out0_D_3
    iintro ⟨HΦ, Ho, ⟨%d0, H0⟩, ⟨%d1, H1⟩, ⟨%d2, H2⟩, ⟨%d3, H3⟩⟩
    iapply ((kernelRun0_D c (grid0.coords t) _ _ _ _ _ _ _ _ (fun h => h0 ((hcond0_0 t).mp h)) ((hcond0_1 t).mpr h1) (fun h => absurd ((hcond0_2 t).mp h) (by omega)) (fun h => absurd ((hcond0_3 t).mp h) (by omega)) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_D_2 _ _ _ _ _ _ _ _ _ _ _ _ _ _ _ _ _)
    unfold owns; iexists _; isplitr
    swap; · iexact H3
    ipureintro; rfl
  by_cases h2 : t.val % 4 = 3
  · by_cases h3 : t.val % 64 = 63
    · rw [stepAt_E m c t h0 h1 h2 h3 (fun h => h0 ((hcond0_0 t).mp h)) (fun h => h1 ((hcond0_1 t).mp h)) ((hcond0_2 t).mpr h2) ((hcond0_3 t).mpr h3)]
      simp only [before0_2_kept m c t h1, before0_3_kept m c t h0]
      unfold at_E_2 at_E_3 out0_E_2 out0_E_3
      iintro ⟨HΦ, Ho, ⟨%d0, H0⟩, ⟨%d1, H1⟩, ⟨%d2, H2⟩, ⟨%d3, H3⟩⟩
      iapply ((kernelRun0_E c (grid0.coords t) _ _ _ _ _ _ _ _ (fun h => h0 ((hcond0_0 t).mp h)) (fun h => h1 ((hcond0_1 t).mp h)) ((hcond0_2 t).mpr h2) ((hcond0_3 t).mpr h3) (iblk m c 0 t) (iblk m c 1 t) _ _).2.2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; rfl
      unfold owns; iexists _; isplitr
      swap; · iexact H3
      ipureintro; rfl
    · rw [stepAt_C m c t h0 h1 h2 h3 (fun h => h0 ((hcond0_0 t).mp h)) (fun h => h1 ((hcond0_1 t).mp h)) ((hcond0_2 t).mpr h2) (fun h => h3 ((hcond0_3 t).mp h))]
      simp only [before0_2_kept m c t h1, before0_3_kept m c t h0]
      unfold at_C_2 at_C_3 out0_C_2 out0_C_3
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; rfl
      unfold owns; iexists _; isplitr
      swap; · iexact H3
      ipureintro; rfl
  · rw [stepAt_B m c t h0 h1 h2 (fun h => h0 ((hcond0_0 t).mp h)) (fun h => h1 ((hcond0_1 t).mp h)) (fun h => h2 ((hcond0_2 t).mp h)) (fun h => absurd ((hcond0_3 t).mp h) (by omega))]
    simp only [before0_2_kept m c t h1, before0_3_kept m c t h0]
    unfold at_B_2 at_B_3 out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (fun h => h1 ((hcond0_1 t).mp h)) (fun h => h2 ((hcond0_2 t).mp h)) (fun h => absurd ((hcond0_3 t).mp h) (by omega)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main terminates, and every
    final state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.KI.Cases.lean ====
/-
  The body's four branches, decided over the grid. A grid point t = 64·b + 4·i + j stands for batch b, row block i
  (512 rows) and column block j (2048 columns). The column-minimum block is reset when i = j = 0 (t ≡ 0 mod 64), the
  row-minimum block when j = 0 (t ≡ 0 mod 4); the row block takes its square root when j = 3 (t ≡ 3 mod 4), the column
  block when i = 15 and j = 3 (t ≡ 63 mod 64). Also: each window's staging memref at a point, as the pipeline passes it.
-/
import proofs.«154686_j9887014715551_2_alg».proof.Proof.Gen.KernelIdeal.Launch
import proofs.«154686_j9887014715551_2_alg».proof.Proof.Gen.KernelIdeal.Skeleton
import proofs.«154686_j9887014715551_2_alg».proof.Proof.Gen.KernelIdeal.Points
import proofs.«154686_j9887014715551_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-minimum block is reset: row block 0 and column block 0. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- The row-minimum block is reset: column block 0. -/
abbrev cond0_1 (i : grid0.Coords) : Prop :=
  (Scalar.cmpi .ne (Scalar.extui (Scalar.cmpi .eq (BitVec.ofNat 32 (i 2).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

/-- The row-minimum block takes its square root: the last column block. -/
abbrev cond0_2 (i : grid0.Coords) : Prop :=
  (Scalar.cmpi .ne (Scalar.extui (Scalar.cmpi .eq (BitVec.ofNat 32 (i 2).val) 3#32)) 0#32) = 1#1
theorem hcond0_2 : ∀ t : Fin cfg0.N, cond0_2 (grid0.coords t) ↔ t.val % 4 = 3 :=
  (by decide +kernel : ∀ t : Fin grid0.N, cond0_2 (grid0.coords t) ↔ t.val % 4 = 3)

/-- The column-minimum block takes its square root: the last row block and the last column block. -/
abbrev cond0_3 (i : grid0.Coords) : Prop :=
  (Scalar.cmpi .ne (Scalar.extui (Scalar.andi (Scalar.cmpi .eq (BitVec.ofNat 32 (i 1).val) 15#32) (Scalar.cmpi .eq (BitVec.ofNat 32 (i 2).val) 3#32))) 0#32) = 1#1
theorem hcond0_3 : ∀ t : Fin cfg0.N, cond0_3 (grid0.coords t) ↔ t.val % 64 = 63 :=
  (by decide +kernel : ∀ t : Fin grid0.N, cond0_3 (grid0.coords t) ↔ t.val % 64 = 63)

/-- Each window's current staging memref at point `t`, spelled as the pipeline passes it, and its wholeness. -/
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

end Cert.KernelIdeal.Gen

end
-- ==== Proof.KI.RunA.lean ====
/-
  The body at a point with row block 0 and column block 0 (t ≡ 0 mod 64): both accumulators are reset to +∞ before the tile's minima are folded in; no square root.
-/
import proofs.«154686_j9887014715551_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at anything (the case stores each whole before using it), with these branches: it runs to the
    continuation with the inputs as they were and each output's memref overwritten by the stores the body makes in this case
    (newest first). -/
noncomputable def kernelRun0_A (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

end Cert.KernelIdeal.Gen

end
-- ==== Proof.KI.RunB.lean ====
/-
  The body at a point with column block 1 or 2: no reset, no square root; the tile's row minima and column minima are folded into what the point before left.
-/
import proofs.«154686_j9887014715551_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at what the point before left (`xo2`, `xo3`), with these branches: it runs to the
    continuation with the inputs as they were and each output's memref overwritten by the stores the body makes in this case
    (newest first). -/
noncomputable def kernelRun0_B (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : ¬cond0_2 i) (hc3 : ¬cond0_3 i)
    (x0 : Vec F S1x512x3 .f32) (x1 : Vec F S1x3x2048 .f32) (xo2 : Vec F S1x512x1 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    iexact H3

end Cert.KernelIdeal.Gen

end
-- ==== Proof.KI.RunC.lean ====
/-
  The body at a point with the last column block but not the last row block (t ≡ 3 mod 4, t ≢ 63 mod 64): the row minima are complete and take their square root; the column minima go on accumulating.
-/
import proofs.«154686_j9887014715551_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at what the point before left (`xo2`, `xo3`), with these branches: it runs to the
    continuation with the inputs as they were and each output's memref overwritten by the stores the body makes in this case
    (newest first). -/
noncomputable def kernelRun0_C (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : ¬cond0_3 i)
    (x0 : Vec F S1x512x3 .f32) (x1 : Vec F S1x3x2048 .f32) (xo2 : Vec F S1x512x1 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    iexact H3

end Cert.KernelIdeal.Gen

end
-- ==== Proof.KI.RunD.lean ====
/-
  The body at a point with column block 0 and a later row block (t ≡ 0 mod 4, t ≢ 0 mod 64): the row accumulator is reset to +∞, the column accumulator goes on.
-/
import proofs.«154686_j9887014715551_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the row block at anything (the case stores it whole before using it) and the column block at what the point before left (`xo3`), with these branches: it runs to the
    continuation with the inputs as they were and each output's memref overwritten by the stores the body makes in this case
    (newest first). -/
noncomputable def kernelRun0_D (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.KernelIdeal.Gen

end
-- ==== Proof.KI.RunE.lean ====
/-
  The body at the last point of a batch (t ≡ 63 mod 64): both accumulators are complete and take their square roots.
-/
import proofs.«154686_j9887014715551_2_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, the two inputs at `x0`, `x1`, the two outputs at what the point before left (`xo2`, `xo3`), with these branches: it runs to the
    continuation with the inputs as they were and each output's memref overwritten by the stores the body makes in this case
    (newest first). -/
noncomputable def kernelRun0_E (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : cond0_3 i)
    (x0 : Vec F S1x512x3 .f32) (x1 : Vec F S1x3x2048 .f32) (xo2 : Vec F S1x512x1 .f32) (xo3 : Vec F S1x1x8192 .f32) :
    Σ' (L2 : List (View.Piece (Elt F) S1x512x1 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__hausdorff_kernel i arg3 harg3 arg4 harg4 arg5 harg5 arg6 harg6) K } := by
  refine ⟨?_, ?_, fun E K => ?run⟩
  case run =>
    simp only [cc0__hausdorff_kernel_eq_skeleton]; unfold cc0__hausdorff_kernel_skel
    rw [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexact H2
    iexact H3

end Cert.KernelIdeal.Gen

end
-- ==== Proof.KI.Outs.lean ====
/-
  What each case of the body leaves in the two output blocks: the stores the body makes in that case, read back. Where a case
  stores a block whole before using it (both blocks when both are reset, the row block when it alone is reset) nothing
  of the entry contents survives: the result is the stores read back over junk, and the stores cover the block. Else
  the result is the stores read back over the contents the block had on entry: the row block is always stored whole;
  the column block is stored one 2048-wide slice at a time, so outside the slice it keeps what it had.
-/
import proofs.«154686_j9887014715551_2_alg».proof.Proof.KI.RunA
import proofs.«154686_j9887014715551_2_alg».proof.Proof.KI.RunB
import proofs.«154686_j9887014715551_2_alg».proof.Proof.KI.RunC
import proofs.«154686_j9887014715551_2_alg».proof.Proof.KI.RunD
import proofs.«154686_j9887014715551_2_alg».proof.Proof.KI.RunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of each output window, through which a covered block's contents are stated (the choice does
    not matter: the stores cover the block). -/
abbrev VO0_2 : View sig .tc .vmem S1x512x1 .f32 := (Memref.whole cc0_stg2_0 : Memref sig .tc .vmem S1x512x1 .f32).view
abbrev VO0_3 : View sig .tc .vmem S1x1x8192 .f32 := (Memref.whole cc0_stg3_0 : Memref sig .tc .vmem S1x1x8192 .f32).view

/-- Case A's stores into the row block include a store of the whole block: they cover it. -/
theorem cover0_A_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) (y : S1x512x1.Idx) :
    ∃ pc ∈ (kernelRun0_A c i arg3 harg3 arg4 harg4 arg5 harg5 arg6 harg6 hc0 hc1 hc2 hc3 x0 x1).1, y ∈ pc.1.set :=
  View.cover_of_wholeMem (kernelRun0_A c i arg3 harg3 arg4 harg4 arg5 harg5 arg6 harg6 hc0 hc1 hc2 hc3 x0 x1).1 (by sl_whole_mem) y
/-- Case A's stores into the column block include a store of the whole block: they cover it. -/
theorem cover0_A_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) (y : S1x1x8192.Idx) :
    ∃ pc ∈ (kernelRun0_A c i arg3 harg3 arg4 harg4 arg5 harg5 arg6 harg6 hc0 hc1 hc2 hc3 x0 x1).2.1, y ∈ pc.1.set :=
  View.cover_of_wholeMem (kernelRun0_A c i arg3 harg3 arg4 harg4 arg5 harg5 arg6 harg6 hc0 hc1 hc2 hc3 x0 x1).2.1 (by sl_whole_mem) y
/-- Case A: the row block after the body. -/
def out0_A_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) : Vec F S1x512x1 .f32 :=
  VO0_2.read (Elt F) (VO0_2.writes (Elt F) VO0_2.junk (kernelRun0_A c i arg3 harg3 arg4 harg4 arg5 harg5 arg6 harg6 hc0 hc1 hc2 hc3 x0 x1).1)
/-- Case A: the column block after the body. -/
def out0_A_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : cond0_0 i) (hc1 : cond0_1 i) (hc2 : ¬cond0_2 i) (hc3 : ¬cond0_3 i)
    (x0 : Vec F S1x512x3 .f32) (x1 : Vec F S1x3x2048 .f32) : Vec F S1x1x8192 .f32 :=
  VO0_3.read (Elt F) (VO0_3.writes (Elt F) VO0_3.junk (kernelRun0_A c i arg3 harg3 arg4 harg4 arg5 harg5 arg6 harg6 hc0 hc1 hc2 hc3 x0 x1).2.1)

/-- Case B: the row block after the body. -/
def out0_B_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : ¬cond0_2 i) (hc3 : ¬cond0_3 i)
    (x0 : Vec F S1x512x3 .f32) (x1 : Vec F S1x3x2048 .f32) (xo2 : Vec F S1x512x1 .f32) (xo3 : Vec F S1x1x8192 .f32) : Vec F S1x512x1 .f32 :=
  arg5.view.read (Elt F) (arg5.view.writes (Elt F) (harg5.unread xo2) (kernelRun0_B c i arg3 harg3 arg4 harg4 arg5 harg5 arg6 harg6 hc0 hc1 hc2 hc3 x0 x1 xo2 xo3).1)
/-- Case B: the column block after the body. -/
def out0_B_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : ¬cond0_2 i) (hc3 : ¬cond0_3 i)
    (x0 : Vec F S1x512x3 .f32) (x1 : Vec F S1x3x2048 .f32) (xo2 : Vec F S1x512x1 .f32) (xo3 : Vec F S1x1x8192 .f32) : Vec F S1x1x8192 .f32 :=
  arg6.view.read (Elt F) (arg6.view.writes (Elt F) (harg6.unread xo3) (kernelRun0_B c i arg3 harg3 arg4 harg4 arg5 harg5 arg6 harg6 hc0 hc1 hc2 hc3 x0 x1 xo2 xo3).2.1)

/-- Case C: the row block after the body. -/
def out0_C_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : ¬cond0_3 i)
    (x0 : Vec F S1x512x3 .f32) (x1 : Vec F S1x3x2048 .f32) (xo2 : Vec F S1x512x1 .f32) (xo3 : Vec F S1x1x8192 .f32) : Vec F S1x512x1 .f32 :=
  arg5.view.read (Elt F) (arg5.view.writes (Elt F) (harg5.unread xo2) (kernelRun0_C c i arg3 harg3 arg4 harg4 arg5 harg5 arg6 harg6 hc0 hc1 hc2 hc3 x0 x1 xo2 xo3).1)
/-- Case C: the column block after the body. -/
def out0_C_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : ¬cond0_3 i)
    (x0 : Vec F S1x512x3 .f32) (x1 : Vec F S1x3x2048 .f32) (xo2 : Vec F S1x512x1 .f32) (xo3 : Vec F S1x1x8192 .f32) : Vec F S1x1x8192 .f32 :=
  arg6.view.read (Elt F) (arg6.view.writes (Elt F) (harg6.unread xo3) (kernelRun0_C c i arg3 harg3 arg4 harg4 arg5 harg5 arg6 harg6 hc0 hc1 hc2 hc3 x0 x1 xo2 xo3).2.1)

/-- Case D's stores into the row block include a store of the whole block: they cover it. -/
theorem cover0_D_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) (y : S1x512x1.Idx) :
    ∃ pc ∈ (kernelRun0_D c i arg3 harg3 arg4 harg4 arg5 harg5 arg6 harg6 hc0 hc1 hc2 hc3 x0 x1 xo3).1, y ∈ pc.1.set :=
  View.cover_of_wholeMem (kernelRun0_D c i arg3 harg3 arg4 harg4 arg5 harg5 arg6 harg6 hc0 hc1 hc2 hc3 x0 x1 xo3).1 (by sl_whole_mem) y
/-- Case D: the row block after the body. -/
def out0_D_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) : Vec F S1x512x1 .f32 :=
  VO0_2.read (Elt F) (VO0_2.writes (Elt F) VO0_2.junk (kernelRun0_D c i arg3 harg3 arg4 harg4 arg5 harg5 arg6 harg6 hc0 hc1 hc2 hc3 x0 x1 xo3).1)
/-- Case D: the column block after the body. -/
def out0_D_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : cond0_1 i) (hc2 : ¬cond0_2 i) (hc3 : ¬cond0_3 i)
    (x0 : Vec F S1x512x3 .f32) (x1 : Vec F S1x3x2048 .f32) (xo3 : Vec F S1x1x8192 .f32) : Vec F S1x1x8192 .f32 :=
  arg6.view.read (Elt F) (arg6.view.writes (Elt F) (harg6.unread xo3) (kernelRun0_D c i arg3 harg3 arg4 harg4 arg5 harg5 arg6 harg6 hc0 hc1 hc2 hc3 x0 x1 xo3).2.1)

/-- Case E: the row block after the body. -/
def out0_E_2 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : cond0_3 i)
    (x0 : Vec F S1x512x3 .f32) (x1 : Vec F S1x3x2048 .f32) (xo2 : Vec F S1x512x1 .f32) (xo3 : Vec F S1x1x8192 .f32) : Vec F S1x512x1 .f32 :=
  arg5.view.read (Elt F) (arg5.view.writes (Elt F) (harg5.unread xo2) (kernelRun0_E c i arg3 harg3 arg4 harg4 arg5 harg5 arg6 harg6 hc0 hc1 hc2 hc3 x0 x1 xo2 xo3).1)
/-- Case E: the column block after the body. -/
def out0_E_3 (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole)
    (hc0 : ¬cond0_0 i) (hc1 : ¬cond0_1 i) (hc2 : cond0_2 i) (hc3 : cond0_3 i)
    (x0 : Vec F S1x512x3 .f32) (x1 : Vec F S1x3x2048 .f32) (xo2 : Vec F S1x512x1 .f32) (xo3 : Vec F S1x1x8192 .f32) : Vec F S1x1x8192 .f32 :=
  arg6.view.read (Elt F) (arg6.view.writes (Elt F) (harg6.unread xo3) (kernelRun0_E c i arg3 harg3 arg4 harg4 arg5 harg5 arg6 harg6 hc0 hc1 hc2 hc3 x0 x1 xo2 xo3).2.1)

end Cert.KernelIdeal.Gen

end
-- ==== Proof.KI.Frame.lean ====
/-
  The frame of the kernel program: the proof data of its one pipeline and the body's obligation at every grid point.
  A point t = 64·b + 4·i + j leaves in the row block and the column block what the case the point is in computes from
  the two input blocks and from what the point before left (`stepAt`); `outsAt0` is that recursion from the first
  point. Where a block is fresh — the row block when j = 0 (first point, or written back at the point before), the
  column block when i = j = 0 — the case stores it whole before using it, so nothing is asked of its contents.
-/
import proofs.«154686_j9887014715551_2_alg».proof.Proof.KI.Outs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's results at a grid point -/

/-- Case A at point `t`: on the point's staging memrefs and input blocks. -/
abbrev at_A_2 (c : Dev nD) (t : Fin cfg0.N) (hc0 : cond0_0 (grid0.coords t)) (hc1 : cond0_1 (grid0.coords t)) (hc2 : ¬cond0_2 (grid0.coords t)) (hc3 : ¬cond0_3 (grid0.coords t)) : Vec F S1x512x1 .f32 :=
  out0_A_2 c (grid0.coords t) (ms0_0 t) (hs0_0 t) (ms0_1 t) (hs0_1 t) (ms0_2 t) (hs0_2 t) (ms0_3 t) (hs0_3 t) hc0 hc1 hc2 hc3 (iblk m c 0 t) (iblk m c 1 t)
abbrev at_A_3 (c : Dev nD) (t : Fin cfg0.N) (hc0 : cond0_0 (grid0.coords t)) (hc1 : cond0_1 (grid0.coords t)) (hc2 : ¬cond0_2 (grid0.coords t)) (hc3 : ¬cond0_3 (grid0.coords t)) : Vec F S1x1x8192 .f32 :=
  out0_A_3 c (grid0.coords t) (ms0_0 t) (hs0_0 t) (ms0_1 t) (hs0_1 t) (ms0_2 t) (hs0_2 t) (ms0_3 t) (hs0_3 t) hc0 hc1 hc2 hc3 (iblk m c 0 t) (iblk m c 1 t)
/-- Case B at point `t`: on the point's staging memrefs and input blocks. -/
abbrev at_B_2 (c : Dev nD) (t : Fin cfg0.N) (hc0 : ¬cond0_0 (grid0.coords t)) (hc1 : ¬cond0_1 (grid0.coords t)) (hc2 : ¬cond0_2 (grid0.coords t)) (hc3 : ¬cond0_3 (grid0.coords t)) (xo2 : Vec F S1x512x1 .f32) (xo3 : Vec F S1x1x8192 .f32) : Vec F S1x512x1 .f32 :=
  out0_B_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
abbrev at_B_3 (c : Dev nD) (t : Fin cfg0.N) (hc0 : ¬cond0_0 (grid0.coords t)) (hc1 : ¬cond0_1 (grid0.coords t)) (hc2 : ¬cond0_2 (grid0.coords t)) (hc3 : ¬cond0_3 (grid0.coords t)) (xo2 : Vec F S1x512x1 .f32) (xo3 : Vec F S1x1x8192 .f32) : Vec F S1x1x8192 .f32 :=
  out0_B_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
/-- Case C at point `t`: on the point's staging memrefs and input blocks. -/
abbrev at_C_2 (c : Dev nD) (t : Fin cfg0.N) (hc0 : ¬cond0_0 (grid0.coords t)) (hc1 : ¬cond0_1 (grid0.coords t)) (hc2 : cond0_2 (grid0.coords t)) (hc3 : ¬cond0_3 (grid0.coords t)) (xo2 : Vec F S1x512x1 .f32) (xo3 : Vec F S1x1x8192 .f32) : Vec F S1x512x1 .f32 :=
  out0_C_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
abbrev at_C_3 (c : Dev nD) (t : Fin cfg0.N) (hc0 : ¬cond0_0 (grid0.coords t)) (hc1 : ¬cond0_1 (grid0.coords t)) (hc2 : cond0_2 (grid0.coords t)) (hc3 : ¬cond0_3 (grid0.coords t)) (xo2 : Vec F S1x512x1 .f32) (xo3 : Vec F S1x1x8192 .f32) : Vec F S1x1x8192 .f32 :=
  out0_C_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
/-- Case D at point `t`: on the point's staging memrefs and input blocks. -/
abbrev at_D_2 (c : Dev nD) (t : Fin cfg0.N) (hc0 : ¬cond0_0 (grid0.coords t)) (hc1 : cond0_1 (grid0.coords t)) (hc2 : ¬cond0_2 (grid0.coords t)) (hc3 : ¬cond0_3 (grid0.coords t)) (xo3 : Vec F S1x1x8192 .f32) : Vec F S1x512x1 .f32 :=
  out0_D_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo3
abbrev at_D_3 (c : Dev nD) (t : Fin cfg0.N) (hc0 : ¬cond0_0 (grid0.coords t)) (hc1 : cond0_1 (grid0.coords t)) (hc2 : ¬cond0_2 (grid0.coords t)) (hc3 : ¬cond0_3 (grid0.coords t)) (xo3 : Vec F S1x1x8192 .f32) : Vec F S1x1x8192 .f32 :=
  out0_D_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo3
/-- Case E at point `t`: on the point's staging memrefs and input blocks. -/
abbrev at_E_2 (c : Dev nD) (t : Fin cfg0.N) (hc0 : ¬cond0_0 (grid0.coords t)) (hc1 : ¬cond0_1 (grid0.coords t)) (hc2 : cond0_2 (grid0.coords t)) (hc3 : cond0_3 (grid0.coords t)) (xo2 : Vec F S1x512x1 .f32) (xo3 : Vec F S1x1x8192 .f32) : Vec F S1x512x1 .f32 :=
  out0_E_2 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3
abbrev at_E_3 (c : Dev nD) (t : Fin cfg0.N) (hc0 : ¬cond0_0 (grid0.coords t)) (hc1 : ¬cond0_1 (grid0.coords t)) (hc2 : cond0_2 (grid0.coords t)) (hc3 : cond0_3 (grid0.coords t)) (xo2 : Vec F S1x512x1 .f32) (xo3 : Vec F S1x1x8192 .f32) : Vec F S1x1x8192 .f32 :=
  out0_E_3 c (grid0.coords t) (ms0_0 t) (hs0_0 t) (ms0_1 t) (hs0_1 t) (ms0_2 t) (hs0_2 t) (ms0_3 t) (hs0_3 t) hc0 hc1 hc2 hc3 (iblk m c 0 t) (iblk m c 1 t) xo2 xo3

/-! ## What the outputs hold after each point -/

/-- One point's effect on the two output blocks, from what they held on entry: the case the closed forms select. -/
def stepAt (c : Dev nD) (t : Fin cfg0.N) (xo2 : Vec F S1x512x1 .f32) (xo3 : Vec F S1x1x8192 .f32) :
    Vec F S1x512x1 .f32 × Vec F S1x1x8192 .f32 :=
  if h0 : t.val % 64 = 0 then (at_A_2 m c t ((hcond0_0 t).mpr h0) ((hcond0_1 t).mpr (by omega)) (fun h => absurd ((hcond0_2 t).mp h) (by omega)) (fun h => absurd ((hcond0_3 t).mp h) (by omega)), at_A_3 m c t ((hcond0_0 t).mpr h0) ((hcond0_1 t).mpr (by omega)) (fun h => absurd ((hcond0_2 t).mp h) (by omega)) (fun h => absurd ((hcond0_3 t).mp h) (by omega)))
  else if h1 : t.val % 4 = 0 then (at_D_2 m c t (fun h => h0 ((hcond0_0 t).mp h)) ((hcond0_1 t).mpr h1) (fun h => absurd ((hcond0_2 t).mp h) (by omega)) (fun h => absurd ((hcond0_3 t).mp h) (by omega)) xo3, at_D_3 m c t (fun h => h0 ((hcond0_0 t).mp h)) ((hcond0_1 t).mpr h1) (fun h => absurd ((hcond0_2 t).mp h) (by omega)) (fun h => absurd ((hcond0_3 t).mp h) (by omega)) xo3)
  else if h2 : t.val % 4 = 3 then
    if h3 : t.val % 64 = 63 then (at_E_2 m c t (fun h => h0 ((hcond0_0 t).mp h)) (fun h => h1 ((hcond0_1 t).mp h)) ((hcond0_2 t).mpr h2) ((hcond0_3 t).mpr h3) xo2 xo3, at_E_3 m c t (fun h => h0 ((hcond0_0 t).mp h)) (fun h => h1 ((hcond0_1 t).mp h)) ((hcond0_2 t).mpr h2) ((hcond0_3 t).mpr h3) xo2 xo3)
    else (at_C_2 m c t (fun h => h0 ((hcond0_0 t).mp h)) (fun h => h1 ((hcond0_1 t).mp h)) ((hcond0_2 t).mpr h2) (fun h => h3 ((hcond0_3 t).mp h)) xo2 xo3, at_C_3 m c t (fun h => h0 ((hcond0_0 t).mp h)) (fun h => h1 ((hcond0_1 t).mp h)) ((hcond0_2 t).mpr h2) (fun h => h3 ((hcond0_3 t).mp h)) xo2 xo3)
  else (at_B_2 m c t (fun h => h0 ((hcond0_0 t).mp h)) (fun h => h1 ((hcond0_1 t).mp h)) (fun h => h2 ((hcond0_2 t).mp h)) (fun h => absurd ((hcond0_3 t).mp h) (by omega)) xo2 xo3, at_B_3 m c t (fun h => h0 ((hcond0_0 t).mp h)) (fun h => h1 ((hcond0_1 t).mp h)) (fun h => h2 ((hcond0_2 t).mp h)) (fun h => absurd ((hcond0_3 t).mp h) (by omega)) xo2 xo3)

theorem stepAt_A (c : Dev nD) (t : Fin cfg0.N) (h0 : t.val % 64 = 0) (hc0 : cond0_0 (grid0.coords t)) (hc1 : cond0_1 (grid0.coords t)) (hc2 : ¬cond0_2 (grid0.coords t)) (hc3 : ¬cond0_3 (grid0.coords t)) (xo2 : Vec F S1x512x1 .f32) (xo3 : Vec F S1x1x8192 .f32) :
    stepAt m c t xo2 xo3 = (at_A_2 m c t hc0 hc1 hc2 hc3, at_A_3 m c t hc0 hc1 hc2 hc3) := by
  unfold stepAt; rw [dif_pos h0]
theorem stepAt_D (c : Dev nD) (t : Fin cfg0.N) (h0 : ¬t.val % 64 = 0) (h1 : t.val % 4 = 0) (hc0 : ¬cond0_0 (grid0.coords t)) (hc1 : cond0_1 (grid0.coords t)) (hc2 : ¬cond0_2 (grid0.coords t)) (hc3 : ¬cond0_3 (grid0.coords t)) (xo2 : Vec F S1x512x1 .f32) (xo3 : Vec F S1x1x8192 .f32) :
    stepAt m c t xo2 xo3 = (at_D_2 m c t hc0 hc1 hc2 hc3 xo3, at_D_3 m c t hc0 hc1 hc2 hc3 xo3) := by
  unfold stepAt; rw [dif_neg h0, dif_pos h1]
theorem stepAt_E (c : Dev nD) (t : Fin cfg0.N) (h0 : ¬t.val % 64 = 0) (h1 : ¬t.val % 4 = 0) (h2 : t.val % 4 = 3) (h3 : t.val % 64 = 63) (hc0 : ¬cond0_0 (grid0.coords t)) (hc1 : ¬cond0_1 (grid0.coords t)) (hc2 : cond0_2 (grid0.coords t)) (hc3 : cond0_3 (grid0.coords t)) (xo2 : Vec F S1x512x1 .f32) (xo3 : Vec F S1x1x8192 .f32) :
    stepAt m c t xo2 xo3 = (at_E_2 m c t hc0 hc1 hc2 hc3 xo2 xo3, at_E_3 m c t hc0 hc1 hc2 hc3 xo2 xo3) := by
  unfold stepAt; rw [dif_neg h0, dif_neg h1, dif_pos h2, dif_pos h3]
theorem stepAt_C (c : Dev nD) (t : Fin cfg0.N) (h0 : ¬t.val % 64 = 0) (h1 : ¬t.val % 4 = 0) (h2 : t.val % 4 = 3) (h3 : ¬t.val % 64 = 63) (hc0 : ¬cond0_0 (grid0.coords t)) (hc1 : ¬cond0_1 (grid0.coords t)) (hc2 : cond0_2 (grid0.coords t)) (hc3 : ¬cond0_3 (grid0.coords t)) (xo2 : Vec F S1x512x1 .f32) (xo3 : Vec F S1x1x8192 .f32) :
    stepAt m c t xo2 xo3 = (at_C_2 m c t hc0 hc1 hc2 hc3 xo2 xo3, at_C_3 m c t hc0 hc1 hc2 hc3 xo2 xo3) := by
  unfold stepAt; rw [dif_neg h0, dif_neg h1, dif_pos h2, dif_neg h3]
theorem stepAt_B (c : Dev nD) (t : Fin cfg0.N) (h0 : ¬t.val % 64 = 0) (h1 : ¬t.val % 4 = 0) (h2 : ¬t.val % 4 = 3) (hc0 : ¬cond0_0 (grid0.coords t)) (hc1 : ¬cond0_1 (grid0.coords t)) (hc2 : ¬cond0_2 (grid0.coords t)) (hc3 : ¬cond0_3 (grid0.coords t)) (xo2 : Vec F S1x512x1 .f32) (xo3 : Vec F S1x1x8192 .f32) :
    stepAt m c t xo2 xo3 = (at_B_2 m c t hc0 hc1 hc2 hc3 xo2 xo3, at_B_3 m c t hc0 hc1 hc2 hc3 xo2 xo3) := by
  unfold stepAt; rw [dif_neg h0, dif_neg h1, dif_neg h2]

/-- THE SWEEP. What the two output blocks hold after the body at position `n`: one step from what they held after
    position `n - 1`; at the first point both blocks are fresh and the entry contents (here the +∞ blocks) are immaterial. -/
def outsAt0 (c : Dev nD) : (n : ℕ) → n < cfg0.N → Vec F S1x512x1 .f32 × Vec F S1x1x8192 .f32
  | 0, hn => stepAt m c ⟨0, hn⟩ (k0_pay7 (F := F)) (k0_pay6 (F := F))
  | n + 1, hn => stepAt m c ⟨n + 1, hn⟩ (outsAt0 c n (Nat.lt_of_succ_lt hn)).1 (outsAt0 c n (Nat.lt_of_succ_lt hn)).2

/-- What the point before `t` left (at the first point: the +∞ blocks, which no case there reads). -/
def prevAt (c : Dev nD) (t : Fin cfg0.N) : Vec F S1x512x1 .f32 × Vec F S1x1x8192 .f32 :=
  if h : t.val = 0 then (k0_pay7 (F := F), k0_pay6 (F := F))
  else outsAt0 m c (t.val - 1) (Nat.lt_of_le_of_lt (Nat.sub_le _ _) t.isLt)

theorem prevAt_of_ne (c : Dev nD) (t : Fin cfg0.N) (h : t.val ≠ 0) :
    prevAt m c t = outsAt0 m c (t.val - 1) (Nat.lt_of_le_of_lt (Nat.sub_le _ _) t.isLt) := by
  unfold prevAt; rw [dif_neg h]

/-- `outsAt0` at any point is one step from what the point before left. -/
theorem outsAt0_eq (c : Dev nD) (t : Fin cfg0.N) :
    outsAt0 m c t.val t.isLt = stepAt m c t (prevAt m c t).1 (prevAt m c t).2 := by
  obtain ⟨n, hn⟩ := t
  cases n with
  | zero => rfl
  | succ n => rfl

/-! ## The pipeline's proof data -/

/-- The proof data of the one pipeline on core `c`: the arrays as the region finds them; after the body at point `t`
    each input's buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The row block is fresh at a point with column block 0: the first point, or the point after a write-back. -/
theorem before0_2_fresh (c : Dev nD) (t : Fin cfg0.N) (h : t.val % 4 = 0) (d) : (dats m 0 c).before 2 t d = d :=
  Dat.before_out_reset _ 2 rfl t (by
    by_cases h0 : t.val = 0
    · exact .inl h0
    · exact .inr ⟨h0, (flush0_2 _).mpr (by dsimp only; omega)⟩) d
/-- Elsewhere it holds what the body left at the point before. -/
theorem before0_2_kept (c : Dev nD) (t : Fin cfg0.N) (h : ¬t.val % 4 = 0) (d) :
    (dats m 0 c).before 2 t d = (prevAt m c t).1 := by
  have hne : t.val ≠ 0 := fun h0 => h (by rw [h0])
  rw [Dat.before_out_kept _ 2 rfl t hne (Bool.eq_false_iff.mpr fun h' => by have := (flush0_2 _).mp h'; dsimp only at this; omega)
    (fun _ => rfl) (fun _ _ => rfl), prevAt_of_ne m c t hne]
  dsimp only [dats]
/-- The column block is fresh at a batch's first point. -/
theorem before0_3_fresh (c : Dev nD) (t : Fin cfg0.N) (h : t.val % 64 = 0) (d) : (dats m 0 c).before 3 t d = d :=
  Dat.before_out_reset _ 3 rfl t (by
    by_cases h0 : t.val = 0
    · exact .inl h0
    · exact .inr ⟨h0, (flush0_3 _).mpr (by dsimp only; omega)⟩) d
theorem before0_3_kept (c : Dev nD) (t : Fin cfg0.N) (h : ¬t.val % 64 = 0) (d) :
    (dats m 0 c).before 3 t d = (prevAt m c t).2 := by
  have hne : t.val ≠ 0 := fun h0 => h (by rw [h0])
  rw [Dat.before_out_kept _ 3 rfl t hne (Bool.eq_false_iff.mpr fun h' => by have := (flush0_3 _).mp h'; dsimp only at this; omega)
    (fun _ => rfl) (fun _ _ => rfl), prevAt_of_ne m c t hne]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point: the inputs' memrefs hold their blocks; the closed forms say which case the point is in; a
    block that is not fresh holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, outsAt0_eq m c t]
  have hN : t.val < 256 := lt_of_lt_of_eq t.isLt (show cfg0.N = 256 from N_0)
  by_cases h0 : t.val % 64 = 0
  · rw [stepAt_A m c t h0 ((hcond0_0 t).mpr h0) ((hcond0_1 t).mpr (by omega)) (fun h => absurd ((hcond0_2 t).mp h) (by omega)) (fun h => absurd ((hcond0_3 t).mp h) (by omega))]
    simp only [before0_2_fresh m c t (by omega), before0_3_fresh m c t h0]
    unfold at_A_2 at_A_3 out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) ((hcond0_1 t).mpr (by omega)) (fun h => absurd ((hcond0_2 t).mp h) (by omega)) (fun h => absurd ((hcond0_3 t).mp h) (by omega)) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 _ _ _ _ _ _ _ _ _ _ _ _ _ _ _ _)
    unfold owns; iexists _; isplitr
    swap; · iexact H3
    ipureintro; exact View.read_writes_of_cover _ _ _ _ _ (cover0_A_3 _ _ _ _ _ _ _ _ _ _ _ _ _ _ _ _)
  by_cases h1 : t.val % 4 = 0
  · rw [stepAt_D m c t h0 h1 (fun h => h0 ((hcond0_0 t).mp h)) ((hcond0_1 t).mpr h1) (fun h => absurd ((hcond0_2 t).mp h) (by omega)) (fun h => absurd ((hcond0_3 t).mp h) (by omega))]
    simp only [before0_2_fresh m c t h1, before0_3_kept m c t h0]
    unfold at_D_2 at_D_3 out0_D_2 out0_D_3
    iintro ⟨HΦ, Ho, ⟨%d0, H0⟩, ⟨%d1, H1⟩, ⟨%d2, H2⟩, ⟨%d3, H3⟩⟩
    iapply ((kernelRun0_D c (grid0.coords t) _ _ _ _ _ _ _ _ (fun h => h0 ((hcond0_0 t).mp h)) ((hcond0_1 t).mpr h1) (fun h => absurd ((hcond0_2 t).mp h) (by omega)) (fun h => absurd ((hcond0_3 t).mp h) (by omega)) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_D_2 _ _ _ _ _ _ _ _ _ _ _ _ _ _ _ _ _)
    unfold owns; iexists _; isplitr
    swap; · iexact H3
    ipureintro; rfl
  by_cases h2 : t.val % 4 = 3
  · by_cases h3 : t.val % 64 = 63
    · rw [stepAt_E m c t h0 h1 h2 h3 (fun h => h0 ((hcond0_0 t).mp h)) (fun h => h1 ((hcond0_1 t).mp h)) ((hcond0_2 t).mpr h2) ((hcond0_3 t).mpr h3)]
      simp only [before0_2_kept m c t h1, before0_3_kept m c t h0]
      unfold at_E_2 at_E_3 out0_E_2 out0_E_3
      iintro ⟨HΦ, Ho, ⟨%d0, H0⟩, ⟨%d1, H1⟩, ⟨%d2, H2⟩, ⟨%d3, H3⟩⟩
      iapply ((kernelRun0_E c (grid0.coords t) _ _ _ _ _ _ _ _ (fun h => h0 ((hcond0_0 t).mp h)) (fun h => h1 ((hcond0_1 t).mp h)) ((hcond0_2 t).mpr h2) ((hcond0_3 t).mpr h3) (iblk m c 0 t) (iblk m c 1 t) _ _).2.2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; rfl
      unfold owns; iexists _; isplitr
      swap; · iexact H3
      ipureintro; rfl
    · rw [stepAt_C m c t h0 h1 h2 h3 (fun h => h0 ((hcond0_0 t).mp h)) (fun h => h1 ((hcond0_1 t).mp h)) ((hcond0_2 t).mpr h2) (fun h => h3 ((hcond0_3 t).mp h))]
      simp only [before0_2_kept m c t h1, before0_3_kept m c t h0]
      unfold at_C_2 at_C_3 out0_C_2 out0_C_3
      iintro ⟨HΦ, Ho, ⟨%d0, H0⟩, ⟨%d1, H1⟩, ⟨%d2, H2⟩, ⟨%d3, H3⟩⟩
      iapply ((kernelRun0_C c (grid0.coords t) _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) _ _).2.2 Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; rfl
      unfold owns; iexists _; isplitr
      swap; · iexact H3
      ipureintro; rfl
  · rw [stepAt_B m c t h0 h1 h2 (fun h => h0 ((hcond0_0 t).mp h)) (fun h => h1 ((hcond0_1 t).mp h)) (fun h => h2 ((hcond0_2 t).mp h)) (fun h => absurd ((hcond0_3 t).mp h) (by omega))]
    simp only [before0_2_kept m c t h1, before0_3_kept m c t h0]
    unfold at_B_2 at_B_3 out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (fun h => h1 ((hcond0_1 t).mp h)) (fun h => h2 ((hcond0_2 t).mp h)) (fun h => absurd ((hcond0_3 t).mp h) (by omega)) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; rfl
    unfold owns; iexists _; isplitr
    swap; · iexact H3
    ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main terminates, and every
    final state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.KI.Payloads.lean ====
/-
  The kernel body's pure payloads read at an index, at the ideal values (extended reals).

  • 'sq_apply': the tile entry (r, k) of the squared distance is the sum over the three coordinates d of
    (x (r, d) - y_d (k))², accumulated from 0 in the order d = 0, 1, 2.
  • 'rowmin_apply' / 'colmin_apply': the row (column) accumulator after the fold is the min of its old entry and the
    minimum of the tile along the row (column).  A minimum-reduction from +∞ over one axis is the fold of min from ⊤
    over that axis's coordinates, which is 'Finset.univ.inf'.
  • 'sqrt_row_apply' / 'sqrt_col_apply': the final pass applies the square root entrywise.
  • 'top_col' / 'top_row': the reset value is ⊤ (the pattern 0x7F800000 is +∞).

  The layout operations in between (casts that add or drop unit axes, the broadcast of a column [a,1] or a row [1,b] to
  [a,b], a one-column slice) each read ONE entry of their operand; the small lemmas first say which.
-/
import proofs.«154686_j9887014715551_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Pay

open Cert.KernelIdeal Cert.KernelIdeal.Gen Idealize.ShloMosaic Idealize.ShloMosaic.ValueIdx

/-! ### Layout operations at an index written by coordinates -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An [a] array cast to [1, 1, a] reads, at (u, v, i), the operand at i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- A column [a, 1] broadcast to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### A minimum-reduction over one axis -/

/-- At the ideal values a minimum-reduction over ONE axis is, at each reduced index, the fold of min from the
    accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The pattern 0x7F800000 is +∞. -/
theorem ofBits_inf : Ideal.ofBits .f32 0x7F800000#32 = (⊤ : EReal) := by simp [Ideal.ofBits, Ideal.ieee]

/-- The fold of min from ⊤ is the minimum over the index type. -/
theorem fold_min_top {ι : Type} [Fintype ι] (f : ι → EReal) :
    (Finset.univ : Finset ι).fold min (⊤ : EReal) f = Finset.univ.inf f := rfl

/-! ### The payloads -/

theorem top_col (j : S1x1x8192.Idx) : k0_pay6 (F := Ideal) j = ⊤ := by
  unfold k0_pay6
  exact ofBits_inf

theorem top_row (j : S1x512x1.Idx) : k0_pay7 (F := Ideal) j = ⊤ := by
  unfold k0_pay7
  exact ofBits_inf

theorem sqrt_col_apply (v65 : Vec Ideal S1x1x8192 .f32) (j : S1x1x8192.Idx) :
    k0_pay5 (F := Ideal) v65 j = Ideal.sqrt (v65 j) := by
  unfold k0_pay5
  show Ideal.sqrt (shapeCast S1x1x8192 v65 shapeCasts_S1x1x8192_S1x1x8192 j) = _
  rw [shapeCast_self]

theorem sqrt_row_apply (v65 : Vec Ideal S1x512x1 .f32) (r : Fin 512) :
    k0_pay4 (F := Ideal) v65 (ix3 0 r 0) = Ideal.sqrt (v65 (ix3 0 r 0)) := by
  unfold k0_pay4
  refine (shapeCast_ab_1ab_apply _ _ (0 : Fin 1) r (0 : Fin 1)).trans ?_
  show Ideal.sqrt (shapeCast S512x1 v65 shapeCasts_S1x512x1_S512x1 (ix2 r (0 : Fin 1))) = _
  rw [shapeCast_1ab_ab_apply]

/-- The reduced index r with column k put back is (r, k). -/
theorem lift_row (h : S512x2048.Reduces [1] S512) (r : Fin 512) (k : Fin 2048) :
    h.lift (ix1 r) k = ix2 r k := by
  funext c; apply Fin.ext
  match c with
  | ⟨0, _⟩ => rfl
  | ⟨1, _⟩ => rfl

/-- The reduced index k with row r put back is (r, k). -/
theorem lift_col (h : S512x2048.Reduces [0] S2048) (k : Fin 2048) (r : Fin 512) :
    h.lift (ix1 k) r = ix2 r k := by
  funext c; apply Fin.ext
  match c with
  | ⟨0, _⟩ => rfl
  | ⟨1, _⟩ => rfl

/-- The minimum-reduction of a tile along its rows, from +∞, at row r: the minimum of the row. -/
theorem rowReduce_apply (src : FVec Ideal S512x2048 .f32) (r : Fin 512) :
    multiReduction (F := Ideal) .minimumf [1] S512 src 0x7F800000#32 reduces_S512x2048_S512 (.inl rfl) rfl (ix1 r)
      = Finset.univ.inf fun k : Fin 2048 => src (ix2 r k) := by
  refine (multiReduction_minimumf_single src 0x7F800000#32 reduces_S512x2048_S512 (.inl rfl) rfl (ix1 r)).trans ?_
  show (Finset.univ : Finset (Fin 2048)).fold min (Ideal.ofBits .f32 0x7F800000#32)
      (fun k : Fin 2048 => src (reduces_S512x2048_S512.lift (ix1 r) k)) = _
  rw [ofBits_inf, fold_min_top]
  exact congrArg Finset.univ.inf (funext fun k => congrArg src (lift_row _ r k))

/-- The minimum-reduction of a tile along its columns, from +∞, at column k: the minimum of the column. -/
theorem colReduce_apply (src : FVec Ideal S512x2048 .f32) (k : Fin 2048) :
    multiReduction (F := Ideal) .minimumf [0] S2048 src 0x7F800000#32 reduces_S512x2048_S2048 (.inl rfl) rfl (ix1 k)
      = Finset.univ.inf fun r : Fin 512 => src (ix2 r k) := by
  refine (multiReduction_minimumf_single src 0x7F800000#32 reduces_S512x2048_S2048 (.inl rfl) rfl (ix1 k)).trans ?_
  show (Finset.univ : Finset (Fin 512)).fold min (Ideal.ofBits .f32 0x7F800000#32)
      (fun r : Fin 512 => src (reduces_S512x2048_S2048.lift (ix1 k) r)) = _
  rw [ofBits_inf, fold_min_top]
  exact congrArg Finset.univ.inf (funext fun r => congrArg src (lift_col _ k r))

theorem rowmin_apply (v28 v36 : FVec Ideal S512x2048 .f32) (v40 : Vec Ideal S1x512x1 .f32) (r : Fin 512) :
    k0_pay2 (F := Ideal) v28 v36 v40 (ix3 0 r 0)
      = min (v40 (ix3 0 r 0)) (Finset.univ.inf fun k : Fin 2048 => k0_pay1 (F := Ideal) v28 v36 (ix2 r k)) := by
  unfold k0_pay2
  refine (shapeCast_ab_1ab_apply _ _ (0 : Fin 1) r (0 : Fin 1)).trans ?_
  refine (minimumf_apply _ _ _).trans ?_
  rw [shapeCast_1ab_ab_apply, shapeCast_a_a1_apply, rowReduce_apply]

theorem colmin_apply (v28 v36 : FVec Ideal S512x2048 .f32) (v50 : Vec Ideal S1x1x2048 .f32) (k : Fin 2048) :
    k0_pay3 (F := Ideal) v28 v36 v50 (ix3 0 0 k)
      = min (v50 (ix3 0 0 k)) (Finset.univ.inf fun r : Fin 512 => k0_pay1 (F := Ideal) v28 v36 (ix2 r k)) := by
  unfold k0_pay3
  refine (shapeCast_a_11a_apply _ _ (0 : Fin 1) (0 : Fin 1) k).trans ?_
  refine (minimumf_apply _ _ _).trans ?_
  rw [shapeCast_11a_a_apply, colReduce_apply]

/-- Column d of the point block, broadcast along the tile's columns, reads x (0, r, d) at (r, k). -/
theorem colBroadcast_apply (x0 : Vec Ideal S1x512x3 .f32) (o : ℕ) (hs : S512x3.Slices ![0, o] S512x1) (d : Fin 3)
    (hd : d.val = o) (r : Fin 512) (k : Fin 2048) :
    broadcastTo S512x2048 (extractStridedSlice S512x1 ![0, o] (k0_pay8 (F := Ideal) x0) hs) broadcasts_S512x1_S512x2048
        (ix2 r k) = x0 (ix3 0 r d) := by
  refine (broadcastTo_a1_ab_apply _ _ r k).trans ?_
  refine (slice2_axis1_apply o _ hs r (0 : Fin 1) d (by rw [hd]; rfl)).trans ?_
  unfold k0_pay8
  exact shapeCast_1ab_ab_apply x0 _ r d

/-- A row [1, 1, 2048] viewed [2048], then [1, 2048], broadcast along the tile's rows, reads v (0, 0, k) at (r, k). -/
theorem rowBroadcast_apply (v : FVec Ideal S1x1x2048 .f32) (r : Fin 512) (k : Fin 2048) :
    broadcastTo S512x2048 (shapeCast S1x2048 (shapeCast S2048 v shapeCasts_S1x1x2048_S2048) shapeCasts_S2048_S1x2048)
        broadcasts_S1x2048_S512x2048 (ix2 r k) = v (ix3 0 0 k) := by
  refine (broadcastTo_1b_ab_apply _ _ r k).trans ?_
  refine (shapeCast_a_1a_apply _ _ (0 : Fin 1) k).trans ?_
  exact shapeCast_11a_a_apply v _ k

theorem pay9_apply (x0 : Vec Ideal S1x512x3 .f32) (v12 v21 : Vec Ideal S1x1x2048 .f32) (r : Fin 512) (k : Fin 2048) :
    k0_pay9 (F := Ideal) x0 v12 v21 (ix2 r k)
      = (0 + (x0 (ix3 0 r 0) - v12 (ix3 0 0 k)) * (x0 (ix3 0 r 0) - v12 (ix3 0 0 k)))
        + (x0 (ix3 0 r 1) - v21 (ix3 0 0 k)) * (x0 (ix3 0 r 1) - v21 (ix3 0 0 k)) := by
  unfold k0_pay9
  simp only [addf_apply, mulf_apply, subf_apply, broadcast_apply, rowBroadcast_apply,
    colBroadcast_apply x0 0 slices_S512x3_o0_0_S512x1 (0 : Fin 3) rfl,
    colBroadcast_apply x0 1 slices_S512x3_o0_1_S512x1 (1 : Fin 3) rfl]
  rw [show (Scalar.ofBits .f32 0x00000000#32 : Ideal .f32) = (0 : EReal) from Ideal.ofBits_zero_f32]

theorem pay10_apply (x0 : Vec Ideal S1x512x3 .f32) (v30 : Vec Ideal S1x1x2048 .f32) (r : Fin 512) (k : Fin 2048) :
    k0_pay10 (F := Ideal) x0 v30 (ix2 r k)
      = (x0 (ix3 0 r 2) - v30 (ix3 0 0 k)) * (x0 (ix3 0 r 2) - v30 (ix3 0 0 k)) := by
  unfold k0_pay10
  simp only [mulf_apply, subf_apply, rowBroadcast_apply,
    colBroadcast_apply x0 2 slices_S512x3_o0_2_S512x1 (2 : Fin 3) rfl]

theorem sq_apply (x0 : Vec Ideal S1x512x3 .f32) (v12 v21 v30 : Vec Ideal S1x1x2048 .f32) (r : Fin 512) (k : Fin 2048) :
    k0_pay1 (F := Ideal) (k0_pay9 x0 v12 v21) (k0_pay10 x0 v30) (ix2 r k)
      = ((0 + (x0 (ix3 0 r 0) - v12 (ix3 0 0 k)) * (x0 (ix3 0 r 0) - v12 (ix3 0 0 k)))
          + (x0 (ix3 0 r 1) - v21 (ix3 0 0 k)) * (x0 (ix3 0 r 1) - v21 (ix3 0 0 k)))
        + (x0 (ix3 0 r 2) - v30 (ix3 0 0 k)) * (x0 (ix3 0 r 2) - v30 (ix3 0 0 k)) := by
  unfold k0_pay1
  refine (addf_apply _ _ _).trans ?_
  rw [pay9_apply, pay10_apply]

end Cert.KernelIdeal.Pay

end
-- ==== Proof.KI.Pieces.lean ====
/-
  What each of the five cases of the body leaves in the two output blocks, read at an index at the ideal values.

  The tile of squared distances at (r, k) is 'tileSq x0 x1 r k' = Σ_d (x0 (r, d) - x1 (d, k))², accumulated from 0 in the
  order d = 0, 1, 2; 'tileRowMin' and 'tileColMin' are its minima along a row and along a column.

  • ROW block (512 entries, always stored whole).  With no reset the body leaves min (old entry) (row minimum); after a
    reset to +∞ it leaves the row minimum itself (min ⊤ y = y); where the square root is taken at the end it leaves the
    square root of that.
  • COLUMN block (8192 entries; only the 2048 entries of column block j = i 2 are stored).  An entry m inside the slice
    (m / 2048 = j) becomes min (old entry) (column minimum at m % 2048), with old entry +∞ after a reset; an entry
    outside the slice keeps what it had (+∞ after a reset); where the square root is taken at the end every entry
    is the square root of that.

  Method: a list of stores is read newest first.  A store of the whole block hides everything under it; a slice store is
  seen exactly by the indices inside its rectangle.  A load reads the contents at the rectangle's indices.
-/
import proofs.«154686_j9887014715551_2_alg».proof.Proof.KI.Outs
import proofs.«154686_j9887014715551_2_alg».proof.Proof.KI.Payloads
import Idealize.ShloMosaic.Lib.WritesUnit
import Idealize.ShloMosaic.Lib.WholeRead
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Pieces

open Cert.KernelIdeal Cert.KernelIdeal.Gen Cert.KernelIdeal.Pay Idealize.ShloMosaic Idealize.ShloMosaic.ValueIdx
open Idealize.ShloMosaic.TcCoe Idealize.ShloMosaic.Tactic Idealize.SL.Sem

/-- The squared distance between point r of the first block and point k of the second, summed over the three
    coordinates from 0 in the order 0, 1, 2. -/
def tileSq (x0 : Vec Ideal S1x512x3 .f32) (x1 : Vec Ideal S1x3x2048 .f32) (r : Fin 512) (k : Fin 2048) : EReal :=
  ((0 + (x0 (ix3 0 r 0) - x1 (ix3 0 0 k)) * (x0 (ix3 0 r 0) - x1 (ix3 0 0 k))) + (x0 (ix3 0 r 1) - x1 (ix3 0 1 k)) * (x0 (ix3 0 r 1) - x1 (ix3 0 1 k))) + (x0 (ix3 0 r 2) - x1 (ix3 0 2 k)) * (x0 (ix3 0 r 2) - x1 (ix3 0 2 k))
/-- The tile's minimum along row r. -/
def tileRowMin (x0 : Vec Ideal S1x512x3 .f32) (x1 : Vec Ideal S1x3x2048 .f32) (r : Fin 512) : EReal := Finset.univ.inf fun k : Fin 2048 => tileSq x0 x1 r k
/-- The tile's minimum along column k. -/
def tileColMin (x0 : Vec Ideal S1x512x3 .f32) (x1 : Vec Ideal S1x3x2048 .f32) (k : Fin 2048) : EReal := Finset.univ.inf fun r : Fin 512 => tileSq x0 x1 r k

theorem hz3 : (![0, 0, 0] : Fin 3 → Nat) = fun _ => 0 := funext fun a => by fin_cases a <;> rfl

/-! ### Reading a list of stores, newest first -/

section Reading
variable {sig' : RefSig} {κ : Kind} {sp : Space} {S : Shape} {e : EltTy} {Val : EltTy → Type}

/-- A store of the whole block, newest, hides everything under it. -/
theorem read_writes_cons_whole (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Reading

/-! ### The loads -/

/-- A load of a whole block, held at contents that read X, through the whole-block rectangle reads X. -/
theorem load_whole {S : Shape} (M : Memref sig .tc .vmem S .f32) (hM : M.IsWhole) (X : Vec Ideal S .f32)
    {off : Fin S.rank → Nat} (h : off = fun _ => 0) (inb : ∀ a, off a + S.size a ≤ S.size a) :
    View.readAt (Elt Ideal) M.view (Rect.unit off S.size inb).toLoadRect (hM.unread X) = X := by
  rw [View.readAt_eq_ld, hM.read_unread, View.ld_unit_zero (S := S) h]

/-- A load of row d of the second input block reads x1 (0, d, k) at (0, 0, k). -/
theorem load_row (arg4 : Memref sig .tc .vmem S1x3x2048 .f32) (harg4 : arg4.IsWhole) (x1 : Vec Ideal S1x3x2048 .f32)
    (o : ℕ) (d : Fin 3) (hd : d.val = o) (inb : ∀ a, (![0, o, 0] : Fin 3 → Nat) a + S1x1x2048.size a ≤ S1x3x2048.size a) (k : Fin 2048) :
    View.readAt (Elt Ideal) arg4.view (Rect.unit (s := S1x3x2048) ![0, o, 0] S1x1x2048.size inb).toLoadRect (harg4.unread x1) (ix3 0 0 k)
      = x1 (ix3 0 d k) := by
  refine (harg4.readAt_unread x1 _ _).trans (congrArg x1 (funext fun a => Fin.ext ?_))
  match a with
  | ⟨0, _⟩ => rfl
  | ⟨1, _⟩ => show o + 1 * 0 = d.val; omega
  | ⟨2, _⟩ => show 0 + 1 * k.val = k.val; omega

/-- The tile of squared distances computed from the loaded blocks is 'tileSq'. -/
theorem tile_apply (arg3 : Memref sig .tc .vmem S1x512x3 .f32) (harg3 : arg3.IsWhole) (arg4 : Memref sig .tc .vmem S1x3x2048 .f32) (harg4 : arg4.IsWhole)
    (x0 : Vec Ideal S1x512x3 .f32) (x1 : Vec Ideal S1x3x2048 .f32) (r : Fin 512) (k : Fin 2048) :
    k0_pay1 (F := Ideal)
        (k0_pay9
          (View.readAt (Elt Ideal) arg3.view (Rect.unit (s := S1x512x3) ![0, 0, 0] S1x512x3.size inb_S1x512x3_S1x512x3_0_0_0).toLoadRect (harg3.unread x0))
          (View.readAt (Elt Ideal) arg4.view (Rect.unit (s := S1x3x2048) ![0, 0, 0] S1x1x2048.size inb_S1x3x2048_S1x1x2048_0_0_0).toLoadRect (harg4.unread x1))
          (View.readAt (Elt Ideal) arg4.view (Rect.unit (s := S1x3x2048) ![0, 1, 0] S1x1x2048.size inb_S1x3x2048_S1x1x2048_0_1_0).toLoadRect (harg4.unread x1)))
        (k0_pay10
          (View.readAt (Elt Ideal) arg3.view (Rect.unit (s := S1x512x3) ![0, 0, 0] S1x512x3.size inb_S1x512x3_S1x512x3_0_0_0).toLoadRect (harg3.unread x0))
          (View.readAt (Elt Ideal) arg4.view (Rect.unit (s := S1x3x2048) ![0, 2, 0] S1x1x2048.size inb_S1x3x2048_S1x1x2048_0_2_0).toLoadRect (harg4.unread x1)))
        (ix2 r k)
      = tileSq x0 x1 r k := by
  rw [sq_apply, load_whole arg3 harg3 x0 hz3,
    load_row arg4 harg4 x1 0 (0 : Fin 3) rfl inb_S1x3x2048_S1x1x2048_0_0_0 k,
    load_row arg4 harg4 x1 1 (1 : Fin 3) rfl inb_S1x3x2048_S1x1x2048_0_1_0 k,
    load_row arg4 harg4 x1 2 (2 : Fin 3) rfl inb_S1x3x2048_S1x1x2048_0_2_0 k]
  rfl

/-- The two tile operands as the body computes them from its loads. -/
abbrev tR (arg3 : Memref sig .tc .vmem S1x512x3 .f32) (harg3 : arg3.IsWhole) (arg4 : Memref sig .tc .vmem S1x3x2048 .f32) (harg4 : arg4.IsWhole) (x0 : Vec Ideal S1x512x3 .f32) (x1 : Vec Ideal S1x3x2048 .f32) : FVec Ideal S512x2048 .f32 :=
  k0_pay9 (View.readAt (Elt Ideal) arg3.view (Rect.unit (s := S1x512x3) ![0, 0, 0] S1x512x3.size inb_S1x512x3_S1x512x3_0_0_0).toLoadRect (harg3.unread x0))
    (View.readAt (Elt Ideal) arg4.view (Rect.unit (s := S1x3x2048) ![0, 0, 0] S1x1x2048.size inb_S1x3x2048_S1x1x2048_0_0_0).toLoadRect (harg4.unread x1))
    (View.readAt (Elt Ideal) arg4.view (Rect.unit (s := S1x3x2048) ![0, 1, 0] S1x1x2048.size inb_S1x3x2048_S1x1x2048_0_1_0).toLoadRect (harg4.unread x1))
abbrev tR1 (arg3 : Memref sig .tc .vmem S1x512x3 .f32) (harg3 : arg3.IsWhole) (arg4 : Memref sig .tc .vmem S1x3x2048 .f32) (harg4 : arg4.IsWhole) (x0 : Vec Ideal S1x512x3 .f32) (x1 : Vec Ideal S1x3x2048 .f32) : FVec Ideal S512x2048 .f32 :=
  k0_pay10 (View.readAt (Elt Ideal) arg3.view (Rect.unit (s := S1x512x3) ![0, 0, 0] S1x512x3.size inb_S1x512x3_S1x512x3_0_0_0).toLoadRect (harg3.unread x0))
    (View.readAt (Elt Ideal) arg4.view (Rect.unit (s := S1x3x2048) ![0, 2, 0] S1x1x2048.size inb_S1x3x2048_S1x1x2048_0_2_0).toLoadRect (harg4.unread x1))

/-- The row fold's payload at entry r: min of the accumulator's entry and the tile's row minimum. -/
theorem rowPay_apply (arg3 : Memref sig .tc .vmem S1x512x3 .f32) (harg3 : arg3.IsWhole) (arg4 : Memref sig .tc .vmem S1x3x2048 .f32) (harg4 : arg4.IsWhole) (x0 : Vec Ideal S1x512x3 .f32) (x1 : Vec Ideal S1x3x2048 .f32) (v40 : Vec Ideal S1x512x1 .f32) (r : Fin 512) :
    k0_pay2 (F := Ideal) (tR arg3 harg3 arg4 harg4 x0 x1) (tR1 arg3 harg3 arg4 harg4 x0 x1) v40 (ix3 0 r 0)
      = min (v40 (ix3 0 r 0)) (tileRowMin x0 x1 r) := by
  rw [rowmin_apply]
  exact congrArg (min (v40 (ix3 0 r 0))) (congrArg Finset.univ.inf (funext fun k => tile_apply arg3 harg3 arg4 harg4 x0 x1 r k))

/-- The column fold's payload at entry k: min of the accumulator's entry and the tile's column minimum. -/
theorem colPay_apply (arg3 : Memref sig .tc .vmem S1x512x3 .f32) (harg3 : arg3.IsWhole) (arg4 : Memref sig .tc .vmem S1x3x2048 .f32) (harg4 : arg4.IsWhole) (x0 : Vec Ideal S1x512x3 .f32) (x1 : Vec Ideal S1x3x2048 .f32) (v50 : Vec Ideal S1x1x2048 .f32) (k : Fin 2048) :
    k0_pay3 (F := Ideal) (tR arg3 harg3 arg4 harg4 x0 x1) (tR1 arg3 harg3 arg4 harg4 x0 x1) v50 (ix3 0 0 k)
      = min (v50 (ix3 0 0 k)) (tileColMin x0 x1 k) := by
  rw [colmin_apply]
  exact congrArg (min (v50 (ix3 0 0 k))) (congrArg Finset.univ.inf (funext fun r => tile_apply arg3 harg3 arg4 harg4 x0 x1 r k))

/-! ### The column block's slice store -/

section Slice
variable {sig' : RefSig} {κ : Kind} {sp : Space}

/-- An entry m of column block i 2 sits at position m % 2048 of the slice store. -/
theorem colSlice_in (v : View sig' κ sp S1x1x8192 .f32) (f : v.ty.Contents (Elt Ideal)) (i : grid0.Coords)
    (inb : ∀ a, (k0_off1 i) a + S1x1x2048.size a ≤ S1x1x8192.size a)
    (w : (Rect.unit (s := S1x1x8192) (k0_off1 i) S1x1x2048.size inb).shape.Idx → Elt Ideal .f32)
    (L : List (View.Piece (Elt Ideal) S1x1x8192 .f32)) (m : Fin 8192) (hj : m.val / 2048 = (i 2).val) :
    v.read (Elt Ideal) (v.writes (Elt Ideal) f ((⟨Rect.unit (s := S1x1x8192) (k0_off1 i) S1x1x2048.size inb, w⟩ : View.Piece (Elt Ideal) S1x1x8192 .f32) :: L)) (ix3 0 0 m)
      = w (ix3 0 0 (⟨m.val % 2048, Nat.mod_lt _ (by decide)⟩ : Fin 2048)) := by
  refine View.read_writes_cons_unit_of_mem v f inb w L (ix3 0 0 m) (ix3 0 0 (⟨m.val % 2048, Nat.mod_lt _ (by decide)⟩ : Fin 2048)) (k0_off1_eq i) fun a => ?_
  match a with
  | ⟨0, _⟩ => rfl
  | ⟨1, _⟩ => rfl
  | ⟨2, _⟩ => show m.val = 2048 * (i 2).val + m.val % 2048; omega

/-- An entry m of another column block is not touched by the slice store. -/
theorem colSlice_out (v : View sig' κ sp S1x1x8192 .f32) (f : v.ty.Contents (Elt Ideal)) (i : grid0.Coords)
    (inb : ∀ a, (k0_off1 i) a + S1x1x2048.size a ≤ S1x1x8192.size a)
    (w : (Rect.unit (s := S1x1x8192) (k0_off1 i) S1x1x2048.size inb).shape.Idx → Elt Ideal .f32)
    (L : List (View.Piece (Elt Ideal) S1x1x8192 .f32)) (m : Fin 8192) (hj : ¬ m.val / 2048 = (i 2).val) :
    v.read (Elt Ideal) (v.writes (Elt Ideal) f ((⟨Rect.unit (s := S1x1x8192) (k0_off1 i) S1x1x2048.size inb, w⟩ : View.Piece (Elt Ideal) S1x1x8192 .f32) :: L)) (ix3 0 0 m)
      = v.read (Elt Ideal) (v.writes (Elt Ideal) f L) (ix3 0 0 m) := by
  refine View.read_writes_cons_unit_of_not_mem v f inb w L (ix3 0 0 m) (k0_off1_eq i) (2 : Fin 3) ?_
  show m.val < 2048 * (i 2).val ∨ 2048 * (i 2).val + 2048 ≤ m.val
  omega

end Slice

/-- The slice's load of the column block, held at contents that read xo3, reads xo3 m at position m % 2048. -/
theorem load_slice (arg6 : Memref sig .tc .vmem S1x1x8192 .f32) (harg6 : arg6.IsWhole) (xo3 : Vec Ideal S1x1x8192 .f32)
    (i : grid0.Coords) (inb : ∀ a, (k0_off1 i) a + S1x1x2048.size a ≤ S1x1x8192.size a) (m : Fin 8192)
    (hj : m.val / 2048 = (i 2).val) :
    View.readAt (Elt Ideal) arg6.view (Rect.unit (s := S1x1x8192) (k0_off1 i) S1x1x2048.size inb).toLoadRect (harg6.unread xo3)
        (ix3 0 0 (⟨m.val % 2048, Nat.mod_lt _ (by decide)⟩ : Fin 2048))
      = xo3 (ix3 0 0 m) := by
  refine (harg6.readAt_unread xo3 _ _).trans (congrArg xo3 (funext fun a => Fin.ext ?_))
  match a with
  | ⟨0, _⟩ => show (k0_off1 i) 0 + 1 * 0 = 0; rw [k0_off1_eq i]; rfl
  | ⟨1, _⟩ => show (k0_off1 i) 1 + 1 * 0 = 0; rw [k0_off1_eq i]; rfl
  | ⟨2, _⟩ => show (k0_off1 i) 2 + 1 * (m.val % 2048) = m.val; rw [k0_off1_eq i]; show 2048 * (i 2).val + 1 * (m.val % 2048) = m.val; omega

/-- The column block after the slice store alone, over contents that read xo3: inside the slice the fold, outside the
    old entry. -/
theorem col_core (arg3 : Memref sig .tc .vmem S1x512x3 .f32) (harg3 : arg3.IsWhole) (arg4 : Memref sig .tc .vmem S1x3x2048 .f32) (harg4 : arg4.IsWhole) (arg6 : Memref sig .tc .vmem S1x1x8192 .f32) (harg6 : arg6.IsWhole) (x0 : Vec Ideal S1x512x3 .f32) (x1 : Vec Ideal S1x3x2048 .f32) (xo3 : Vec Ideal S1x1x8192 .f32)
    (i : grid0.Coords) (inb : ∀ a, (k0_off1 i) a + S1x1x2048.size a ≤ S1x1x8192.size a) (m : Fin 8192) :
    arg6.view.read (Elt Ideal) (arg6.view.writes (Elt Ideal) (harg6.unread xo3)
        [(⟨Rect.unit (s := S1x1x8192) (k0_off1 i) S1x1x2048.size inb,
            k0_pay3 (F := Ideal) (tR arg3 harg3 arg4 harg4 x0 x1) (tR1 arg3 harg3 arg4 harg4 x0 x1)
              (View.readAt (Elt Ideal) arg6.view (Rect.unit (s := S1x1x8192) (k0_off1 i) S1x1x2048.size inb).toLoadRect (harg6.unread xo3))⟩ :
          View.Piece (Elt Ideal) S1x1x8192 .f32)]) (ix3 0 0 m)
      = if m.val / 2048 = (i 2).val then min (xo3 (ix3 0 0 m)) (tileColMin x0 x1 ⟨m.val % 2048, Nat.mod_lt _ (by decide)⟩) else xo3 (ix3 0 0 m) := by
  by_cases hj : m.val / 2048 = (i 2).val
  · rw [if_pos hj]
    refine (colSlice_in arg6.view _ i _ _ _ m hj).trans ?_
    refine (colPay_apply arg3 harg3 arg4 harg4 x0 x1 _ _).trans ?_
    rw [load_slice arg6 harg6 xo3 i _ m hj]
  · rw [if_neg hj]
    refine (colSlice_out arg6.view _ i _ _ _ m hj).trans ?_
    rw [View.writes_nil, harg6.read_unread]

/-! ### The five cases -/

theorem row_A (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : cond0_0 i) (hc1 : cond0_1 i) (hc2 : ¬cond0_2 i) (hc3 : ¬cond0_3 i) (x0 : Vec Ideal S1x512x3 .f32) (x1 : Vec Ideal S1x3x2048 .f32) (r : Fin 512) :
    out0_A_2 (F := Ideal) c i arg3 harg3 arg4 harg4 arg5 harg5 arg6 harg6 hc0 hc1 hc2 hc3 x0 x1 (ix3 0 r 0) = tileRowMin x0 x1 r := by
  unfold out0_A_2
  unfold kernelRun0_A
  dsimp only
  sl_unfold_run_names
  refine (congrFun (read_writes_cons_whole VO0_2 _ hz3 _ _ _) _).trans ?_
  refine (rowPay_apply arg3 harg3 arg4 harg4 x0 x1 _ r).trans ?_
  rw [View.readCov_unit_zero (S := S1x512x1) _ hz3, top_row]
  exact min_eq_right le_top

theorem col_A (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : cond0_0 i) (hc1 : cond0_1 i) (hc2 : ¬cond0_2 i) (hc3 : ¬cond0_3 i) (x0 : Vec Ideal S1x512x3 .f32) (x1 : Vec Ideal S1x3x2048 .f32) (m : Fin 8192) :
    out0_A_3 (F := Ideal) c i arg3 harg3 arg4 harg4 arg5 harg5 arg6 harg6 hc0 hc1 hc2 hc3 x0 x1 (ix3 0 0 m)
      = if m.val / 2048 = (i 2).val then tileColMin x0 x1 ⟨m.val % 2048, Nat.mod_lt _ (by decide)⟩ else ⊤ := by
  unfold out0_A_3
  unfold kernelRun0_A
  dsimp only
  sl_unfold_run_names
  by_cases hj : m.val / 2048 = (i 2).val
  · rw [if_pos hj]
    refine (colSlice_in VO0_3 _ i _ _ _ m hj).trans ?_
    refine (colPay_apply arg3 harg3 arg4 harg4 x0 x1 _ _).trans ?_
    rw [View.readAt_apply, read_writes_cons_whole arg6.view _ hz3, top_col]
    exact min_eq_right le_top
  · rw [if_neg hj]
    refine (colSlice_out VO0_3 _ i _ _ _ m hj).trans ?_
    rw [read_writes_cons_whole VO0_3 _ hz3]
    exact top_col _

theorem row_B (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : ¬cond0_1 i) (hc2 : ¬cond0_2 i) (hc3 : ¬cond0_3 i) (x0 : Vec Ideal S1x512x3 .f32) (x1 : Vec Ideal S1x3x2048 .f32) (xo2 : Vec Ideal S1x512x1 .f32) (xo3 : Vec Ideal S1x1x8192 .f32) (r : Fin 512) :
    out0_B_2 (F := Ideal) c i arg3 harg3 arg4 harg4 arg5 harg5 arg6 harg6 hc0 hc1 hc2 hc3 x0 x1 xo2 xo3 (ix3 0 r 0) = min (xo2 (ix3 0 r 0)) (tileRowMin x0 x1 r) := by
  unfold out0_B_2
  unfold kernelRun0_B
  dsimp only
  refine (congrFun (read_writes_cons_whole arg5.view _ hz3 _ _ _) _).trans ?_
  refine (rowPay_apply arg3 harg3 arg4 harg4 x0 x1 _ r).trans ?_
  rw [load_whole arg5 harg5 xo2 hz3]

theorem col_B (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : ¬cond0_1 i) (hc2 : ¬cond0_2 i) (hc3 : ¬cond0_3 i) (x0 : Vec Ideal S1x512x3 .f32) (x1 : Vec Ideal S1x3x2048 .f32) (xo2 : Vec Ideal S1x512x1 .f32) (xo3 : Vec Ideal S1x1x8192 .f32) (m : Fin 8192) :
    out0_B_3 (F := Ideal) c i arg3 harg3 arg4 harg4 arg5 harg5 arg6 harg6 hc0 hc1 hc2 hc3 x0 x1 xo2 xo3 (ix3 0 0 m) = if m.val / 2048 = (i 2).val then min (xo3 (ix3 0 0 m)) (tileColMin x0 x1 ⟨m.val % 2048, Nat.mod_lt _ (by decide)⟩) else xo3 (ix3 0 0 m) := by
  unfold out0_B_3
  unfold kernelRun0_B
  dsimp only
  exact col_core arg3 harg3 arg4 harg4 arg6 harg6 x0 x1 xo3 i _ m

theorem row_C (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : ¬cond0_1 i) (hc2 : cond0_2 i) (hc3 : ¬cond0_3 i) (x0 : Vec Ideal S1x512x3 .f32) (x1 : Vec Ideal S1x3x2048 .f32) (xo2 : Vec Ideal S1x512x1 .f32) (xo3 : Vec Ideal S1x1x8192 .f32) (r : Fin 512) :
    out0_C_2 (F := Ideal) c i arg3 harg3 arg4 harg4 arg5 harg5 arg6 harg6 hc0 hc1 hc2 hc3 x0 x1 xo2 xo3 (ix3 0 r 0) = Ideal.sqrt (min (xo2 (ix3 0 r 0)) (tileRowMin x0 x1 r)) := by
  unfold out0_C_2
  unfold kernelRun0_C
  dsimp only
  sl_unfold_run_names
  refine (congrFun (read_writes_cons_whole arg5.view _ hz3 _ _ _) _).trans ?_
  refine (sqrt_row_apply _ r).trans (congrArg Ideal.sqrt ?_)
  rw [View.readCov_unit_zero (S := S1x512x1) _ hz3]
  refine (rowPay_apply arg3 harg3 arg4 harg4 x0 x1 _ r).trans ?_
  rw [load_whole arg5 harg5 xo2 hz3]

theorem col_C (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : ¬cond0_1 i) (hc2 : cond0_2 i) (hc3 : ¬cond0_3 i) (x0 : Vec Ideal S1x512x3 .f32) (x1 : Vec Ideal S1x3x2048 .f32) (xo2 : Vec Ideal S1x512x1 .f32) (xo3 : Vec Ideal S1x1x8192 .f32) (m : Fin 8192) :
    out0_C_3 (F := Ideal) c i arg3 harg3 arg4 harg4 arg5 harg5 arg6 harg6 hc0 hc1 hc2 hc3 x0 x1 xo2 xo3 (ix3 0 0 m) = if m.val / 2048 = (i 2).val then min (xo3 (ix3 0 0 m)) (tileColMin x0 x1 ⟨m.val % 2048, Nat.mod_lt _ (by decide)⟩) else xo3 (ix3 0 0 m) := by
  unfold out0_C_3
  unfold kernelRun0_C
  dsimp only
  exact col_core arg3 harg3 arg4 harg4 arg6 harg6 x0 x1 xo3 i _ m

theorem row_D (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : cond0_1 i) (hc2 : ¬cond0_2 i) (hc3 : ¬cond0_3 i) (x0 : Vec Ideal S1x512x3 .f32) (x1 : Vec Ideal S1x3x2048 .f32) (xo3 : Vec Ideal S1x1x8192 .f32) (r : Fin 512) :
    out0_D_2 (F := Ideal) c i arg3 harg3 arg4 harg4 arg5 harg5 arg6 harg6 hc0 hc1 hc2 hc3 x0 x1 xo3 (ix3 0 r 0) = tileRowMin x0 x1 r := by
  unfold out0_D_2
  unfold kernelRun0_D
  dsimp only
  sl_unfold_run_names
  refine (congrFun (read_writes_cons_whole VO0_2 _ hz3 _ _ _) _).trans ?_
  refine (rowPay_apply arg3 harg3 arg4 harg4 x0 x1 _ r).trans ?_
  rw [View.readCov_unit_zero (S := S1x512x1) _ hz3, top_row]
  exact min_eq_right le_top

theorem col_D (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : cond0_1 i) (hc2 : ¬cond0_2 i) (hc3 : ¬cond0_3 i) (x0 : Vec Ideal S1x512x3 .f32) (x1 : Vec Ideal S1x3x2048 .f32) (xo3 : Vec Ideal S1x1x8192 .f32) (m : Fin 8192) :
    out0_D_3 (F := Ideal) c i arg3 harg3 arg4 harg4 arg5 harg5 arg6 harg6 hc0 hc1 hc2 hc3 x0 x1 xo3 (ix3 0 0 m) = if m.val / 2048 = (i 2).val then min (xo3 (ix3 0 0 m)) (tileColMin x0 x1 ⟨m.val % 2048, Nat.mod_lt _ (by decide)⟩) else xo3 (ix3 0 0 m) := by
  unfold out0_D_3
  unfold kernelRun0_D
  dsimp only
  exact col_core arg3 harg3 arg4 harg4 arg6 harg6 x0 x1 xo3 i _ m

theorem row_E (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : ¬cond0_1 i) (hc2 : cond0_2 i) (hc3 : cond0_3 i) (x0 : Vec Ideal S1x512x3 .f32) (x1 : Vec Ideal S1x3x2048 .f32) (xo2 : Vec Ideal S1x512x1 .f32) (xo3 : Vec Ideal S1x1x8192 .f32) (r : Fin 512) :
    out0_E_2 (F := Ideal) c i arg3 harg3 arg4 harg4 arg5 harg5 arg6 harg6 hc0 hc1 hc2 hc3 x0 x1 xo2 xo3 (ix3 0 r 0) = Ideal.sqrt (min (xo2 (ix3 0 r 0)) (tileRowMin x0 x1 r)) := by
  unfold out0_E_2
  unfold kernelRun0_E
  dsimp only
  sl_unfold_run_names
  refine (congrFun (read_writes_cons_whole arg5.view _ hz3 _ _ _) _).trans ?_
  refine (sqrt_row_apply _ r).trans (congrArg Ideal.sqrt ?_)
  rw [View.readCov_unit_zero (S := S1x512x1) _ hz3]
  refine (rowPay_apply arg3 harg3 arg4 harg4 x0 x1 _ r).trans ?_
  rw [load_whole arg5 harg5 xo2 hz3]

theorem col_E (c : Dev nD) (i : grid0.Coords) (arg3 : Memref sig .tc .vmem S1x512x3 .f32) (harg3 : arg3.IsWhole) (arg4 : Memref sig .tc .vmem S1x3x2048 .f32) (harg4 : arg4.IsWhole) (arg5 : Memref sig .tc .vmem S1x512x1 .f32) (harg5 : arg5.IsWhole) (arg6 : Memref sig .tc .vmem S1x1x8192 .f32) (harg6 : arg6.IsWhole) (hc0 : ¬cond0_0 i) (hc1 : ¬cond0_1 i) (hc2 : cond0_2 i) (hc3 : cond0_3 i) (x0 : Vec Ideal S1x512x3 .f32) (x1 : Vec Ideal S1x3x2048 .f32) (xo2 : Vec Ideal S1x512x1 .f32) (xo3 : Vec Ideal S1x1x8192 .f32) (m : Fin 8192) :
    out0_E_3 (F := Ideal) c i arg3 harg3 arg4 harg4 arg5 harg5 arg6 harg6 hc0 hc1 hc2 hc3 x0 x1 xo2 xo3 (ix3 0 0 m) = Ideal.sqrt (if m.val / 2048 = (i 2).val then min (xo3 (ix3 0 0 m)) (tileColMin x0 x1 ⟨m.val % 2048, Nat.mod_lt _ (by decide)⟩) else xo3 (ix3 0 0 m)) := by
  unfold out0_E_3
  unfold kernelRun0_E
  dsimp only
  sl_unfold_run_names
  refine (congrFun (read_writes_cons_whole arg6.view _ hz3 _ _ _) _).trans ?_
  refine (sqrt_col_apply _ _).trans (congrArg Ideal.sqrt ?_)
  rw [View.readAt_eq_ld, View.ld_unit_zero (S := S1x1x8192) hz3]
  exact col_core arg3 harg3 arg4 harg4 arg6 harg6 x0 x1 xo3 i _ m

end Cert.KernelIdeal.Pieces

end
-- ==== Proof.Spec.lean ====
/-
  What both programs compute, stated once over the extended reals and over no program.

  Two clouds of 8192 points of ℝ³ in each of 4 batches, `P` and `Q`, as arrays of shape [4, 8192, 3]. For a batch `b`,
  `sqd P Q b n m` is the squared distance between point `n` of `P` and point `m` of `Q`, added coordinate by
  coordinate from zero. `rowDist P Q b n` is the distance from point `n` of `P` to the cloud `Q` — the square root of the
  least squared distance over `m` —, and `colDist P Q b m` the distance from point `m` of `Q` to the cloud `P`. The
  Hausdorff sum is the greatest `rowDist` plus the greatest `colDist`; both programs take those two maxima and add them
  by the same three host operations, so it suffices to compare the two [4, 8192] arrays; the maxima are the same function
  of them on both sides.

  The minimum over a cloud is `Finset.inf`, which is the fold of `min` from `⊤`: the form in which a lane reduction and a
  host reduction both read at the ideal instance.
-/
import Idealize.ShloMosaic.PureOps.Ideal
import Idealize.ShloMosaic.Lib.ValueIdx

noncomputable section

namespace Hausdorff

open Idealize.ShloMosaic Idealize.ShloMosaic.ValueIdx

/-- A cloud array: [batch, point, coordinate]. -/
abbrev Cloud : Type := (⟨3, ![4, 8192, 3]⟩ : Shape).Idx → EReal

/-- One coordinate's contribution: the square of the difference. -/
def dsq (P Q : Cloud) (b : Fin 4) (n m : Fin 8192) (d : Fin 3) : EReal :=
  (P (ix3 b n d) - Q (ix3 b m d)) * (P (ix3 b n d) - Q (ix3 b m d))

/-- The squared distance between point `n` of `P` and point `m` of `Q` in batch `b`: ((0 + d₀²) + d₁²) + d₂². -/
def sqd (P Q : Cloud) (b : Fin 4) (n m : Fin 8192) : EReal :=
  ((0 + dsq P Q b n m 0) + dsq P Q b n m 1) + dsq P Q b n m 2

/-- The distance from point `n` of `P` to the cloud `Q`. -/
def rowDist (P Q : Cloud) (b : Fin 4) (n : Fin 8192) : EReal :=
  Ideal.sqrt (Finset.univ.inf fun m : Fin 8192 => sqd P Q b n m)

/-- The distance from point `m` of `Q` to the cloud `P`. -/
def colDist (P Q : Cloud) (b : Fin 4) (m : Fin 8192) : EReal :=
  Ideal.sqrt (Finset.univ.inf fun n : Fin 8192 => sqd P Q b n m)

/-- The two as arrays of shape [4, 8192]. -/
def rowArr (P Q : Cloud) : (⟨2, ![4, 8192]⟩ : Shape).Idx → EReal := fun j => rowDist P Q (j 0) (j 1)
def colArr (P Q : Cloud) : (⟨2, ![4, 8192]⟩ : Shape).Idx → EReal := fun j => colDist P Q (j 0) (j 1)

end Hausdorff

end
-- ==== Proof.Sweep.lean ====
/-
  Two running-minimum recurrences over a 256-point sweep of a 4 × 8192 × 8192 table end at full minima.

  The sweep visits, for each batch b < 4, the 8192 × 8192 table  s b n m  in tiles of 512 rows × 2048 columns.  Point
  t < 256 is  t = 64·b + 4·i + j : batch b = t / 64, row block i = t / 4 % 16 (rows 512·i … 512·i + 511) and column
  block j = t % 4 (columns 2048·j … 2048·j + 2047).

  • ROWS.  An accumulator of 512 entries restarts from the tile's row minima when j = 0 and is folded (by min) with the
    tile's row minima at every other point; a function g is applied after the fold at j = 3.  The four tiles of a group
    t = 4·q, …, 4·q + 3 tile the 512 rows × ALL 8192 columns, so at j = 3 the entry r holds g of the minimum of the
    whole row 512·i + r  ('row_sweep').

  • COLUMNS.  An accumulator of 8192 entries restarts when i = j = 0; at a point only the 2048 entries of the point's
    column block are folded with the tile's column minima; g is applied at the last point of the batch.  After the
    point 64·b + u the entry m, which lies in column block jm = m / 2048, has seen the row blocks 0 … u/4 - 1, and the
    row block u/4 as well exactly when jm ≤ u % 4: it is the minimum of column m over the rows below
    512·(u/4 + [jm ≤ u % 4]).  At u = 63 that bound is 8192  ('col_sweep').

  Minimum over a finite index type is 'Finset.univ.inf' (the fold of ⊓ from ⊤).  All equalities between minima are
  proved by antisymmetry: a minimum is below each of its terms, and a bound below every term is below the minimum.
-/
import Mathlib.Data.EReal.Basic
import Mathlib.Data.Finset.Lattice.Fold
import Mathlib.Data.Fintype.Basic

noncomputable section

namespace Hausdorff

def bOf (t : ℕ) : Fin 4 := ⟨t / 64 % 4, Nat.mod_lt _ (by decide)⟩
def rowIx (t : ℕ) (r : Fin 512) : Fin 8192 := ⟨512 * (t / 4 % 16) + r.val, by have := r.isLt; have := Nat.mod_lt (t / 4) (by decide : 0 < 16); omega⟩
def colIx (t : ℕ) (k : Fin 2048) : Fin 8192 := ⟨2048 * (t % 4) + k.val, by have := k.isLt; have := Nat.mod_lt t (by decide : 0 < 4); omega⟩
/-- the tile's minimum along row r, and along column k -/
def rowTile (s : Fin 4 → Fin 8192 → Fin 8192 → EReal) (t : ℕ) (r : Fin 512) : EReal := Finset.univ.inf fun k : Fin 2048 => s (bOf t) (rowIx t r) (colIx t k)
def colTile (s : Fin 4 → Fin 8192 → Fin 8192 → EReal) (t : ℕ) (k : Fin 2048) : EReal := Finset.univ.inf fun r : Fin 512 => s (bOf t) (rowIx t r) (colIx t k)

/-! ### Index arithmetic -/

theorem bOf_congr {t t' : ℕ} (h : t / 64 % 4 = t' / 64 % 4) : bOf t = bOf t' := Fin.ext h

theorem rowIx_congr {t t' : ℕ} (h : t / 4 % 16 = t' / 4 % 16) (r : Fin 512) : rowIx t r = rowIx t' r :=
  Fin.ext (show 512 * (t / 4 % 16) + r.val = 512 * (t' / 4 % 16) + r.val by rw [h])

/-- A column m of column block t % 4 is the column  colIx t (m % 2048). -/
theorem colIx_mod (t : ℕ) (m : Fin 8192) (hm : m.val / 2048 = t % 4) :
    colIx t ⟨m.val % 2048, Nat.mod_lt _ (by decide)⟩ = m :=
  Fin.ext (show 2048 * (t % 4) + m.val % 2048 = m.val by omega)

/-- A row n of row block t / 4 % 16 is the row  rowIx t (n - 512·(t / 4 % 16)). -/
theorem rowIx_sub (t : ℕ) (n : Fin 8192) (h1 : 512 * (t / 4 % 16) ≤ n.val) (h2 : n.val < 512 * (t / 4 % 16 + 1)) :
    rowIx t ⟨n.val - 512 * (t / 4 % 16), by omega⟩ = n :=
  Fin.ext (show 512 * (t / 4 % 16) + (n.val - 512 * (t / 4 % 16)) = n.val by omega)

/-! ### Rows: the four column blocks tile a row -/

/-- The minimum over one column block is below every term whose column lies in that block. -/
theorem block_inf_le (f : Fin 8192 → EReal) (t : ℕ) (m : Fin 8192) (hm : m.val / 2048 = t % 4) :
    (Finset.univ.inf fun k : Fin 2048 => f (colIx t k)) ≤ f m :=
  calc (Finset.univ.inf fun k : Fin 2048 => f (colIx t k))
      ≤ f (colIx t ⟨m.val % 2048, Nat.mod_lt _ (by decide)⟩) :=
        Finset.inf_le (f := fun k : Fin 2048 => f (colIx t k)) (Finset.mem_univ _)
    _ = f m := congrArg f (colIx_mod t m hm)

/-- The minimum over all 8192 columns is the min of the minima over the four column blocks of a group. -/
theorem inf_split4 (f : Fin 8192 → EReal) (q : ℕ) :
    min (min (min (Finset.univ.inf fun k : Fin 2048 => f (colIx (4 * q) k))
                  (Finset.univ.inf fun k : Fin 2048 => f (colIx (4 * q + 1) k)))
             (Finset.univ.inf fun k : Fin 2048 => f (colIx (4 * q + 2) k)))
        (Finset.univ.inf fun k : Fin 2048 => f (colIx (4 * q + 3) k))
      = Finset.univ.inf f := by
  apply le_antisymm
  · refine Finset.le_inf fun m _ => ?_
    have hm : m.val / 2048 < 4 := by have := m.isLt; omega
    rcases (by omega : m.val / 2048 = 0 ∨ m.val / 2048 = 1 ∨ m.val / 2048 = 2 ∨ m.val / 2048 = 3) with h | h | h | h
    · exact (((min_le_left _ _).trans (min_le_left _ _)).trans (min_le_left _ _)).trans
        (block_inf_le f (4 * q) m (by omega))
    · exact (((min_le_left _ _).trans (min_le_left _ _)).trans (min_le_right _ _)).trans
        (block_inf_le f (4 * q + 1) m (by omega))
    · exact ((min_le_left _ _).trans (min_le_right _ _)).trans (block_inf_le f (4 * q + 2) m (by omega))
    · exact (min_le_right _ _).trans (block_inf_le f (4 * q + 3) m (by omega))
  · refine le_min (le_min (le_min ?_ ?_) ?_) ?_ <;>
      exact Finset.le_inf fun k _ => Finset.inf_le (Finset.mem_univ _)

/-- The row minimum of a tile, with batch and row written through another point of the same group. -/
theorem rowTile_eq (s : Fin 4 → Fin 8192 → Fin 8192 → EReal) {t t' : ℕ} (hb : t / 64 % 4 = t' / 64 % 4)
    (hi : t / 4 % 16 = t' / 4 % 16) (r : Fin 512) :
    rowTile s t r = Finset.univ.inf fun k : Fin 2048 => s (bOf t') (rowIx t' r) (colIx t k) := by
  unfold rowTile
  rw [bOf_congr hb, rowIx_congr hi]

theorem row_sweep (s : Fin 4 → Fin 8192 → Fin 8192 → EReal) (g : EReal → EReal) (R : ℕ → Fin 512 → EReal)
    (h0 : ∀ t, t < 256 → t % 4 = 0 → ∀ r, R t r = rowTile s t r)
    (h1 : ∀ t, t < 256 → t % 4 ≠ 0 → t % 4 ≠ 3 → ∀ r, R t r = min (R (t - 1) r) (rowTile s t r))
    (h3 : ∀ t, t < 256 → t % 4 = 3 → ∀ r, R t r = g (min (R (t - 1) r) (rowTile s t r)))
    (t : ℕ) (ht : t < 256) (h : t % 4 = 3) (r : Fin 512) :
    R t r = g (Finset.univ.inf fun m : Fin 8192 => s (bOf t) (rowIx t r) m) := by
  obtain ⟨q, rfl⟩ : ∃ q, t = 4 * q + 3 := ⟨t / 4, by omega⟩
  have e0 := h0 (4 * q) (by omega) (by omega) r
  have e1 := h1 (4 * q + 1) (by omega) (by omega) (by omega) r
  have e2 := h1 (4 * q + 2) (by omega) (by omega) (by omega) r
  have e3 := h3 (4 * q + 3) ht h r
  rw [show 4 * q + 1 - 1 = 4 * q by omega] at e1
  rw [show 4 * q + 2 - 1 = 4 * q + 1 by omega] at e2
  rw [show 4 * q + 3 - 1 = 4 * q + 2 by omega] at e3
  rw [e3, e2, e1, e0,
    rowTile_eq s (t := 4 * q) (t' := 4 * q + 3) (by omega) (by omega),
    rowTile_eq s (t := 4 * q + 1) (t' := 4 * q + 3) (by omega) (by omega),
    rowTile_eq s (t := 4 * q + 2) (t' := 4 * q + 3) (by omega) (by omega),
    rowTile_eq s (t := 4 * q + 3) (t' := 4 * q + 3) rfl rfl,
    inf_split4 (fun m : Fin 8192 => s (bOf (4 * q + 3)) (rowIx (4 * q + 3) r) m) q]

/-! ### Columns: minima over an initial segment of rows -/

/-- The minimum of f over the rows below N. -/
def pre (f : Fin 8192 → EReal) (N : ℕ) : EReal :=
  (Finset.univ.filter fun n : Fin 8192 => n.val < N).inf f

theorem pre_le (f : Fin 8192 → EReal) {N : ℕ} (n : Fin 8192) (h : n.val < N) : pre f N ≤ f n :=
  Finset.inf_le (Finset.mem_filter.2 ⟨Finset.mem_univ _, h⟩)

theorem le_pre (f : Fin 8192 → EReal) {N : ℕ} {a : EReal} (h : ∀ n : Fin 8192, n.val < N → a ≤ f n) : a ≤ pre f N :=
  Finset.le_inf fun n hn => h n (Finset.mem_filter.1 hn).2

/-- No rows: the minimum is ⊤. -/
theorem pre_zero (f : Fin 8192 → EReal) : pre f 0 = ⊤ :=
  top_le_iff.1 (le_pre f fun n hn => absurd hn (Nat.not_lt_zero _))

/-- All rows. -/
theorem pre_full (f : Fin 8192 → EReal) {N : ℕ} (hN : 8192 ≤ N) : pre f N = Finset.univ.inf f :=
  le_antisymm (Finset.le_inf fun n _ => pre_le f n (lt_of_lt_of_le n.isLt hN))
    (le_pre f fun n _ => Finset.inf_le (Finset.mem_univ n))

/-- One more row block: the minimum over the rows below 512·(i + 1) is the min of the minimum over the rows below
    512·i and the minimum over row block i  (i = t / 4 % 16). -/
theorem pre_succ_block (f : Fin 8192 → EReal) (t : ℕ) :
    min (pre f (512 * (t / 4 % 16))) (Finset.univ.inf fun r : Fin 512 => f (rowIx t r))
      = pre f (512 * (t / 4 % 16 + 1)) := by
  apply le_antisymm
  · refine le_pre f fun n hn => ?_
    rcases Nat.lt_or_ge n.val (512 * (t / 4 % 16)) with hlt | hge
    · exact (min_le_left _ _).trans (pre_le f n hlt)
    · refine (min_le_right _ _).trans ?_
      calc (Finset.univ.inf fun r : Fin 512 => f (rowIx t r))
          ≤ f (rowIx t ⟨n.val - 512 * (t / 4 % 16), by omega⟩) :=
            Finset.inf_le (f := fun r : Fin 512 => f (rowIx t r)) (Finset.mem_univ _)
        _ = f n := congrArg f (rowIx_sub t n hge hn)
  · refine le_min (le_pre f fun n hn => pre_le f n (by omega)) (Finset.le_inf fun r _ => pre_le f _ ?_)
    show 512 * (t / 4 % 16) + r.val < 512 * (t / 4 % 16 + 1)
    have := r.isLt
    omega

/-- The column minimum of a tile at an entry m of the tile's column block is the minimum of column m over the
    tile's row block. -/
theorem colTile_eq (s : Fin 4 → Fin 8192 → Fin 8192 → EReal) (t : ℕ) (m : Fin 8192) (hm : m.val / 2048 = t % 4) :
    colTile s t ⟨m.val % 2048, Nat.mod_lt _ (by decide)⟩
      = Finset.univ.inf fun r : Fin 512 => s (bOf t) (rowIx t r) m := by
  unfold colTile
  rw [colIx_mod t m hm]

/-- Folding the tile of point t into an entry m of its column block adds row block t / 4 % 16. -/
theorem fold_colTile (s : Fin 4 → Fin 8192 → Fin 8192 → EReal) (t : ℕ) (m : Fin 8192) (hm : m.val / 2048 = t % 4) :
    min (pre (fun n => s (bOf t) n m) (512 * (t / 4 % 16))) (colTile s t ⟨m.val % 2048, Nat.mod_lt _ (by decide)⟩)
      = pre (fun n => s (bOf t) n m) (512 * (t / 4 % 16 + 1)) := by
  rw [colTile_eq s t m hm]
  exact pre_succ_block (fun n => s (bOf t) n m) t

/-- The invariant of the column accumulator inside batch b: after point 64·b + u (u ≤ 62) the entry m holds the
    minimum of column m over the rows below 512·(u/4 + [m/2048 ≤ u % 4]). -/
theorem col_inv (s : Fin 4 → Fin 8192 → Fin 8192 → EReal) (C : ℕ → Fin 8192 → EReal)
    (h0 : ∀ t, t < 256 → t % 64 = 0 → ∀ m : Fin 8192, C t m = if m.val / 2048 = t % 4 then colTile s t ⟨m.val % 2048, Nat.mod_lt _ (by decide)⟩ else ⊤)
    (h1 : ∀ t, t < 256 → t % 64 ≠ 0 → t % 64 ≠ 63 → ∀ m : Fin 8192, C t m = if m.val / 2048 = t % 4 then min (C (t - 1) m) (colTile s t ⟨m.val % 2048, Nat.mod_lt _ (by decide)⟩) else C (t - 1) m)
    (b : ℕ) (hb : b < 4) (m : Fin 8192) (u : ℕ) (hu : u ≤ 62) :
    C (64 * b + u) m
      = pre (fun n => s (bOf (64 * b)) n m) (512 * (u / 4 + if m.val / 2048 ≤ u % 4 then 1 else 0)) := by
  induction u with
  | zero =>
    have e := h0 (64 * b + 0) (by omega) (by omega) m
    rw [e]
    have hbb : bOf (64 * b + 0) = bOf (64 * b) := bOf_congr (by omega)
    by_cases hj : m.val / 2048 = (64 * b + 0) % 4
    · rw [if_pos hj, if_pos (by omega), ← hbb]
      have hf := fold_colTile s (64 * b + 0) m hj
      rw [show (64 * b + 0) / 4 % 16 = 0 by omega] at hf
      rw [show 0 / 4 + 1 = 0 + 1 by omega, ← hf, Nat.mul_zero, pre_zero]
      exact (min_eq_right le_top).symm
    · rw [if_neg hj, if_neg (by omega), show 512 * (0 / 4 + 0) = 0 by omega, pre_zero]
  | succ u ih =>
    have ih' := ih (by omega)
    have e := h1 (64 * b + (u + 1)) (by omega) (by omega) (by omega) m
    rw [show 64 * b + (u + 1) - 1 = 64 * b + u by omega] at e
    rw [e, ih']
    have hbb : bOf (64 * b + (u + 1)) = bOf (64 * b) := bOf_congr (by omega)
    by_cases hj : m.val / 2048 = (64 * b + (u + 1)) % 4
    · rw [if_pos hj]
      have hf := fold_colTile s (64 * b + (u + 1)) m hj
      rw [hbb] at hf
      have hN : 512 * (u / 4 + if m.val / 2048 ≤ u % 4 then 1 else 0) = 512 * ((64 * b + (u + 1)) / 4 % 16) := by
        split_ifs <;> omega
      have hN' : 512 * ((u + 1) / 4 + if m.val / 2048 ≤ (u + 1) % 4 then 1 else 0)
          = 512 * ((64 * b + (u + 1)) / 4 % 16 + 1) := by
        split_ifs <;> omega
      rw [hN, hN', hf]
    · rw [if_neg hj]
      congr 1
      split_ifs <;> omega

theorem col_sweep (s : Fin 4 → Fin 8192 → Fin 8192 → EReal) (g : EReal → EReal) (C : ℕ → Fin 8192 → EReal)
    (h0 : ∀ t, t < 256 → t % 64 = 0 → ∀ m : Fin 8192, C t m = if m.val / 2048 = t % 4 then colTile s t ⟨m.val % 2048, Nat.mod_lt _ (by decide)⟩ else ⊤)
    (h1 : ∀ t, t < 256 → t % 64 ≠ 0 → t % 64 ≠ 63 → ∀ m : Fin 8192, C t m = if m.val / 2048 = t % 4 then min (C (t - 1) m) (colTile s t ⟨m.val % 2048, Nat.mod_lt _ (by decide)⟩) else C (t - 1) m)
    (h63 : ∀ t, t < 256 → t % 64 = 63 → ∀ m : Fin 8192, C t m = g (if m.val / 2048 = t % 4 then min (C (t - 1) m) (colTile s t ⟨m.val % 2048, Nat.mod_lt _ (by decide)⟩) else C (t - 1) m))
    (t : ℕ) (ht : t < 256) (h : t % 64 = 63) (m : Fin 8192) :
    C t m = g (Finset.univ.inf fun n : Fin 8192 => s (bOf t) n m) := by
  obtain ⟨b, rfl⟩ : ∃ b, t = 64 * b + 63 := ⟨t / 64, by omega⟩
  have e := h63 (64 * b + 63) ht h m
  rw [show 64 * b + 63 - 1 = 64 * b + 62 by omega] at e
  rw [e, col_inv s C h0 h1 b (by omega) m 62 (le_refl _)]
  have hbb : bOf (64 * b + 63) = bOf (64 * b) := bOf_congr (by omega)
  congr 1
  by_cases hj : m.val / 2048 = (64 * b + 63) % 4
  · rw [if_pos hj]
    have hf := fold_colTile s (64 * b + 63) m hj
    rw [hbb] at hf
    have hN : 512 * (62 / 4 + if m.val / 2048 ≤ 62 % 4 then 1 else 0) = 512 * ((64 * b + 63) / 4 % 16) := by
      split_ifs <;> omega
    rw [hN, hf, hbb]
    exact pre_full _ (by omega)
  · rw [if_neg hj, hbb]
    refine pre_full _ ?_
    have hm : m.val / 2048 < 4 := by have := m.isLt; omega
    split_ifs <;> omega

end Hausdorff

end
-- ==== Proof.KI.Host.lean ====
/-
  The arrays the region works on, in global coordinates.

  The second cloud reaches the region transposed: the region's array of shape [4, 3, 8192] holds, at (b, d, k), the
  launched array's entry (b, k, d).
-/
import proofs.«154686_j9887014715551_2_alg».proof.Proof.Gen.KernelIdeal.Frame
import proofs.«154686_j9887014715551_2_alg».proof.Proof.Spec
import proofs.«154686_j9887014715551_2_alg».proof.Proof.Sweep
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HostSide

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The transposed cloud as the region finds it: the one host operation before the region is the transpose [0, 2, 1]
    of the second argument. -/
theorem V_v0_eq (c : Dev nD) :
    (V m c main_v0 : S4x3x8192.Idx → EReal)
      = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- Read at an index: entry (b, d, k) of the transposed cloud is entry (b, k, d) of the launched one. -/
theorem V_v0_apply (c : Dev nD) (b : Fin 4) (d : Fin 3) (k : Fin 8192) :
    (V m c main_v0 : S4x3x8192.Idx → EReal) (ix3 b d k) = m ((c : Thread nD τ).loc main_arg1) (ix3 b k d) := by
  rw [V_v0_eq]
  exact transpose_ix3_021_apply (m ((c : Thread nD τ).loc main_arg1)) transposes_S4x8192x3_S4x3x8192_0_2_1 b d k

end Cert.KernelIdeal.HostSide

end
-- ==== Proof.KI.Blocks.lean ====
/-
  The windows' blocks in global coordinates.

  Grid point t < 256 is t = 64·b + 4·i + j: batch b = t / 64, row block i = t / 4 % 16, column block j = t % 4.  The
  first cloud's block at t is rows 512·i … 512·i + 511 of batch b; the transposed second cloud's block is columns
  2048·j … 2048·j + 2047 of batch b.  An element of a block sits in its array, on each axis, at the block index times
  the block's size plus its own coordinate.
-/
import proofs.«154686_j9887014715551_2_alg».proof.Proof.Gen.KernelIdeal.Frame
import proofs.«154686_j9887014715551_2_alg».proof.Proof.Spec
import proofs.«154686_j9887014715551_2_alg».proof.Proof.Sweep
import proofs.«154686_j9887014715551_2_alg».proof.Proof.KI.Host
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HostSide

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

open Hausdorff (bOf rowIx colIx)

/-- A grid point is below 256. -/
theorem t_lt (t : Fin cfg0.N) : t.val < 256 := lt_of_lt_of_eq t.isLt N_0

/-- The block indices of the first cloud's window over the grid: (t / 64, t / 4 % 16, 0). -/
theorem idx0 : ∀ t : Fin cfg0.N, win0_0.index t 0 = t.val / 64 ∧ win0_0.index t 1 = t.val / 4 % 16 ∧ win0_0.index t 2 = 0 :=
  (by decide +kernel : ∀ t : Fin grid0.N, win0_0.index t 0 = t.val / 64 ∧ win0_0.index t 1 = t.val / 4 % 16 ∧ win0_0.index t 2 = 0)

/-- The block indices of the transposed second cloud's window: (t / 64, 0, t % 4). -/
theorem idx1 : ∀ t : Fin cfg0.N, win0_1.index t 0 = t.val / 64 ∧ win0_1.index t 1 = 0 ∧ win0_1.index t 2 = t.val % 4 :=
  (by decide +kernel : ∀ t : Fin grid0.N, win0_1.index t 0 = t.val / 64 ∧ win0_1.index t 1 = 0 ∧ win0_1.index t 2 = t.val % 4)

/-- Entry (r, d) of the first cloud's block at point t is entry (b, 512·i + r, d) of the launched array. -/
theorem iblk0_apply (c : Dev nD) (t : Fin cfg0.N) (r : Fin 512) (d : Fin 3) :
    (iblk m c 0 t : S1x512x3.Idx → EReal) (ix3 0 r d)
      = m ((c : Thread nD τ).loc main_arg0) (ix3 (bOf t.val) (rowIx t.val r) d) := by
  have hi := idx0 t
  have ht := t_lt t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1 + 1 * 0 = t.val / 64 % 4
              rw [hi.1]; omega
  | ⟨1, _⟩ => show win0_0.index t 1 * 512 + 1 * r.val = 512 * (t.val / 4 % 16) + r.val
              rw [hi.2.1]; omega
  | ⟨2, _⟩ => show win0_0.index t 2 * 3 + 1 * d.val = d.val
              rw [hi.2.2]; omega

/-- Entry (d, k) of the transposed second cloud's block at point t is entry (b, 2048·j + k, d) of the launched array. -/
theorem iblk1_apply (c : Dev nD) (t : Fin cfg0.N) (d : Fin 3) (k : Fin 2048) :
    (iblk m c 1 t : S1x3x2048.Idx → EReal) (ix3 0 d k)
      = m ((c : Thread nD τ).loc main_arg1) (ix3 (bOf t.val) (colIx t.val k) d) := by
  have hi := idx1 t
  have ht := t_lt t
  refine Eq.trans ?_ (V_v0_apply m c (bOf t.val) d (colIx t.val k))
  unfold iblk
  rw [View.read_apply]
  show (V m c main_v0 : S4x3x8192.Idx → EReal) _ = _
  refine congrArg (V m c main_v0 : S4x3x8192.Idx → EReal) (funext fun a => Fin.ext ?_)
  match a with
  | ⟨0, _⟩ => show win0_1.index t 0 * 1 + 1 * 0 = t.val / 64 % 4
              rw [hi.1]; omega
  | ⟨1, _⟩ => show win0_1.index t 1 * 3 + 1 * d.val = d.val
              rw [hi.2.1]; omega
  | ⟨2, _⟩ => show win0_1.index t 2 * 2048 + 1 * k.val = 2048 * (t.val % 4) + k.val
              rw [hi.2.2]; omega

end Cert.KernelIdeal.HostSide

end
-- ==== Proof.KI.SweepAt.lean ====
/-
  The kernel's two running minima, point by point, are the sweep of the squared-distance table.

  At grid point t = 64·b + 4·i + j the kernel holds row block i of the first cloud (512 points) and column block j of the
  second (2048 points) of batch b; the tile of squared distances it forms from them is the table
  s b n k = ‖P[b,n] − Q[b,k]‖² restricted to that block pair. Which of its five cases a point is in depends only on
  t mod 4 and t mod 64, and each case updates the row block and the column block as one step of the two recurrences
  of the sweep. So after a point with j = 3 the row block holds the distances from its 512 points to the whole second
  cloud, and after the last point of a batch the column block holds the distances from all 8192 points of the second
  cloud to the whole first cloud.
-/
import proofs.«154686_j9887014715551_2_alg».proof.Proof.KI.Frame
import proofs.«154686_j9887014715551_2_alg».proof.Proof.KI.Pieces
import proofs.«154686_j9887014715551_2_alg».proof.Proof.KI.Blocks
import proofs.«154686_j9887014715551_2_alg».proof.Proof.Sweep
import proofs.«154686_j9887014715551_2_alg».proof.Proof.Spec

set_option maxRecDepth 16384

noncomputable section

namespace Cert.KernelIdeal.HostSide

open Cert.KernelIdeal Cert.KernelIdeal.Gen Idealize.ShloMosaic Idealize.ShloMosaic.ValueIdx Idealize.ShloMosaic.TcCoe Idealize.SL.Sem

open Hausdorff (bOf rowIx colIx)

variable (m : (ℓ : Loc nD τ sig) → Buf (Elt Ideal) ℓ)

/-! ## The tile is the table on the point's block pair -/

/-- The squared-distance table of the two clouds on core `c`. -/
abbrev sqTab (c : Dev nD) : Fin 4 → Fin 8192 → Fin 8192 → EReal := fun b n k =>
  Hausdorff.sqd (m ((c : Thread nD τ).loc main_arg0)) (m ((c : Thread nD τ).loc main_arg1)) b n k

/-- A tile entry computed from two blocks whose entries are entries of two clouds is the clouds' squared distance. -/
theorem tileSq_eq_of (x0 : Vec Ideal S1x512x3 .f32) (x1 : Vec Ideal S1x3x2048 .f32) (P Q : Hausdorff.Cloud)
    (b : Fin 4) (n k' : Fin 8192) (r : Fin 512) (k : Fin 2048)
    (h0 : ∀ d : Fin 3, x0 (ix3 0 r d) = P (ix3 b n d)) (h1 : ∀ d : Fin 3, x1 (ix3 0 d k) = Q (ix3 b k' d)) :
    Pieces.tileSq x0 x1 r k = Hausdorff.sqd P Q b n k' := by
  unfold Pieces.tileSq Hausdorff.sqd Hausdorff.dsq
  rw [h0 0, h0 1, h0 2, h1 0, h1 1, h1 2]

/-- Entry (r, k) of the tile at point t is the table at batch t / 64, row 512·(t / 4 % 16) + r, column 2048·(t % 4) + k. -/
theorem tile_eq (c : Dev nD) (t : Fin cfg0.N) (r : Fin 512) (k : Fin 2048) :
    Pieces.tileSq (iblk m c 0 t) (iblk m c 1 t) r k = sqTab m c (bOf t.val) (rowIx t.val r) (colIx t.val k) :=
  tileSq_eq_of (iblk m c 0 t) (iblk m c 1 t) (m ((c : Thread nD τ).loc main_arg0)) (m ((c : Thread nD τ).loc main_arg1))
    (bOf t.val) (rowIx t.val r) (colIx t.val k) r k (fun d => iblk0_apply m c t r d) (fun d => iblk1_apply m c t d k)

/-- The tile's row minima are the table's. -/
theorem tileRowMin_eq (c : Dev nD) (t : Fin cfg0.N) (r : Fin 512) :
    Pieces.tileRowMin (iblk m c 0 t) (iblk m c 1 t) r = Hausdorff.rowTile (sqTab m c) t.val r := by
  unfold Pieces.tileRowMin Hausdorff.rowTile
  exact congrArg Finset.univ.inf (funext fun k => tile_eq m c t r k)

/-- The tile's column minima are the table's. -/
theorem tileColMin_eq (c : Dev nD) (t : Fin cfg0.N) (k : Fin 2048) :
    Pieces.tileColMin (iblk m c 0 t) (iblk m c 1 t) k = Hausdorff.colTile (sqTab m c) t.val k := by
  unfold Pieces.tileColMin Hausdorff.colTile
  exact congrArg Finset.univ.inf (funext fun r => tile_eq m c t r k)

/-- The grid's third coordinate is the column block. -/
theorem coords2 : ∀ t : Fin cfg0.N, (grid0.coords t 2).val = t.val % 4 :=
  (by decide +kernel : ∀ t : Fin grid0.N, (grid0.coords t 2).val = t.val % 4)

/-! ## The two blocks after each point, as sequences over the naturals -/

/-- Entry r of the row block after point n (zero past the grid). -/
def rowSeq (c : Dev nD) (n : ℕ) (r : Fin 512) : EReal :=
  if h : n < cfg0.N then (outsAt0 (F := Ideal) m c n h).1 (ix3 0 r 0) else 0

/-- Entry k of the column block after point n (zero past the grid). -/
def colSeq (c : Dev nD) (n : ℕ) (k : Fin 8192) : EReal :=
  if h : n < cfg0.N then (outsAt0 (F := Ideal) m c n h).2 (ix3 0 0 k) else 0

theorem rowSeq_at (c : Dev nD) (t : Fin cfg0.N) (r : Fin 512) :
    rowSeq m c t.val r = (outsAt0 (F := Ideal) m c t.val t.isLt).1 (ix3 0 r 0) := by
  unfold rowSeq; rw [dif_pos t.isLt]

theorem colSeq_at (c : Dev nD) (t : Fin cfg0.N) (k : Fin 8192) :
    colSeq m c t.val k = (outsAt0 (F := Ideal) m c t.val t.isLt).2 (ix3 0 0 k) := by
  unfold colSeq; rw [dif_pos t.isLt]

theorem rowSeq_prev (c : Dev nD) (t : Fin cfg0.N) (h : t.val ≠ 0) (r : Fin 512) :
    rowSeq m c (t.val - 1) r = (prevAt (F := Ideal) m c t).1 (ix3 0 r 0) := by
  rw [prevAt_of_ne m c t h]
  unfold rowSeq; rw [dif_pos (Nat.lt_of_le_of_lt (Nat.sub_le _ _) t.isLt)]

theorem colSeq_prev (c : Dev nD) (t : Fin cfg0.N) (h : t.val ≠ 0) (k : Fin 8192) :
    colSeq m c (t.val - 1) k = (prevAt (F := Ideal) m c t).2 (ix3 0 0 k) := by
  rw [prevAt_of_ne m c t h]
  unfold colSeq; rw [dif_pos (Nat.lt_of_le_of_lt (Nat.sub_le _ _) t.isLt)]

/-! ## One point's step -/

/-- The row block after point t: the tile's row minima when the column block is 0; else the running minimum with what the
    point before left, under a square root at the last column block. -/
theorem row_at (c : Dev nD) (t : Fin cfg0.N) (r : Fin 512) :
    (outsAt0 (F := Ideal) m c t.val t.isLt).1 (ix3 0 r 0)
      = if t.val % 4 = 0 then Hausdorff.rowTile (sqTab m c) t.val r
        else if t.val % 4 = 3 then Ideal.sqrt (min ((prevAt (F := Ideal) m c t).1 (ix3 0 r 0)) (Hausdorff.rowTile (sqTab m c) t.val r))
        else min ((prevAt (F := Ideal) m c t).1 (ix3 0 r 0)) (Hausdorff.rowTile (sqTab m c) t.val r) := by
  have hN : t.val < 256 := t_lt t
  rw [outsAt0_eq m c t]
  by_cases h0 : t.val % 64 = 0
  · have hc0 : cond0_0 (grid0.coords t) := (hcond0_0 t).mpr h0
    have hc1 : cond0_1 (grid0.coords t) := (hcond0_1 t).mpr (by omega)
    have hc2 : ¬cond0_2 (grid0.coords t) := fun h => absurd ((hcond0_2 t).mp h) (by omega)
    have hc3 : ¬cond0_3 (grid0.coords t) := fun h => absurd ((hcond0_3 t).mp h) (by omega)
    rw [stepAt_A m c t h0 hc0 hc1 hc2 hc3, if_pos (by omega)]
    dsimp only
    unfold at_A_2
    rw [Pieces.row_A c (grid0.coords t) (ms0_0 t) (hs0_0 t) (ms0_1 t) (hs0_1 t) (ms0_2 t) (hs0_2 t) (ms0_3 t) (hs0_3 t) hc0 hc1 hc2 hc3 (iblk m c 0 t) (iblk m c 1 t) r, tileRowMin_eq m c t r]
  by_cases h1 : t.val % 4 = 0
  · have hc0 : ¬cond0_0 (grid0.coords t) := fun h => h0 ((hcond0_0 t).mp h)
    have hc1 : cond0_1 (grid0.coords t) := (hcond0_1 t).mpr h1
    have hc2 : ¬cond0_2 (grid0.coords t) := fun h => absurd ((hcond0_2 t).mp h) (by omega)
    have hc3 : ¬cond0_3 (grid0.coords t) := fun h => absurd ((hcond0_3 t).mp h) (by omega)
    rw [stepAt_D m c t h0 h1 hc0 hc1 hc2 hc3, if_pos h1]
    dsimp only
    unfold at_D_2
    rw [Pieces.row_D c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).2 r, tileRowMin_eq m c t r]
  by_cases h2 : t.val % 4 = 3
  · by_cases h3 : t.val % 64 = 63
    · have hc0 : ¬cond0_0 (grid0.coords t) := fun h => h0 ((hcond0_0 t).mp h)
      have hc1 : ¬cond0_1 (grid0.coords t) := fun h => h1 ((hcond0_1 t).mp h)
      have hc2 : cond0_2 (grid0.coords t) := (hcond0_2 t).mpr h2
      have hc3 : cond0_3 (grid0.coords t) := (hcond0_3 t).mpr h3
      rw [stepAt_E m c t h0 h1 h2 h3 hc0 hc1 hc2 hc3, if_neg h1, if_pos h2]
      dsimp only
      unfold at_E_2
      rw [Pieces.row_E c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).1 (prevAt (F := Ideal) m c t).2 r, tileRowMin_eq m c t r]
    · have hc0 : ¬cond0_0 (grid0.coords t) := fun h => h0 ((hcond0_0 t).mp h)
      have hc1 : ¬cond0_1 (grid0.coords t) := fun h => h1 ((hcond0_1 t).mp h)
      have hc2 : cond0_2 (grid0.coords t) := (hcond0_2 t).mpr h2
      have hc3 : ¬cond0_3 (grid0.coords t) := fun h => h3 ((hcond0_3 t).mp h)
      rw [stepAt_C m c t h0 h1 h2 h3 hc0 hc1 hc2 hc3, if_neg h1, if_pos h2]
      dsimp only
      unfold at_C_2
      rw [Pieces.row_C c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).1 (prevAt (F := Ideal) m c t).2 r, tileRowMin_eq m c t r]
  · have hc0 : ¬cond0_0 (grid0.coords t) := fun h => h0 ((hcond0_0 t).mp h)
    have hc1 : ¬cond0_1 (grid0.coords t) := fun h => h1 ((hcond0_1 t).mp h)
    have hc2 : ¬cond0_2 (grid0.coords t) := fun h => h2 ((hcond0_2 t).mp h)
    have hc3 : ¬cond0_3 (grid0.coords t) := fun h => absurd ((hcond0_3 t).mp h) (by omega)
    rw [stepAt_B m c t h0 h1 h2 hc0 hc1 hc2 hc3, if_neg h1, if_neg h2]
    dsimp only
    unfold at_B_2
    rw [Pieces.row_B c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).1 (prevAt (F := Ideal) m c t).2 r, tileRowMin_eq m c t r]

/-- The column block after point t: only the 2048 entries of the point's column block change — to the tile's column
    minima at a batch's first point (the rest ⊤), else to the running minimum with what the point before left —, under a
    square root at a batch's last point. -/
theorem col_at (c : Dev nD) (t : Fin cfg0.N) (k : Fin 8192) :
    (outsAt0 (F := Ideal) m c t.val t.isLt).2 (ix3 0 0 k)
      = if t.val % 64 = 0 then
          (if k.val / 2048 = t.val % 4 then Hausdorff.colTile (sqTab m c) t.val ⟨k.val % 2048, Nat.mod_lt _ (by decide)⟩ else ⊤)
        else if t.val % 64 = 63 then Ideal.sqrt (if k.val / 2048 = t.val % 4 then min ((prevAt (F := Ideal) m c t).2 (ix3 0 0 k)) (Hausdorff.colTile (sqTab m c) t.val ⟨k.val % 2048, Nat.mod_lt _ (by decide)⟩) else (prevAt (F := Ideal) m c t).2 (ix3 0 0 k))
        else (if k.val / 2048 = t.val % 4 then min ((prevAt (F := Ideal) m c t).2 (ix3 0 0 k)) (Hausdorff.colTile (sqTab m c) t.val ⟨k.val % 2048, Nat.mod_lt _ (by decide)⟩) else (prevAt (F := Ideal) m c t).2 (ix3 0 0 k)) := by
  have hN : t.val < 256 := t_lt t
  rw [outsAt0_eq m c t]
  by_cases h0 : t.val % 64 = 0
  · have hc0 : cond0_0 (grid0.coords t) := (hcond0_0 t).mpr h0
    have hc1 : cond0_1 (grid0.coords t) := (hcond0_1 t).mpr (by omega)
    have hc2 : ¬cond0_2 (grid0.coords t) := fun h => absurd ((hcond0_2 t).mp h) (by omega)
    have hc3 : ¬cond0_3 (grid0.coords t) := fun h => absurd ((hcond0_3 t).mp h) (by omega)
    rw [stepAt_A m c t h0 hc0 hc1 hc2 hc3, if_pos h0]
    dsimp only
    unfold at_A_3
    rw [Pieces.col_A c (grid0.coords t) (ms0_0 t) (hs0_0 t) (ms0_1 t) (hs0_1 t) (ms0_2 t) (hs0_2 t) (ms0_3 t) (hs0_3 t) hc0 hc1 hc2 hc3 (iblk m c 0 t) (iblk m c 1 t) k, coords2 t, tileColMin_eq m c t]
  by_cases h1 : t.val % 4 = 0
  · have hc0 : ¬cond0_0 (grid0.coords t) := fun h => h0 ((hcond0_0 t).mp h)
    have hc1 : cond0_1 (grid0.coords t) := (hcond0_1 t).mpr h1
    have hc2 : ¬cond0_2 (grid0.coords t) := fun h => absurd ((hcond0_2 t).mp h) (by omega)
    have hc3 : ¬cond0_3 (grid0.coords t) := fun h => absurd ((hcond0_3 t).mp h) (by omega)
    rw [stepAt_D m c t h0 h1 hc0 hc1 hc2 hc3, if_neg h0, if_neg (by omega)]
    dsimp only
    unfold at_D_3
    rw [Pieces.col_D c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).2 k, coords2 t, tileColMin_eq m c t]
  by_cases h2 : t.val % 4 = 3
  · by_cases h3 : t.val % 64 = 63
    · have hc0 : ¬cond0_0 (grid0.coords t) := fun h => h0 ((hcond0_0 t).mp h)
      have hc1 : ¬cond0_1 (grid0.coords t) := fun h => h1 ((hcond0_1 t).mp h)
      have hc2 : cond0_2 (grid0.coords t) := (hcond0_2 t).mpr h2
      have hc3 : cond0_3 (grid0.coords t) := (hcond0_3 t).mpr h3
      rw [stepAt_E m c t h0 h1 h2 h3 hc0 hc1 hc2 hc3, if_neg h0, if_pos h3]
      dsimp only
      unfold at_E_3
      rw [Pieces.col_E c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).1 (prevAt (F := Ideal) m c t).2 k, coords2 t, tileColMin_eq m c t]
    · have hc0 : ¬cond0_0 (grid0.coords t) := fun h => h0 ((hcond0_0 t).mp h)
      have hc1 : ¬cond0_1 (grid0.coords t) := fun h => h1 ((hcond0_1 t).mp h)
      have hc2 : cond0_2 (grid0.coords t) := (hcond0_2 t).mpr h2
      have hc3 : ¬cond0_3 (grid0.coords t) := fun h => h3 ((hcond0_3 t).mp h)
      rw [stepAt_C m c t h0 h1 h2 h3 hc0 hc1 hc2 hc3, if_neg h0, if_neg h3]
      dsimp only
      unfold at_C_3
      rw [Pieces.col_C c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).1 (prevAt (F := Ideal) m c t).2 k, coords2 t, tileColMin_eq m c t]
  · have hc0 : ¬cond0_0 (grid0.coords t) := fun h => h0 ((hcond0_0 t).mp h)
    have hc1 : ¬cond0_1 (grid0.coords t) := fun h => h1 ((hcond0_1 t).mp h)
    have hc2 : ¬cond0_2 (grid0.coords t) := fun h => h2 ((hcond0_2 t).mp h)
    have hc3 : ¬cond0_3 (grid0.coords t) := fun h => absurd ((hcond0_3 t).mp h) (by omega)
    rw [stepAt_B m c t h0 h1 h2 hc0 hc1 hc2 hc3, if_neg h0, if_neg (by omega)]
    dsimp only
    unfold at_B_3
    rw [Pieces.col_B c (grid0.coords t) (ms0_0 t) (hs0_0 t) (ms0_1 t) (hs0_1 t) (ms0_2 t) (hs0_2 t) (ms0_3 t) (hs0_3 t) hc0 hc1 hc2 hc3 (iblk m c 0 t) (iblk m c 1 t) (prevAt (F := Ideal) m c t).1 (prevAt (F := Ideal) m c t).2 k, coords2 t, tileColMin_eq m c t]

/-! ## The sweeps' hypotheses, and the two blocks at the end of a sweep -/

/-- A natural number below 256 as a grid point. -/
abbrev pt (n : ℕ) (h : n < 256) : Fin cfg0.N := ⟨n, lt_of_lt_of_eq h N_0.symm⟩

/-- After a point with column block 3 the row block holds the distances from its 512 points to the second cloud. -/
theorem row_done (c : Dev nD) (t : Fin cfg0.N) (h : t.val % 4 = 3) (r : Fin 512) :
    (outsAt0 (F := Ideal) m c t.val t.isLt).1 (ix3 0 r 0)
      = Hausdorff.rowDist (m ((c : Thread nD τ).loc main_arg0)) (m ((c : Thread nD τ).loc main_arg1))
          (Hausdorff.bOf t.val) (Hausdorff.rowIx t.val r) := by
  have e := Hausdorff.row_sweep (sqTab m c) Ideal.sqrt (rowSeq m c)
    (fun n hn h4 r => by
      rw [rowSeq_at m c (pt n hn) r, row_at m c (pt n hn) r, if_pos h4])
    (fun n hn h4 h3 r => by
      rw [rowSeq_at m c (pt n hn) r, row_at m c (pt n hn) r, if_neg h4, if_neg h3,
        ← rowSeq_prev m c (pt n hn) (fun h0 => h4 (by rw [show n = 0 from h0])) r])
    (fun n hn h3 r => by
      rw [rowSeq_at m c (pt n hn) r, row_at m c (pt n hn) r, if_neg (show ¬ n % 4 = 0 by omega), if_pos h3,
        ← rowSeq_prev m c (pt n hn) (fun h0 => by rw [show n = 0 from h0] at h3; omega) r])
    t.val (t_lt t) h r
  rw [rowSeq_at m c t r] at e
  rw [e]
  rfl

/-- After a batch's last point the column block holds the distances from every point of the second cloud to the first. -/
theorem col_done (c : Dev nD) (t : Fin cfg0.N) (h : t.val % 64 = 63) (k : Fin 8192) :
    (outsAt0 (F := Ideal) m c t.val t.isLt).2 (ix3 0 0 k)
      = Hausdorff.colDist (m ((c : Thread nD τ).loc main_arg0)) (m ((c : Thread nD τ).loc main_arg1))
          (Hausdorff.bOf t.val) k := by
  have e := Hausdorff.col_sweep (sqTab m c) Ideal.sqrt (colSeq m c)
    (fun n hn h64 k => by
      rw [colSeq_at m c (pt n hn) k, col_at m c (pt n hn) k, if_pos h64])
    (fun n hn h64 h63 k => by
      rw [colSeq_at m c (pt n hn) k, col_at m c (pt n hn) k, if_neg h64, if_neg h63,
        ← colSeq_prev m c (pt n hn) (fun h0 => h64 (by rw [show n = 0 from h0])) k])
    (fun n hn h63 k => by
      rw [colSeq_at m c (pt n hn) k, col_at m c (pt n hn) k, if_neg (show ¬ n % 64 = 0 by omega), if_pos h63,
        ← colSeq_prev m c (pt n hn) (fun h0 => by rw [show n = 0 from h0] at h63; omega) k])
    t.val (t_lt t) h k
  rw [colSeq_at m c t k] at e
  rw [e]
  rfl

end Cert.KernelIdeal.HostSide

end
-- ==== Proof.KI.OutBlocks.lean ====
/-
  The two output windows' blocks as rectangles of their arrays, and the covers.

  The row output's block at grid point t is rows 512·i … 512·i + 511 of batch b (b = t / 64, i = t / 4 % 16); it is
  written back at the points with t % 4 = 3, and those blocks tile the [4, 8192, 1] array: index (b, n, 0) lies in the
  block of t = 64·b + 4·(n / 512) + 3.  The column output's block at t is all of batch b's [1, 8192] slab; it is
  written back at the points with t % 64 = 63, and (b, 0, k) lies in the block of t = 64·b + 63.
-/
import proofs.«154686_j9887014715551_2_alg».proof.Proof.Gen.KernelIdeal.Frame
import proofs.«154686_j9887014715551_2_alg».proof.Proof.Spec
import proofs.«154686_j9887014715551_2_alg».proof.Proof.Sweep
import proofs.«154686_j9887014715551_2_alg».proof.Proof.KI.Blocks
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HostSide

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

open Hausdorff (bOf rowIx colIx)

/-- The block indices of the row output's window over the grid: (t / 64, t / 4 % 16, 0). -/
theorem idx2 : ∀ t : Fin cfg0.N, win0_2.index t 0 = t.val / 64 ∧ win0_2.index t 1 = t.val / 4 % 16 ∧ win0_2.index t 2 = 0 :=
  (by decide +kernel : ∀ t : Fin grid0.N, win0_2.index t 0 = t.val / 64 ∧ win0_2.index t 1 = t.val / 4 % 16 ∧ win0_2.index t 2 = 0)

/-- The block indices of the column output's window: (t / 64, 0, 0). -/
theorem idx3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)

/-- Entry r of the row output's block at point t, read off an array G2, is G2 at (b, 512·i + r, 0). -/
theorem blk2_read (G2 : S4x8192x1.Idx → EReal) (t : Fin cfg0.N) (r : Fin 512) :
    (((cfg0.win 2).blk t).view.read (Elt Ideal) G2 : S1x512x1.Idx → EReal) (ix3 0 r 0)
      = G2 (ix3 (bOf t.val) (rowIx t.val r) 0) := by
  have hi := idx2 t
  have ht := t_lt t
  rw [View.read_apply]
  show G2 _ = _
  refine congrArg G2 (funext fun a => Fin.ext ?_)
  match a with
  | ⟨0, _⟩ => show win0_2.index t 0 * 1 + 1 * 0 = t.val / 64 % 4
              rw [hi.1]; omega
  | ⟨1, _⟩ => show win0_2.index t 1 * 512 + 1 * r.val = 512 * (t.val / 4 % 16) + r.val
              rw [hi.2.1]; omega
  | ⟨2, _⟩ => show win0_2.index t 2 * 1 + 1 * 0 = 0
              rw [hi.2.2]

/-- Entry k of the column output's block at point t, read off an array G3, is G3 at (b, 0, k). -/
theorem blk3_read (G3 : S4x1x8192.Idx → EReal) (t : Fin cfg0.N) (k : Fin 8192) :
    (((cfg0.win 3).blk t).view.read (Elt Ideal) G3 : S1x1x8192.Idx → EReal) (ix3 0 0 k)
      = G3 (ix3 (bOf t.val) 0 k) := by
  have hi := idx3 t
  have ht := t_lt t
  rw [View.read_apply]
  show G3 _ = _
  refine congrArg G3 (funext fun a => Fin.ext ?_)
  match a with
  | ⟨0, _⟩ => show win0_3.index t 0 * 1 + 1 * 0 = t.val / 64 % 4
              rw [hi.1]; omega
  | ⟨1, _⟩ => show win0_3.index t 1 * 1 + 1 * 0 = 0
              rw [hi.2.1]
  | ⟨2, _⟩ => show win0_3.index t 2 * 8192 + 1 * k.val = k.val
              rw [hi.2.2]; omega

/-- Every index of the row output lies in the block of a point with t % 4 = 3. -/
theorem cover2 (i : S4x8192x1.Idx) : ∃ t : Fin cfg0.N, t.val % 4 = 3 ∧ i ∈ ((cfg0.win 2).blk t).view.set := by
  have h0 : (i 0 : Nat) < 4 := (i 0).isLt
  have h1 : (i 1 : Nat) < 8192 := (i 1).isLt
  have h2 : (i 2 : Nat) < 1 := (i 2).isLt
  obtain ⟨t, ht⟩ : ∃ t : Fin cfg0.N, t.val = 64 * (i 0 : Nat) + 4 * ((i 1 : Nat) / 512) + 3 :=
    ⟨⟨64 * (i 0 : Nat) + 4 * ((i 1 : Nat) / 512) + 3, lt_of_lt_of_eq (b := 256) (by omega) N_0.symm⟩, rfl⟩
  have hi := idx2 t
  refine ⟨t, by omega, ?_⟩
  show i ∈ ((View.whole main_v1_0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [hi.1]; omega
  | ⟨1, _⟩ => show win0_2.index t 1 * 512 ≤ (i 1 : Nat) ∧ (i 1 : Nat) < win0_2.index t 1 * 512 + 512
              rw [hi.2.1]; omega
  | ⟨2, _⟩ => show win0_2.index t 2 * 1 ≤ (i 2 : Nat) ∧ (i 2 : Nat) < win0_2.index t 2 * 1 + 1
              rw [hi.2.2]; omega

/-- Every index of the column output lies in the block of a point with t % 64 = 63. -/
theorem cover3 (i : S4x1x8192.Idx) : ∃ t : Fin cfg0.N, t.val % 64 = 63 ∧ i ∈ ((cfg0.win 3).blk t).view.set := by
  have h0 : (i 0 : Nat) < 4 := (i 0).isLt
  have h1 : (i 1 : Nat) < 1 := (i 1).isLt
  have h2 : (i 2 : Nat) < 8192 := (i 2).isLt
  obtain ⟨t, ht⟩ : ∃ t : Fin cfg0.N, t.val = 64 * (i 0 : Nat) + 63 :=
    ⟨⟨64 * (i 0 : Nat) + 63, lt_of_lt_of_eq (b := 256) (by omega) N_0.symm⟩, rfl⟩
  have hi := idx3 t
  refine ⟨t, by omega, ?_⟩
  show i ∈ ((View.whole main_v1_1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1
              rw [hi.1]; omega
  | ⟨1, _⟩ => show win0_3.index t 1 * 1 ≤ (i 1 : Nat) ∧ (i 1 : Nat) < win0_3.index t 1 * 1 + 1
              rw [hi.2.1]; omega
  | ⟨2, _⟩ => show win0_3.index t 2 * 8192 ≤ (i 2 : Nat) ∧ (i 2 : Nat) < win0_3.index t 2 * 8192 + 8192
              rw [hi.2.2]; omega

/-- The same covers, with the covering point stated as one at which the window is written back. -/
theorem cover2_flush (i : S4x8192x1.Idx) :
    ∃ t : Fin cfg0.N, (cfg0.win 2).flush t = true ∧ i ∈ ((cfg0.win 2).blk t).view.set :=
  let ⟨t, h, hm⟩ := cover2 i
  ⟨t, (flush0_2 t).mpr h, hm⟩

theorem cover3_flush (i : S4x1x8192.Idx) :
    ∃ t : Fin cfg0.N, (cfg0.win 3).flush t = true ∧ i ∈ ((cfg0.win 3).blk t).view.set :=
  let ⟨t, h, hm⟩ := cover3 i
  ⟨t, (flush0_3 t).mpr h, hm⟩

end Cert.KernelIdeal.HostSide

end
-- ==== Proof.KI.Tail.lean ====
/-
  The host operations after the region, read off the region's two output arrays.

  The row output [4, 8192, 1] and the column output [4, 1, 8192] are each reshaped to [4, 8192]; each is reduced by
  maximum from -∞ over both axes; the two maxima are added.  A reshape that drops a unit axis keeps the row-major
  position: entry (b, n) of the reshaped row output is entry (b, n, 0), and of the reshaped column output entry
  (b, 0, n).
-/
import proofs.«154686_j9887014715551_2_alg».proof.Proof.Gen.KernelIdeal.Frame
import proofs.«154686_j9887014715551_2_alg».proof.Proof.Spec
import proofs.«154686_j9887014715551_2_alg».proof.Proof.Sweep
import Idealize.ShloMosaic.Lib.Pipeline.FrameSuffix
import Idealize.ShloMosaic.PureOps.Reduce
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.HostSide

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

open Idealize.ShloMosaic.Pipeline (Dat)

/-- The result after the host operations that follow the region: the sum of the two maxima over the region's output
    arrays as the region leaves them, whatever those arrays are. -/
theorem tail_v6 (dats : (p : Fin 1) → (c : Dev nD) → Dat τ (Elt Ideal) Unit ℕ (UR sig nD τ) ℕ (cfgs p) c) (c : Dev nD) :
    Pipeline.afterTail₀ cfgs dats 0 (V0 m) [hostOps1] c main_v6
      = addf
          (Host.reduce FloatOps.maximumf
            (shapeCast S4x8192 ((dats 0 c).arrAt 2 cfg0.N : S4x8192x1.Idx → EReal) shapeCasts_S4x8192x1_S4x8192)
            (constant (F := Ideal) S_ .f32 0xFF800000#32) reducesTo_S4x8192_S_d0_1 h_S_)
          (Host.reduce FloatOps.maximumf
            (shapeCast S4x8192 ((dats 0 c).arrAt 3 cfg0.N : S4x1x8192.Idx → EReal) shapeCasts_S4x1x8192_S4x8192)
            (constant (F := Ideal) S_ .f32 0xFF800000#32) reducesTo_S4x8192_S_d0_1 h_S_) := by
  unfold Pipeline.afterTail₀
  show StableHlo.after hostOps1 _ (Proc.devRef .tc main_v6) = _
  after_results
  rw [Pipeline.withArrays_arr spec0 launch0.win.arr_inj c _ _ 2, Pipeline.withArrays_arr spec0 launch0.win.arr_inj c _ _ 3]
  rfl

/-- The reshaped row output at (b, n) is the row output at (b, n, 0). -/
theorem reshape_row_apply (A : S4x8192x1.Idx → EReal) (b : Fin 4) (n : Fin 8192) :
    shapeCast S4x8192 A shapeCasts_S4x8192x1_S4x8192 (ix2 b n) = A (ix3 b n 0) :=
  shapeCast_apply A shapeCasts_S4x8192x1_S4x8192 (ix2 b n) (ix3 b n 0) (by
    rw [Shape.rowMajor_val_three, Shape.rowMajor_val_two]
    show (b.val * 8192 + n.val) * 1 + 0 = b.val * 8192 + n.val
    omega)

/-- The reshaped column output at (b, n) is the column output at (b, 0, n). -/
theorem reshape_col_apply (B : S4x1x8192.Idx → EReal) (b : Fin 4) (n : Fin 8192) :
    shapeCast S4x8192 B shapeCasts_S4x1x8192_S4x8192 (ix2 b n) = B (ix3 b 0 n) :=
  shapeCast_apply B shapeCasts_S4x1x8192_S4x8192 (ix2 b n) (ix3 b 0 n) (by
    rw [Shape.rowMajor_val_three, Shape.rowMajor_val_two]
    show (b.val * 1 + 0) * 8192 + n.val = b.val * 8192 + n.val
    omega)

end Cert.KernelIdeal.HostSide

end
-- ==== Proof.Total.lean ====
/-
  The last step both programs share: the greatest distance from a point of the first cloud to the second cloud plus the
  greatest distance from a point of the second cloud to the first. Each maximum runs over a whole [4, 8192] array,
  started from −∞, and the two are added. Stated once over two arbitrary [4, 8192] arrays and over no program.
-/
import proofs.«154686_j9887014715551_2_alg».proof.Proof.Spec
import Idealize.ShloMosaic.PureOps
import Idealize.ShloMosaic.PureOps.Ideal
import Idealize.ShloMosaic.PureOps.Reduce
import Idealize.ShloMosaic.Lib.StableHlo

noncomputable section

namespace Hausdorff

open Idealize.ShloMosaic Idealize.ShloMosaic.ValueIdx

/-- A [4, 8192] array reduced over both of its axes is a scalar. -/
theorem reducesTo_all : (⟨2, ![4, 8192]⟩ : Shape).ReducesTo [0, 1] (⟨0, ![]⟩ : Shape) := by decide

/-- A scalar has one element. -/
theorem numel_scalar : 0 < (⟨0, ![]⟩ : Shape).numel := by decide

/-- The greatest entry of `R` plus the greatest entry of `C`, each maximum started from −∞. -/
def total (R C : (⟨2, ![4, 8192]⟩ : Shape).Idx → EReal) : (⟨0, ![]⟩ : Shape).Idx → EReal :=
  addf (F := Ideal) (φ := .f32)
    (Host.reduce (FloatOps.maximumf (F := Ideal) (φ := .f32)) R
      (constant (F := Ideal) (⟨0, ![]⟩ : Shape) .f32 0xFF800000#32) reducesTo_all numel_scalar)
    (Host.reduce (FloatOps.maximumf (F := Ideal) (φ := .f32)) C
      (constant (F := Ideal) (⟨0, ![]⟩ : Shape) .f32 0xFF800000#32) reducesTo_all numel_scalar)

end Hausdorff

end
-- ==== Proof.KI.Final.lean ====
/-
  From the swept blocks to the program's result.

  At a point t with t % 4 = 3 the row block holds, at r, the distance from point 512·i + r of the first cloud to the
  second cloud (batch b = t / 64, row block i = t / 4 % 16); at a point with t % 64 = 63 the column block holds, at
  k, the distance from point k of the second cloud to the first.  These are exactly the points at which the blocks
  are written back, and the written blocks tile the two output arrays; so the row output ends at
  (b, n, 0) ↦ rowDist b n and the column output at (b, 0, k) ↦ colDist b k.  Reshaped to [4, 8192] they are the two
  distance arrays, and the three host operations that follow take their maxima and add them.
-/
import proofs.«154686_j9887014715551_2_alg».proof.Proof.KI.Frame
import proofs.«154686_j9887014715551_2_alg».proof.Proof.KI.OutBlocks
import proofs.«154686_j9887014715551_2_alg».proof.Proof.KI.Tail
import proofs.«154686_j9887014715551_2_alg».proof.Proof.Spec
import proofs.«154686_j9887014715551_2_alg».proof.Proof.Total
import proofs.«154686_j9887014715551_2_alg».proof.Proof.Sweep
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws
import Idealize.ShloMosaic.PureOps.Reduce

noncomputable section

namespace Cert.KernelIdeal.HostSide

open Cert.KernelIdeal Cert.KernelIdeal.Gen Idealize.ShloMosaic Idealize.ShloMosaic.ValueIdx Idealize.ShloMosaic.TcCoe Idealize.SL.Sem
open Idealize.ShloMosaic.Pipeline (Dat)
open Hausdorff (bOf rowIx colIx)

variable (m : (ℓ : Loc nD τ sig) → Buf (Elt Ideal) ℓ) (ρ : Dev nD → PrngReg)

/-- The first cloud and the second cloud, as launched on core c. -/
abbrev P (c : Dev nD) : Hausdorff.Cloud := m ((c : Thread nD τ).loc main_arg0)
abbrev Q (c : Dev nD) : Hausdorff.Cloud := m ((c : Thread nD τ).loc main_arg1)

/-- The row output as it ends: (b, n, 0) ↦ the distance from point n of the first cloud to the second cloud. -/
def G2 (c : Dev nD) : S4x8192x1.Idx → EReal := fun i => Hausdorff.rowDist (P m c) (Q m c) (i 0) (i 1)
/-- The column output as it ends: (b, 0, k) ↦ the distance from point k of the second cloud to the first cloud. -/
def G3 (c : Dev nD) : S4x1x8192.Idx → EReal := fun i => Hausdorff.colDist (P m c) (Q m c) (i 0) (i 2)

/-! ### Index types with unit axes -/

theorem idx_1x512x1 (j : S1x512x1.Idx) : j = ix3 0 (j 1) 0 := by
  funext a
  match a with
  | ⟨0, _⟩ => exact Fin.ext (by have h : (j 0 : Nat) < 1 := (j 0).isLt; show (j 0 : Nat) = 0; omega)
  | ⟨1, _⟩ => rfl
  | ⟨2, _⟩ => exact Fin.ext (by have h : (j 2 : Nat) < 1 := (j 2).isLt; show (j 2 : Nat) = 0; omega)

theorem idx_1x1x8192 (j : S1x1x8192.Idx) : j = ix3 0 0 (j 2) := by
  funext a
  match a with
  | ⟨0, _⟩ => exact Fin.ext (by have h : (j 0 : Nat) < 1 := (j 0).isLt; show (j 0 : Nat) = 0; omega)
  | ⟨1, _⟩ => exact Fin.ext (by have h : (j 1 : Nat) < 1 := (j 1).isLt; show (j 1 : Nat) = 0; omega)
  | ⟨2, _⟩ => rfl

/-- Two row blocks are equal when they agree at every (0, r, 0). -/
theorem ext_1x512x1 {f g : S1x512x1.Idx → EReal} (h : ∀ r : Fin 512, f (ix3 0 r 0) = g (ix3 0 r 0)) : f = g :=
  funext fun j => by rw [idx_1x512x1 j]; exact h _

/-- Two column blocks are equal when they agree at every (0, 0, k). -/
theorem ext_1x1x8192 {f g : S1x1x8192.Idx → EReal} (h : ∀ k : Fin 8192, f (ix3 0 0 k) = g (ix3 0 0 k)) : f = g :=
  funext fun j => by rw [idx_1x1x8192 j]; exact h _

/-! ### What is written back -/

/-- The row block written back at a point with t % 4 = 3 is the point's rectangle of the final row output. -/
theorem flushed2
    (hrow : ∀ (c : Dev nD) (t : Fin cfg0.N), t.val % 4 = 3 → ∀ r : Fin 512,
      (outsAt0 (F := Ideal) m c t.val t.isLt).1 (ix3 0 r 0)
        = Hausdorff.rowDist (m ((c : Thread nD τ).loc main_arg0)) (m ((c : Thread nD τ).loc main_arg1)) (Hausdorff.bOf t.val) (Hausdorff.rowIx t.val r))
    (c : Dev nD) (t : Fin cfg0.N) (hf : (cfg0.win 2).flush t = true) :
    (dats m 0 c).flushed 2 t = ((cfg0.win 2).blk t).view.read (Elt Ideal) (G2 m c) := by
  have h3 : t.val % 4 = 3 := (flush0_2 t).mp hf
  show (cfg0.win 2).cut (grid0.coords t) ((dats m 0 c).after 2 t) = _
  rw [after0_2]
  refine ext_1x512x1 fun r => ?_
  show (outsAt0 (F := Ideal) m c t.val t.isLt).1 (ix3 0 r 0) = _
  rw [hrow c t h3 r]
  exact (blk2_read (G2 m c) t r).symm

/-- The column block written back at a point with t % 64 = 63 is the point's rectangle of the final column output. -/
theorem flushed3
    (hcol : ∀ (c : Dev nD) (t : Fin cfg0.N), t.val % 64 = 63 → ∀ k : Fin 8192,
      (outsAt0 (F := Ideal) m c t.val t.isLt).2 (ix3 0 0 k)
        = Hausdorff.colDist (m ((c : Thread nD τ).loc main_arg0)) (m ((c : Thread nD τ).loc main_arg1)) (Hausdorff.bOf t.val) k)
    (c : Dev nD) (t : Fin cfg0.N) (hf : (cfg0.win 3).flush t = true) :
    (dats m 0 c).flushed 3 t = ((cfg0.win 3).blk t).view.read (Elt Ideal) (G3 m c) := by
  have h3 : t.val % 64 = 63 := (flush0_3 t).mp hf
  show (cfg0.win 3).cut (grid0.coords t) ((dats m 0 c).after 3 t) = _
  rw [after0_3]
  refine ext_1x1x8192 fun k => ?_
  show (outsAt0 (F := Ideal) m c t.val t.isLt).2 (ix3 0 0 k) = _
  rw [hcol c t h3 k]
  exact (blk3_read (G3 m c) t k).symm

/-! ### The two output arrays after the region -/

/-- The written row blocks tile the row output: it ends at (b, n, 0) ↦ rowDist b n. -/
theorem final2
    (hrow : ∀ (c : Dev nD) (t : Fin cfg0.N), t.val % 4 = 3 → ∀ r : Fin 512,
      (outsAt0 (F := Ideal) m c t.val t.isLt).1 (ix3 0 r 0)
        = Hausdorff.rowDist (m ((c : Thread nD τ).loc main_arg0)) (m ((c : Thread nD τ).loc main_arg1)) (Hausdorff.bOf t.val) (Hausdorff.rowIx t.val r))
    (c : Dev nD) : (dats m 0 c).arrAt 2 cfg0.N = G2 m c :=
  (dats m 0 c).arrAt_eq_of_cover 2 (G2 m c) (fun t hf => flushed2 m hrow c t hf) cover2_flush

/-- The written column blocks tile the column output: it ends at (b, 0, k) ↦ colDist b k. -/
theorem final3
    (hcol : ∀ (c : Dev nD) (t : Fin cfg0.N), t.val % 64 = 63 → ∀ k : Fin 8192,
      (outsAt0 (F := Ideal) m c t.val t.isLt).2 (ix3 0 0 k)
        = Hausdorff.colDist (m ((c : Thread nD τ).loc main_arg0)) (m ((c : Thread nD τ).loc main_arg1)) (Hausdorff.bOf t.val) k)
    (c : Dev nD) : (dats m 0 c).arrAt 3 cfg0.N = G3 m c :=
  (dats m 0 c).arrAt_eq_of_cover 3 (G3 m c) (fun t hf => flushed3 m hcol c t hf) cover3_flush

/-! ### Reshaped, they are the two distance arrays -/

theorem reshape_G2 (c : Dev nD) :
    shapeCast S4x8192 (G2 m c) shapeCasts_S4x8192x1_S4x8192 = Hausdorff.rowArr (P m c) (Q m c) := by
  funext j
  obtain ⟨b, n, rfl⟩ : ∃ (b : Fin 4) (n : Fin 8192), j = ix2 b n := ⟨j 0, j 1, eq_ix2 j⟩
  exact reshape_row_apply (G2 m c) b n

theorem reshape_G3 (c : Dev nD) :
    shapeCast S4x8192 (G3 m c) shapeCasts_S4x1x8192_S4x8192 = Hausdorff.colArr (P m c) (Q m c) := by
  funext j
  obtain ⟨b, n, rfl⟩ : ∃ (b : Fin 4) (n : Fin 8192), j = ix2 b n := ⟨j 0, j 1, eq_ix2 j⟩
  exact reshape_col_apply (G3 m c) b n

/-! ### The program's result -/

/-- The result buffer after the host operations that follow the region: the greatest row distance plus the greatest
    column distance. -/
theorem kernel_total
    (hrow : ∀ (c : Dev nD) (t : Fin cfg0.N), t.val % 4 = 3 → ∀ r : Fin 512,
      (outsAt0 (F := Ideal) m c t.val t.isLt).1 (ix3 0 r 0)
        = Hausdorff.rowDist (m ((c : Thread nD τ).loc main_arg0)) (m ((c : Thread nD τ).loc main_arg1)) (Hausdorff.bOf t.val) (Hausdorff.rowIx t.val r))
    (hcol : ∀ (c : Dev nD) (t : Fin cfg0.N), t.val % 64 = 63 → ∀ k : Fin 8192,
      (outsAt0 (F := Ideal) m c t.val t.isLt).2 (ix3 0 0 k)
        = Hausdorff.colDist (m ((c : Thread nD τ).loc main_arg0)) (m ((c : Thread nD τ).loc main_arg1)) (Hausdorff.bOf t.val) k)
    (c : Dev nD) :
    Pipeline.afterTail₀ cfgs (dats m) 0 (V0 m) [hostOps1] c main_v6
      = Hausdorff.total (Hausdorff.rowArr (P m c) (Q m c)) (Hausdorff.colArr (P m c) (Q m c)) := by
  rw [tail_v6 m (dats m) c, final2 m hrow c, final3 m hcol c, reshape_G2 m c, reshape_G3 m c]
  rfl

/-- The run, read: the result buffer at the Hausdorff sum of the two launched clouds, both clouds unchanged. -/
theorem kernel_run
    (hrow : ∀ (c : Dev nD) (t : Fin cfg0.N), t.val % 4 = 3 → ∀ r : Fin 512,
      (outsAt0 (F := Ideal) m c t.val t.isLt).1 (ix3 0 r 0)
        = Hausdorff.rowDist (m ((c : Thread nD τ).loc main_arg0)) (m ((c : Thread nD τ).loc main_arg1)) (Hausdorff.bOf t.val) (Hausdorff.rowIx t.val r))
    (hcol : ∀ (c : Dev nD) (t : Fin cfg0.N), t.val % 64 = 63 → ∀ k : Fin 8192,
      (outsAt0 (F := Ideal) m c t.val t.isLt).2 (ix3 0 0 k)
        = Hausdorff.colDist (m ((c : Thread nD τ).loc main_arg0)) (m ((c : Thread nD τ).loc main_arg1)) (Hausdorff.bOf t.val) k) :
    θ_run defs (onTc (τ := τ) (main (F := Ideal))) ⟨m, fun _ => 0, ρ⟩ (fun r => ∀ c : Dev nD,
      r.2.mem ((c.tc : Thread nD τ).loc main_v6)
          = Hausdorff.total (Hausdorff.rowArr (P m c) (Q m c)) (Hausdorff.colArr (P m c) (Q m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (kernel_total m hrow hcol c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.HostSide

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  From the precondition to real numbers. The precondition of both programs is the test "every entry of each cloud has
  absolute value below +∞", a conjunction of two conjunctions over all entries. When it holds, every entry of each cloud
  is a real number: an extended real whose absolute value max x (−x) is below ⊤ is neither ⊤ nor ⊥.
-/
import proofs.«154686_j9887014715551_2_alg».proof.Pre_finite_inputs
import proofs.«154686_j9887014715551_2_alg».proof.Proof.LibEReal
import Idealize.ShloMosaic.Lib.ReduceAll
import Idealize.ShloMosaic.Lib.ValueIdx
import Idealize.ShloMosaic.Lib.IdealHost
import Idealize.ShloMosaic.Lib.Pipeline.Value
import Idealize.ShloMosaic.PureOps.Ideal.Laws

noncomputable section

namespace Hausdorff

open Idealize.ShloMosaic Idealize.SL.Sem Idealize.ShloMosaic.StableHlo

/-- A rank-0 array has one index. -/
instance subsingleton_scalarIdx : Subsingleton Cert.Pre_finite_inputs.S_.Idx := ⟨fun a b => funext fun d => d.elim0⟩

/-- One conjunct of the test, read at an entry: if "|x| < +∞ everywhere" came out true, the entry is a real number. -/
theorem real_of_all_abs_lt [Cert.Pre_finite_inputs.Facts]
    (x : (⟨Cert.Pre_finite_inputs.S4x8192x3, .f32⟩ : BufTy).Contents (Elt Ideal))
    (hb : Cert.Pre_finite_inputs.S_.BroadcastsInDim Cert.Pre_finite_inputs.S4x8192x3 (![] : Fin 0 → Fin Cert.Pre_finite_inputs.S4x8192x3.rank))
    (hr : Cert.Pre_finite_inputs.S4x8192x3.ReducesTo [0, 1, 2] Cert.Pre_finite_inputs.S_)
    (hu : 0 < Cert.Pre_finite_inputs.S_.numel)
    (h : Host.reduce IntOp.andi
          (cmpf CmpFPredicate.olt (Host.absf x)
            (broadcastInDim Cert.Pre_finite_inputs.S4x8192x3 ![] hb
              (constant (F := Ideal) Cert.Pre_finite_inputs.S_ FTy.f32 0x7F800000#32)))
          (constantI Cert.Pre_finite_inputs.S_ 1 1#1) hr hu ValueIdx.ix0 = 1#1)
    (i : Cert.Pre_finite_inputs.S4x8192x3.Idx) : ∃ r : ℝ, x i = (r : EReal) := by
  have e := Host.reduce_andi_all _ _ hr hu ValueIdx.ix0 h i
  have e' : Ideal.cmp .olt (max (x i) (-(x i))) (Ideal.ofBits .f32 0x7F800000#32) = 1#1 := by
    rw [← e]
    show _ = Ideal.cmp .olt (max (x i) (-(x i))) (broadcastInDim Cert.Pre_finite_inputs.S4x8192x3 ![] hb
              (constant (F := Ideal) Cert.Pre_finite_inputs.S_ FTy.f32 0x7F800000#32) i)
    rw [ValueIdx.broadcastInDim_scalar_apply]
    rfl
  exact Cert.LibEReal.real_of_abs_lt_top (x i) (Cert.LibEReal.lt_top_of_cmp _ e')

/-- The precondition "both clouds are finite" makes every entry of both clouds a real number. -/
theorem real_of_pre [Cert.Pre_finite_inputs.Facts]
    (x0 x1 : (⟨Cert.Pre_finite_inputs.S4x8192x3, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_all_abs_lt x0 _ _ _ ha i, fun i => real_of_all_abs_lt x1 _ _ _ hb i⟩

end Hausdorff

end
-- ==== Proof.RealLaws.lean ====
/-
  Real-number laws behind the two programs' agreement: the squared distance of two points of ℝ³ written coordinate by
  coordinate is the sum of the squared norms less twice the inner product; it is nonnegative; the square root is monotone,
  so it commutes with a minimum over a finite family (the minimum of the empty family is ⊤, whose root is ⊤).

  Everything here is about real and extended-real numbers; no program appears.
-/
import proofs.«154686_j9887014715551_2_alg».proof.Proof.Spec
import Mathlib.Tactic.Ring
import Mathlib.Tactic.Linarith
import Mathlib.Data.Finset.Lattice.Fold
import Mathlib.Algebra.BigOperators.Fin

noncomputable section

namespace Hausdorff

open Idealize.ShloMosaic Idealize.ShloMosaic.ValueIdx

/-! ## In the reals -/

/-- The squared distance of two points of ℝ³, added coordinate by coordinate from zero. -/
def sqR (a b : Fin 3 → ℝ) : ℝ :=
  ((0 + (a 0 - b 0) * (a 0 - b 0)) + (a 1 - b 1) * (a 1 - b 1)) + (a 2 - b 2) * (a 2 - b 2)

/-- ‖a − b‖² = (‖a‖² + ‖b‖²) − 2⟨a, b⟩, each sum started from zero. -/
theorem sqR_expand (a b : Fin 3 → ℝ) :
    sqR a b = ((0 + ∑ k : Fin 3, a k * a k) + (0 + ∑ k : Fin 3, b k * b k)) - 2 * ∑ k : Fin 3, a k * b k := by
  unfold sqR
  simp only [Fin.sum_univ_three]
  ring

/-- A sum of three squares is nonnegative. -/
theorem sqR_nonneg (a b : Fin 3 → ℝ) : 0 ≤ sqR a b := by
  unfold sqR
  have h0 := mul_self_nonneg (a 0 - b 0)
  have h1 := mul_self_nonneg (a 1 - b 1)
  have h2 := mul_self_nonneg (a 2 - b 2)
  linarith

/-! ## The same in the extended reals, on real arguments -/

/-- The coercion of a sum over three indices is the sum of the coercions. -/
theorem coe_sum_fin3 (f : Fin 3 → ℝ) : ((∑ k : Fin 3, f k : ℝ) : EReal) = ∑ k : Fin 3, (f k : EReal) := by
  simp only [Fin.sum_univ_three, EReal.coe_add]

/-- Coordinate by coordinate, in the extended reals, on real points: the real squared distance. -/
theorem coe_sqR (a b : Fin 3 → ℝ) :
    (((0 : EReal) + ((a 0 : EReal) - (b 0 : EReal)) * ((a 0 : EReal) - (b 0 : EReal)))
        + ((a 1 : EReal) - (b 1 : EReal)) * ((a 1 : EReal) - (b 1 : EReal)))
        + ((a 2 : EReal) - (b 2 : EReal)) * ((a 2 : EReal) - (b 2 : EReal))
      = ((sqR a b : ℝ) : EReal) := by
  unfold sqR
  simp only [EReal.coe_add, EReal.coe_mul, EReal.coe_sub, EReal.coe_zero]

/-- Norms less twice the inner product, clamped at zero, in the extended reals, on real points: the same real number. -/
theorem coe_expand (a b : Fin 3 → ℝ) :
    max ((((0 : EReal) + ∑ k : Fin 3, (a k : EReal) * (a k : EReal)) + ((0 : EReal) + ∑ k : Fin 3, (b k : EReal) * (b k : EReal)))
          - (2 : EReal) * ∑ k : Fin 3, (a k : EReal) * (b k : EReal)) 0
      = ((sqR a b : ℝ) : EReal) := by
  have h2 : (2 : EReal) = ((2 : ℝ) : EReal) := rfl
  have e : (((0 : EReal) + ∑ k : Fin 3, (a k : EReal) * (a k : EReal)) + ((0 : EReal) + ∑ k : Fin 3, (b k : EReal) * (b k : EReal)))
          - (2 : EReal) * ∑ k : Fin 3, (a k : EReal) * (b k : EReal) = ((sqR a b : ℝ) : EReal) := by
    rw [sqR_expand, h2]
    simp only [EReal.coe_add, EReal.coe_mul, EReal.coe_sub, EReal.coe_zero, coe_sum_fin3]
  rw [e]
  exact max_eq_left (EReal.coe_nonneg.2 (sqR_nonneg a b))

/-! ## On clouds -/

/-- For real-valued clouds the squared distance of the specification is the form "norms less twice the inner product,
    clamped at zero". -/
theorem expand_eq_sqd (P Q : Cloud) (hP : ∀ i, ∃ r : ℝ, P i = (r : EReal)) (hQ : ∀ i, ∃ r : ℝ, Q i = (r : EReal))
    (b : Fin 4) (n m : Fin 8192) :
    max ((((0 : EReal) + ∑ k : Fin 3, P (ix3 b n k) * P (ix3 b n k)) + ((0 : EReal) + ∑ k : Fin 3, Q (ix3 b m k) * Q (ix3 b m k)))
          - (2 : EReal) * ∑ k : Fin 3, P (ix3 b n k) * Q (ix3 b m k)) 0
      = sqd P Q b n m := by
  choose p hp using fun k : Fin 3 => hP (ix3 b n k)
  choose q hq using fun k : Fin 3 => hQ (ix3 b m k)
  unfold sqd dsq
  simp only [hp, hq]
  rw [coe_expand p q, coe_sqR p q]

/-- For real-valued clouds the squared distance is a nonnegative real number. -/
theorem sqd_real (P Q : Cloud) (hP : ∀ i, ∃ r : ℝ, P i = (r : EReal)) (hQ : ∀ i, ∃ r : ℝ, Q i = (r : EReal))
    (b : Fin 4) (n m : Fin 8192) : ∃ r : ℝ, 0 ≤ r ∧ sqd P Q b n m = (r : EReal) := by
  choose p hp using fun k : Fin 3 => hP (ix3 b n k)
  choose q hq using fun k : Fin 3 => hQ (ix3 b m k)
  refine ⟨sqR p q, sqR_nonneg p q, ?_⟩
  unfold sqd dsq
  simp only [hp, hq]
  exact coe_sqR p q

/-! ## The square root and the minimum -/

/-- The square root of the extended reals (⊥ below zero, the real root from zero on, ⊤ at ⊤) is monotone. -/
theorem sqrt_mono : Monotone Ideal.sqrt := by
  intro x y h
  induction x using EReal.rec with
  | bot => rw [Ideal.sqrt_bot]; exact bot_le
  | top =>
    have hy : y = ⊤ := top_le_iff.1 h
    rw [hy]
  | coe r =>
    induction y using EReal.rec with
    | bot => exact absurd h (by simp)
    | top => rw [Ideal.sqrt_top]; exact le_top
    | coe s =>
      have hrs : r ≤ s := EReal.coe_le_coe_iff.1 h
      rw [Ideal.sqrt_coe, Ideal.sqrt_coe]
      by_cases hr : r < 0
      · rw [if_pos hr]; exact bot_le
      · have hs : ¬ s < 0 := fun hs => hr (lt_of_le_of_lt hrs hs)
        rw [if_neg hr, if_neg hs]
        exact EReal.coe_le_coe_iff.2 (Real.sqrt_le_sqrt hrs)

/-- The square root of a minimum over a finite family is the minimum of the square roots. -/
theorem sqrt_inf {ι : Type} (s : Finset ι) (f : ι → EReal) :
    Ideal.sqrt (s.inf f) = s.inf fun i => Ideal.sqrt (f i) :=
  Finset.apply_inf_eq_inf_comp_of_linearOrder Ideal.sqrt sqrt_mono Ideal.sqrt_top

end Hausdorff

end
-- ==== Proof.RefDist.lean ====
/-
  The reference's two [4, 8192] arrays are the specification's two arrays of distances.

  The reference forms, for points p = x0[b, n] and q = x1[b, m] of ℝ³, the number
  max ((‖p‖² + ‖q‖²) − 2⟨p, q⟩) 0, each of the three sums started from zero, takes its square root, and then the minimum
  over m (first array) or over n (second array), each minimum started from +∞. For real-valued clouds the clamped number
  is the squared distance added coordinate by coordinate, and since the square root is monotone and fixes ⊤, the
  minimum of the roots is the root of the minimum: the specification's form.

  Each operation is read at an index built from explicit coordinates (b, n, m); the index maps of the generated
  one-operation-at-a-time module are identified with those indices coordinate by coordinate.
-/
import proofs.«154686_j9887014715551_2_alg».proof.Proof.Gen.ReferenceIdeal.Read
import proofs.«154686_j9887014715551_2_alg».proof.Proof.RealLaws
import Idealize.ShloMosaic.PureOps.Reduce
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.SL.Sem Idealize.ShloMosaic.StableHlo

/-- The f32 pattern 0x40000000 is the extended real two. -/
theorem two_pattern : Ideal.ofBits .f32 0x40000000#32 = (2 : EReal) := by
  rw [show (2 : EReal) = ((2 : ℝ) : EReal) by norm_cast]
  simp [Ideal.ofBits, Ideal.ieee, -EReal.coe_mul]; norm_num

/-- ‖x0[b,n]‖² as the reference's first sum reads it. -/
theorem v1_apply (x0 : (⟨S4x8192x3, .f32⟩ : BufTy).Contents (Elt Ideal)) (b : Fin 4) (n : Fin 8192) :
    val_main_v1 (F := Ideal) x0 (ix2 b n) = (0 : EReal) + ∑ k : Fin 3, x0 (ix3 b n k) * x0 (ix3 b n k) := by
  rw [val_main_v1_apply, val_main_cst_apply, Ideal.ofBits_def, Ideal.ofBits_zero_f32]
  refine congrArg (_ + ·) (Finset.sum_congr rfl fun k _ => ?_)
  rw [val_main_v0_apply, Ideal.mulf_def]
  have e : idx_main_v1 (ix2 b n) k = ix3 b n k :=
    funext fun a => Fin.ext (by match a with | ⟨0, _⟩ => rfl | ⟨1, _⟩ => rfl | ⟨2, _⟩ => rfl)
  rw [e]

/-- ‖x1[b,m]‖² as the reference's second sum reads it. -/
theorem v3_apply (x1 : (⟨S4x8192x3, .f32⟩ : BufTy).Contents (Elt Ideal)) (b : Fin 4) (m : Fin 8192) :
    val_main_v3 (F := Ideal) x1 (ix2 b m) = (0 : EReal) + ∑ k : Fin 3, x1 (ix3 b m k) * x1 (ix3 b m k) := by
  rw [val_main_v3_apply, val_main_cst_0_apply, Ideal.ofBits_def, Ideal.ofBits_zero_f32]
  refine congrArg (_ + ·) (Finset.sum_congr rfl fun k _ => ?_)
  rw [val_main_v2_apply, Ideal.mulf_def]
  have e : idx_main_v3 (ix2 b m) k = ix3 b m k :=
    funext fun a => Fin.ext (by match a with | ⟨0, _⟩ => rfl | ⟨1, _⟩ => rfl | ⟨2, _⟩ => rfl)
  rw [e]

/-- ⟨x0[b,n], x1[b,m]⟩ as the reference's product reads it. -/
theorem v4_apply (x0 x1 : (⟨S4x8192x3, .f32⟩ : BufTy).Contents (Elt Ideal)) (b : Fin 4) (n m : Fin 8192) :
    val_main_v4 (F := Ideal) x0 x1 (ix3 b n m) = ∑ k : Fin 3, x0 (ix3 b n k) * x1 (ix3 b m k) := by
  rw [val_main_v4_apply]
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The first norm broadcast along the second cloud. -/
theorem v7_apply (x0 : (⟨S4x8192x3, .f32⟩ : BufTy).Contents (Elt Ideal)) (b : Fin 4) (n m : Fin 8192) :
    val_main_v7 (F := Ideal) x0 (ix3 b n m) = val_main_v1 (F := Ideal) x0 (ix2 b n) := by
  rw [val_main_v7_apply, val_main_v5_apply]
  exact congrArg _ (funext fun a => Fin.ext (by match a with | ⟨0, _⟩ => rfl | ⟨1, _⟩ => rfl))

/-- The second norm broadcast along the first cloud. -/
theorem v8_apply (x1 : (⟨S4x8192x3, .f32⟩ : BufTy).Contents (Elt Ideal)) (b : Fin 4) (n m : Fin 8192) :
    val_main_v8 (F := Ideal) x1 (ix3 b n m) = val_main_v3 (F := Ideal) x1 (ix2 b m) := by
  rw [val_main_v8_apply, val_main_v6_apply]
  exact congrArg _ (funext fun a => Fin.ext (by match a with | ⟨0, _⟩ => rfl | ⟨1, _⟩ => rfl))

/-- The clamped squared distance of the reference at (b, n, m). -/
theorem v14_apply (x0 x1 : (⟨S4x8192x3, .f32⟩ : BufTy).Contents (Elt Ideal)) (b : Fin 4) (n m : Fin 8192) :
    val_main_v14 (F := Ideal) x0 x1 (ix3 b n m)
      = max ((((0 : EReal) + ∑ k : Fin 3, x0 (ix3 b n k) * x0 (ix3 b n k)) + ((0 : EReal) + ∑ k : Fin 3, x1 (ix3 b m k) * x1 (ix3 b m k)))
          - (2 : EReal) * ∑ k : Fin 3, x0 (ix3 b n k) * x1 (ix3 b m k)) 0 := by
  rw [val_main_v14_apply, val_main_v12_apply, val_main_v13_apply, val_main_cst_2_apply, val_main_v9_apply, val_main_v11_apply,
    val_main_v10_apply, val_main_cst_1_apply, v7_apply, v8_apply, v4_apply, v1_apply, v3_apply]
  simp only [Ideal.ofBits_def, Ideal.ofBits_zero_f32, two_pattern, Ideal.maximumf_def, Ideal.subf_def, Ideal.addf_def, Ideal.mulf_def]

/-! ## The two minima -/

/-- The f32 pattern of +∞ is ⊤. -/
theorem inf_pattern : Ideal.ofBits .f32 0x7F800000#32 = (⊤ : EReal) := by simp [Ideal.ofBits, Ideal.ieee]

/-- (b, n) with coordinate k put back on the last axis is (b, n, k). -/
theorem lift_last (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  fin_cases c <;> rfl

/-- (b, m) with coordinate k put back on the middle axis is (b, k, m). -/
theorem lift_mid (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  fin_cases c <;> rfl

/-- The reference's minimum over the second cloud, at (b, n): the least distance over m. -/
theorem v16_apply (x0 x1 : (⟨S4x8192x3, .f32⟩ : BufTy).Contents (Elt Ideal)) (b : Fin 4) (n : Fin 8192) :
    val_main_v16 (F := Ideal) x0 x1 (ix2 b n)
      = Finset.univ.inf fun m : Fin 8192 => val_main_v15 (F := Ideal) x0 x1 (ix3 b n m) := by
  have h : S4x8192x8192.Reduces [2] S4x8192 := by decide
  unfold val_main_v16
  rw [Host.reduce_eq_fold_single (FloatOps.minimumf (F := Ideal) (φ := .f32)) _ _ reducesTo_S4x8192x8192_S4x8192_d2 h h_S_,
    val_main_cst_3_apply, Ideal.ofBits_def, inf_pattern]
  have hf : (val_main_v15 (F := Ideal) x0 x1 ∘ h.lift (ix2 b n))
      = fun m : Fin 8192 => val_main_v15 (F := Ideal) x0 x1 (ix3 b n m) :=
    funext fun k => congrArg (val_main_v15 (F := Ideal) x0 x1) (lift_last h b n k)
  rw [hf]
  rfl

/-- The reference's minimum over the first cloud, at (b, m): the least distance over n. -/
theorem v18_apply (x0 x1 : (⟨S4x8192x3, .f32⟩ : BufTy).Contents (Elt Ideal)) (b : Fin 4) (m : Fin 8192) :
    val_main_v18 (F := Ideal) x0 x1 (ix2 b m)
      = Finset.univ.inf fun n : Fin 8192 => val_main_v15 (F := Ideal) x0 x1 (ix3 b n m) := by
  have h : S4x8192x8192.Reduces [1] S4x8192 := by decide
  unfold val_main_v18
  rw [Host.reduce_eq_fold_single (FloatOps.minimumf (F := Ideal) (φ := .f32)) _ _ reducesTo_S4x8192x8192_S4x8192_d1 h h_S_,
    val_main_cst_5_apply, Ideal.ofBits_def, inf_pattern]
  have hf : (val_main_v15 (F := Ideal) x0 x1 ∘ h.lift (ix2 b m))
      = fun n : Fin 8192 => val_main_v15 (F := Ideal) x0 x1 (ix3 b n m) :=
    funext fun k => congrArg (val_main_v15 (F := Ideal) x0 x1) (lift_mid h b m k)
  rw [hf]
  rfl

/-- For real-valued clouds, the reference's distance at (b, n, m) is the root of the specification's squared distance. -/
theorem v15_apply (x0 x1 : (⟨S4x8192x3, .f32⟩ : BufTy).Contents (Elt Ideal))
    (h0 : ∀ i, ∃ r : ℝ, x0 i = (r : EReal)) (h1 : ∀ i, ∃ r : ℝ, x1 i = (r : EReal)) (b : Fin 4) (n m : Fin 8192) :
    val_main_v15 (F := Ideal) x0 x1 (ix3 b n m) = Ideal.sqrt (Hausdorff.sqd x0 x1 b n m) := by
  rw [val_main_v15_apply, Ideal.hostUnary_sqrt_def, v14_apply, Hausdorff.expand_eq_sqd x0 x1 h0 h1]

/-! ## The two stages are the specification -/

/-- The reference's first [4, 8192] array is the distance from each point of the first cloud to the second cloud. -/
theorem ref_row (x0 x1 : (⟨S4x8192x3, .f32⟩ : BufTy).Contents (Elt Ideal))
    (h0 : ∀ i, ∃ r : ℝ, x0 i = (r : EReal)) (h1 : ∀ i, ∃ r : ℝ, x1 i = (r : EReal)) :
    val_main_v16 (F := Ideal) x0 x1 = Hausdorff.rowArr x0 x1 := by
  funext j
  obtain ⟨b, n, rfl⟩ : ∃ (b : Fin 4) (n : Fin 8192), j = ix2 b n := ⟨j 0, j 1, eq_ix2 j⟩
  rw [v16_apply]
  show _ = Hausdorff.rowDist x0 x1 b n
  unfold Hausdorff.rowDist
  rw [Hausdorff.sqrt_inf]
  exact congrArg Finset.univ.inf (funext fun m => v15_apply x0 x1 h0 h1 b n m)

/-- The reference's second [4, 8192] array is the distance from each point of the second cloud to the first cloud. -/
theorem ref_col (x0 x1 : (⟨S4x8192x3, .f32⟩ : BufTy).Contents (Elt Ideal))
    (h0 : ∀ i, ∃ r : ℝ, x0 i = (r : EReal)) (h1 : ∀ i, ∃ r : ℝ, x1 i = (r : EReal)) :
    val_main_v18 (F := Ideal) x0 x1 = Hausdorff.colArr x0 x1 := by
  funext j
  obtain ⟨b, m, rfl⟩ : ∃ (b : Fin 4) (m : Fin 8192), j = ix2 b m := ⟨j 0, j 1, eq_ix2 j⟩
  rw [v18_apply]
  show _ = Hausdorff.colDist x0 x1 b m
  unfold Hausdorff.colDist
  rw [Hausdorff.sqrt_inf]
  exact congrArg Finset.univ.inf (funext fun n => v15_apply x0 x1 h0 h1 b n m)

end Cert.ReferenceIdeal.RefValue

end
-- ==== Proof.RefTotal.lean ====
/-
  The reference's result through the shared last step: its final scalar is the greatest row distance plus the greatest
  column distance of the specification, for real-valued clouds; and every execution of the reference program ends with
  that scalar in its result and its two arguments unchanged.
-/
import proofs.«154686_j9887014715551_2_alg».proof.Proof.RefDist
import proofs.«154686_j9887014715551_2_alg».proof.Proof.Total
import proofs.«154686_j9887014715551_2_alg».proof.Proof.Gen.ReferenceIdeal.Run

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The reference's final scalar is the shared last step applied to the specification's two arrays. -/
theorem ref_total (x0 x1 : (⟨S4x8192x3, .f32⟩ : BufTy).Contents (Elt Ideal))
    (h0 : ∀ i, ∃ r : ℝ, x0 i = (r : EReal)) (h1 : ∀ i, ∃ r : ℝ, x1 i = (r : EReal)) :
    val_main_v20 (F := Ideal) x0 x1 = Hausdorff.total (Hausdorff.rowArr x0 x1) (Hausdorff.colArr x0 x1) := by
  unfold val_main_v20 val_main_v17 val_main_v19 val_main_cst_4 val_main_cst_6
  rw [ref_row x0 x1 h0 h1, ref_col x0 x1 h0 h1]
  rfl

/-- Every weakly fair execution of the reference program, from a memory whose two clouds are real-valued, terminates with
    the shared last step of the specification's two arrays in its result, the two clouds unchanged. -/
theorem ref_run (m' : (ℓ : Loc nD τ sig) → Buf (Elt Ideal) ℓ) (ρ' : Dev nD → PrngReg)
    (hreal0 : ∀ (c : Dev nD) i, ∃ r : ℝ, m' ((c.tc : Thread nD τ).loc main_arg0) i = (r : EReal))
    (hreal1 : ∀ (c : Dev nD) i, ∃ r : ℝ, m' ((c.tc : Thread nD τ).loc main_arg1) i = (r : EReal)) :
    θ_run defs (onTc (τ := τ) (main (F := Ideal))) ⟨m', fun _ => 0, ρ'⟩ fun r => ∀ c : Dev nD,
      r.2.mem ((c.tc : Thread nD τ).loc main_v20)
          = Hausdorff.total
              (Hausdorff.rowArr (m' ((c.tc : Thread nD τ).loc main_arg0)) (m' ((c.tc : Thread nD τ).loc main_arg1)))
              (Hausdorff.colArr (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono
    (fun _ h c => ⟨by rw [(h c).1, Read.val_main_v20_eq, ref_total _ _ (hreal0 c) (hreal1 c)], (h c).2⟩)
    (Cert.ReferenceIdeal.Value.run (F := Ideal) m' ρ')

end Cert.ReferenceIdeal.RefValue

end
-- ==== Proof.lean ====
/-
  The symmetric Hausdorff sum of two point clouds, a fused kernel against its plain reference, over the extended reals.

  Both programs take clouds `pred` and `label` of 8192 points of ℝ³ in each of 4 batches and return the greatest
  distance from a point of `pred` to the cloud `label` plus the greatest distance from a point of `label` to the
  cloud `pred`. The kernel sweeps the 8192 × 8192 table of squared distances (x − y)·(x − y), summed coordinate by
  coordinate, in tiles of 512 rows by 2048 columns, keeping a running minimum along rows and one along columns, and
  takes each minimum's square root once it is complete. The reference forms ‖x‖² + ‖y‖² − 2 x·y, clamps it at zero,
  takes the square root of every entry and then the minima. Both end with the same two maxima and one sum.

  For finite inputs the two agree: the squared distance expands to ‖x‖² + ‖y‖² − 2 x·y over the reals and is
  nonnegative, so the clamp does nothing; the square root is monotone, so it commutes with a minimum; and a minimum
  does not depend on the order or the grouping in which it is taken. Finiteness is used exactly where the expansion
  cancels terms, which fails at infinities.

  The parts: the specification (Spec, Total); the running minima over the grid's 256 points (Sweep); the kernel's
  frame at the word-level and the ideal instance (K/Frame, KI/Frame: the body run once per control case, what each
  case leaves in the two output blocks, the recursion over the points); the kernel's value (KI/Payloads, KI/Pieces,
  KI/SweepAt, KI/Blocks, KI/OutBlocks, KI/Tail, KI/Final); the reference's value (RealLaws, Finite, RefDist, RefTotal).
-/
import proofs.«154686_j9887014715551_2_alg».proof.Defs
import proofs.«154686_j9887014715551_2_alg».proof.Proof.Gen.Kernel
import proofs.«154686_j9887014715551_2_alg».proof.Proof.Gen.KernelIdeal
import proofs.«154686_j9887014715551_2_alg».proof.Proof.Gen.ReferenceIdeal
import proofs.«154686_j9887014715551_2_alg».proof.Proof.Gen.ReferenceIdeal.Read
import proofs.«154686_j9887014715551_2_alg».proof.Proof.Gen.Pre_finite_inputs
import proofs.«154686_j9887014715551_2_alg».proof.Proof.K.Frame
import proofs.«154686_j9887014715551_2_alg».proof.Proof.KI.Frame
import proofs.«154686_j9887014715551_2_alg».proof.Proof.KI.SweepAt
import proofs.«154686_j9887014715551_2_alg».proof.Proof.KI.Final
import proofs.«154686_j9887014715551_2_alg».proof.Proof.Finite
import proofs.«154686_j9887014715551_2_alg».proof.Proof.RefTotal
import Idealize.ShloMosaic.Adequacy
import Idealize.ShloMosaic.Init

noncomputable section

namespace Cert.Proof

open Idealize.ShloMosaic Idealize.SL.Sem

/-- The word-level kernel runs and leaves its arguments unchanged. -/
theorem frame_k [Cert.Kernel.Facts] [Cert.Pre_finite_inputs.Facts] : Cert.frame_Kernel :=
  fun m ρ _ => Cert.Kernel.Gen.frame m ρ

/-- So does the kernel read at the ideal instance. -/
theorem frame_ki [Cert.KernelIdeal.Facts] [Cert.Pre_finite_inputs.Facts] : Cert.frame_KernelIdeal :=
  fun m ρ _ => Cert.KernelIdeal.Gen.frame m ρ

/-- The reference is a straight line of host operations: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end at the greatest row distance plus the greatest column distance of the same two clouds: the
    kernel by its sweep (no finiteness needed), the reference by the expansion of the squared distance, which needs
    the inputs real. -/
theorem algebraic [Cert.KernelIdeal.Facts] [Cert.ReferenceIdeal.Facts] [hP : Cert.Pre_finite_inputs.Facts] :
    Cert.algebraic_KernelIdeal_ReferenceIdeal := by
  intro m ρ m' ρ' hpre hagree
  refine ⟨fun c => Hausdorff.total
      (Hausdorff.rowArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Hausdorff.colArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.HostSide.kernel_run m ρ (Cert.KernelIdeal.HostSide.row_done m) (Cert.KernelIdeal.HostSide.col_done m), ?_⟩
  have hreal := fun c => Hausdorff.real_of_pre _ _ (hpre c)
  refine (θ_run Cert.ReferenceIdeal.defs _ _).mono (fun _ h c => ⟨?_, (h c).2.1, (h c).2.2⟩)
    (Cert.ReferenceIdeal.RefValue.ref_run m' ρ'
      (fun c i => by rw [(hagree c).1]; exact (hreal c).1 i) (fun c i => by rw [(hagree c).2]; exact (hreal c).2 i))
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
